-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x483 : Shape := ⟨2, ![20000, 483]⟩
abbrev S27x3 : Shape := ⟨2, ![27, 3]⟩
abbrev S_ : Shape := ⟨0, ![]⟩

class Facts : Prop where
  bcast_S_S20000x483 : S_.BroadcastsInDim S20000x483 (![] : Fin 0 → Fin S20000x483.rank)
  reducesTo_S20000x483_S_d0_1 : S20000x483.ReducesTo [0, 1] S_
  h_S_ : 0 < S_.numel
  bcast_S_S27x3 : S_.BroadcastsInDim S27x3 (![] : Fin 0 → Fin S27x3.rank)
  reducesTo_S27x3_S_d0_1 : S27x3.ReducesTo [0, 1] S_

variable [Facts]

def fn {F : FTy → Type} [FloatOps F] (main_arg0 : FVec F S20000x483 .f32) (main_arg1 : FVec F S27x3 .f32) : IVec S_ 1 :=
  let main_v0 : FVec F S20000x483 .f32 := Host.absf main_arg0
  let main_cst : FVec F S_ .f32 := constant S_ .f32 0x7F800000#32
  let main_v1 : FVec F S20000x483 .f32 := broadcastInDim S20000x483 ![] bcast_S_S20000x483 main_cst
  let main_v2 : IVec S20000x483 1 := cmpf .olt main_v0 main_v1
  let main_c : IVec S_ 1 := constantI S_ 1 1#1
  let main_v3 : IVec S_ 1 := (fun x v => Host.reduce IntOp.andi x v reducesTo_S20000x483_S_d0_1 h_S_) main_v2 main_c
  let main_v4 : FVec F S27x3 .f32 := Host.absf main_arg1
  let main_cst_0 : FVec F S_ .f32 := constant S_ .f32 0x7F800000#32
  let main_v5 : FVec F S27x3 .f32 := broadcastInDim S27x3 ![] bcast_S_S27x3 main_cst_0
  let main_v6 : IVec S27x3 1 := cmpf .olt main_v4 main_v5
  let main_c_1 : IVec S_ 1 := constantI S_ 1 1#1
  let main_v7 : IVec S_ 1 := (fun x v => Host.reduce IntOp.andi x v reducesTo_S27x3_S_d0_1 h_S_) main_v6 main_c_1
  let main_v8 : IVec S_ 1 := andi main_v3 main_v7
  main_v8
-- ==== Kernel.lean ====
abbrev S20000x483 : Shape := ⟨2, ![20000, 483]⟩
abbrev S27x3 : Shape := ⟨2, ![27, 3]⟩
abbrev S459 : Shape := ⟨1, ![459]⟩
abbrev S24 : Shape := ⟨1, ![24]⟩
abbrev S26x3 : Shape := ⟨2, ![26, 3]⟩
abbrev S1x3 : Shape := ⟨2, ![1, 3]⟩
abbrev S_ : Shape := ⟨0, ![]⟩
abbrev S26 : Shape := ⟨1, ![26]⟩
abbrev S1 : Shape := ⟨1, ![1]⟩
abbrev S27 : Shape := ⟨1, ![27]⟩
abbrev S483x41 : Shape := ⟨2, ![483, 41]⟩
abbrev S27x1 : Shape := ⟨2, ![27, 1]⟩
abbrev S27x17 : Shape := ⟨2, ![27, 17]⟩
abbrev S459x1 : Shape := ⟨2, ![459, 1]⟩
abbrev S459x2 : Shape := ⟨2, ![459, 2]⟩
abbrev S24x1 : Shape := ⟨2, ![24, 1]⟩
abbrev S24x2 : Shape := ⟨2, ![24, 2]⟩
abbrev S20000x41 : Shape := ⟨2, ![20000, 41]⟩
abbrev S4000x483 : Shape := ⟨2, ![4000, 483]⟩
abbrev S4000x41 : Shape := ⟨2, ![4000, 41]⟩

abbrev nBuf : Space → Nat
  | .hbm => 62
  | .vmem => 5
  | .smem => 0
  | _ => 0

abbrev bufTy : (tb : Table) → Fin (tcTables nBuf tb) → BufTy
  | .hbm, ⟨0, _⟩ => ⟨S20000x483, .f32⟩
  | .hbm, ⟨1, _⟩ => ⟨S27x3, .f32⟩
  | .hbm, ⟨2, _⟩ => ⟨S459, .i32⟩
  | .hbm, ⟨3, _⟩ => ⟨S459, .i1⟩
  | .hbm, ⟨4, _⟩ => ⟨S459, .i32⟩
  | .hbm, ⟨5, _⟩ => ⟨S459, .i1⟩
  | .hbm, ⟨6, _⟩ => ⟨S24, .i32⟩
  | .hbm, ⟨7, _⟩ => ⟨S24, .i1⟩
  | .hbm, ⟨8, _⟩ => ⟨S24, .i32⟩
  | .hbm, ⟨9, _⟩ => ⟨S24, .i1⟩
  | .hbm, ⟨10, _⟩ => ⟨S26x3, .f32⟩
  | .hbm, ⟨11, _⟩ => ⟨S1x3, .f32⟩
  | .hbm, ⟨12, _⟩ => ⟨S26x3, .f32⟩
  | .hbm, ⟨13, _⟩ => ⟨S26x3, .f32⟩
  | .hbm, ⟨14, _⟩ => ⟨S26x3, .f32⟩
  | .hbm, ⟨15, _⟩ => ⟨S_, .f32⟩
  | .hbm, ⟨16, _⟩ => ⟨S26, .f32⟩
  | .hbm, ⟨17, _⟩ => ⟨S26, .f32⟩
  | .hbm, ⟨18, _⟩ => ⟨S26, .f32⟩
  | .hbm, ⟨19, _⟩ => ⟨S26, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S27, .f32⟩
  | .hbm, ⟨24, _⟩ => ⟨S_, .f32⟩
  | .hbm, ⟨25, _⟩ => ⟨S27, .f32⟩
  | .hbm, ⟨26, _⟩ => ⟨S27, .f32⟩
  | .hbm, ⟨27, _⟩ => ⟨S_, .f32⟩
  | .hbm, ⟨28, _⟩ => ⟨S483x41, .f32⟩
  | .hbm, ⟨29, _⟩ => ⟨S27x1, .f32⟩
  | .hbm, ⟨30, _⟩ => ⟨S27x17, .f32⟩
  | .hbm, ⟨31, _⟩ => ⟨S459, .f32⟩
  | .hbm, ⟨32, _⟩ => ⟨S_, .i32⟩
  | .hbm, ⟨33, _⟩ => ⟨S459, .i32⟩
  | .hbm, ⟨34, _⟩ => ⟨S459, .i32⟩
  | .hbm, ⟨35, _⟩ => ⟨S459, .i32⟩
  | .hbm, ⟨36, _⟩ => ⟨S_, .i32⟩
  | .hbm, ⟨37, _⟩ => ⟨S459, .i32⟩
  | .hbm, ⟨38, _⟩ => ⟨S459, .i32⟩
  | .hbm, ⟨39, _⟩ => ⟨S459, .i32⟩
  | .hbm, ⟨40, _⟩ => ⟨S459x1, .i32⟩
  | .hbm, ⟨41, _⟩ => ⟨S459x1, .i32⟩
  | .hbm, ⟨42, _⟩ => ⟨S459x2, .i32⟩
  | .hbm, ⟨43, _⟩ => ⟨S483x41, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S24, .i32⟩
  | .hbm, ⟨50, _⟩ => ⟨S24, .i32⟩
  | .hbm, ⟨51, _⟩ => ⟨S24, .i32⟩
  | .hbm, ⟨52, _⟩ => ⟨S_, .i32⟩
  | .hbm, ⟨53, _⟩ => ⟨S24, .i32⟩
  | .hbm, ⟨54, _⟩ => ⟨S24, .i32⟩
  | .hbm, ⟨55, _⟩ => ⟨S24, .i32⟩
  | .hbm, ⟨56, _⟩ => ⟨S24x1, .i32⟩
  | .hbm, ⟨57, _⟩ => ⟨S24x1, .i32⟩
  | .hbm, ⟨58, _⟩ => ⟨S24x2, .i32⟩
  | .hbm, ⟨59, _⟩ => ⟨S24, .f32⟩
  | .hbm, ⟨60, _⟩ => ⟨S483x41, .f32⟩
  | .hbm, ⟨61, _⟩ => ⟨S20000x41, .f32⟩
  | .local _ .vmem, ⟨0, _⟩ => ⟨S4000x483, .f32⟩
  | .local _ .vmem, ⟨1, _⟩ => ⟨S4000x483, .f32⟩
  | .local _ .vmem, ⟨2, _⟩ => ⟨S483x41, .f32⟩
  | .local _ .vmem, ⟨3, _⟩ => ⟨S4000x41, .f32⟩
  | .local _ .vmem, ⟨4, _⟩ => ⟨S4000x41, .f32⟩
  | _, _ => ⟨S20000x483, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_7 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_8 : Ref sig .tc := ⟨.hbm, 24, rfl⟩
abbrev main_v12 : Ref sig .tc := ⟨.hbm, 25, rfl⟩
abbrev main_v13 : Ref sig .tc := ⟨.hbm, 26, rfl⟩
abbrev main_cst_9 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_10 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_11 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_12 : Ref sig .tc := ⟨.hbm, 46, rfl⟩
abbrev main_v30 : Ref sig .tc := ⟨.hbm, 47, rfl⟩
abbrev main_c_13 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_14 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x483 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S483x41 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x41 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S27x3_S26x3_1_0 : S27x3.Slices ![1, 0] S26x3
  slices_S27x3_S1x3_0_0 : S27x3.Slices ![0, 0] S1x3
  bcast_S1x3_S26x3_0_1 : S1x3.BroadcastsInDim S26x3 (![0, 1] : Fin 2 → Fin S26x3.rank)
  reducesTo_S26x3_S26_d1 : S26x3.ReducesTo [1] S26
  h_S_ : 0 < S_.numel
  reducesTo_S26_S_d0 : S26.ReducesTo [0] S_
  bcast_S_S1 : S_.BroadcastsInDim S1 (![] : Fin 0 → Fin S1.rank)
  concatenates_S1_S26_S27_d0 : Shape.Concatenates [S1, S26] S27 0
  bcast_S_S27 : S_.BroadcastsInDim S27 (![] : Fin 0 → Fin S27.rank)
  bcast_S_S483x41 : S_.BroadcastsInDim S483x41 (![] : Fin 0 → Fin S483x41.rank)
  bcast_S27_S27x1_0 : S27.BroadcastsInDim S27x1 (![0] : Fin 1 → Fin S27x1.rank)
  bcast_S27x1_S27x17_0_1 : S27x1.BroadcastsInDim S27x17 (![0, 1] : Fin 2 → Fin S27x17.rank)
  shapeCasts_S27x17_S459 : S27x17.ShapeCasts S459
  bcast_S_S459 : S_.BroadcastsInDim S459 (![] : Fin 0 → Fin S459.rank)
  bcast_S459_S459x1_0 : S459.BroadcastsInDim S459x1 (![0] : Fin 1 → Fin S459x1.rank)
  concatenates_S459x1_S459x1_S459x2_d1 : Shape.Concatenates [S459x1, S459x1] S459x2 1
  slices_S27_S1_0 : S27.Slices ![0] S1
  shapeCasts_S1_S_ : S1.ShapeCasts S_
  bcast_S_S24 : S_.BroadcastsInDim S24 (![] : Fin 0 → Fin S24.rank)
  bcast_S24_S24x1_0 : S24.BroadcastsInDim S24x1 (![0] : Fin 1 → Fin S24x1.rank)
  concatenates_S24x1_S24x1_S24x2_d1 : Shape.Concatenates [S24x1, S24x1] S24x2 1
  inb_S4000x483_S4000x483_0_0 : ∀ a, (![0, 0] : Fin 2 → Nat) a + S4000x483.size a ≤ S4000x483.size a
  h_S4000x483 : 0 < S4000x483.numel
  inb_S483x41_S483x41_0_0 : ∀ a, (![0, 0] : Fin 2 → Nat) a + S483x41.size a ≤ S483x41.size a
  h_S483x41 : 0 < S483x41.numel
  shapeCasts_S483x41_S483x41 : S483x41.ShapeCasts S483x41
  inb_S4000x41_S4000x41_0_0 : ∀ a, (![0, 0] : Fin 2 → Nat) a + S4000x41.size a ≤ S4000x41.size a
  h_S4000x41 : 0 < S4000x41.numel
  scatter_S483x41_S459x2_S459_n_01_01_1_wf : ScatterDims.WF S483x41 S459x2 S459 [] [0, 1] [0, 1] 1
  scatter_S483x41_S24x2_S24_n_01_01_1_wf : ScatterDims.WF S483x41 S24x2 S24 [] [0, 1] [0, 1] 1
  dot_S4000x483_S483x41_S4000x41_1_0_0_1_n_n_wf : DotDims.WF S4000x483 S483x41 S4000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x483.size a ≤ S20000x483.size a
  hwx0_0 : ∀ i : grid0.Coords, EltTy.bits .f32 = 32 ∨ (Rect.block (s := S20000x483) S4000x483.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S483x41.size a ≤ S483x41.size a
  hwx0_1 : ∀ i : grid0.Coords, EltTy.bits .f32 = 32 ∨ (Rect.block (s := S483x41) S483x41.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x41.size a ≤ S20000x41.size a
  hwx0_2 : ∀ i : grid0.Coords, EltTy.bits .f32 = 32 ∨ (Rect.block (s := S20000x41) S4000x41.size (cc0_transform_2 i) (hinb0_2 i)).WholeWords (EltTy.packing .f32)

variable [Facts₀]

def scatter_S483x41_S459x2_S459_n_01_01_1 : ScatterDims S483x41 S459x2 S459 where
  updateWindowDims := []
  insertedWindowDims := [0, 1]
  scatterDimsToOperandDims := [0, 1]
  indexVectorDim := 1
  wf := scatter_S483x41_S459x2_S459_n_01_01_1_wf
def scatter_S483x41_S24x2_S24_n_01_01_1 : ScatterDims S483x41 S24x2 S24 where
  updateWindowDims := []
  insertedWindowDims := [0, 1]
  scatterDimsToOperandDims := [0, 1]
  indexVectorDim := 1
  wf := scatter_S483x41_S24x2_S24_n_01_01_1_wf
def dot_S4000x483_S483x41_S4000x41_1_0_0_1_n_n : DotDims S4000x483 S483x41 S4000x41 where
  lhsContracting := [1]
  rhsContracting := [0]
  lhsNonContracting := [0]
  rhsNonContracting := [1]
  lhsBatch := []
  rhsBatch := []
  wf := dot_S4000x483_S483x41_S4000x41_1_0_0_1_n_n_wf

abbrev win0_0 : Pipeline.Window sig grid0 :=
  Pipeline.Window.ofSpec (Memref.whole main_arg0) S4000x483.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S483x41.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4000x41.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S20000x483 : Shape := ⟨2, ![20000, 483]⟩
abbrev S27x3 : Shape := ⟨2, ![27, 3]⟩
abbrev S20000x459 : Shape := ⟨2, ![20000, 459]⟩
abbrev S20000x24 : Shape := ⟨2, ![20000, 24]⟩
abbrev S20000x1x24 : Shape := ⟨3, ![20000, 1, 24]⟩
abbrev S20000x27x24 : Shape := ⟨3, ![20000, 27, 24]⟩
abbrev S20000x27x17 : Shape := ⟨3, ![20000, 27, 17]⟩
abbrev S20000x27x16 : Shape := ⟨3, ![20000, 27, 16]⟩
abbrev S20000x27x1 : Shape := ⟨3, ![20000, 27, 1]⟩
abbrev S20000x27x41 : Shape := ⟨3, ![20000, 27, 41]⟩
abbrev S540000x41 : Shape := ⟨2, ![540000, 41]⟩
abbrev S540000x4 : Shape := ⟨2, ![540000, 4]⟩
abbrev S540000x4x1 : Shape := ⟨3, ![540000, 4, 1]⟩
abbrev S540000x1 : Shape := ⟨2, ![540000, 1]⟩
abbrev S540000x1x1 : Shape := ⟨3, ![540000, 1, 1]⟩
abbrev S540000x5x1 : Shape := ⟨3, ![540000, 5, 1]⟩
abbrev S540000x12 : Shape := ⟨2, ![540000, 12]⟩
abbrev S540000x4x3 : Shape := ⟨3, ![540000, 4, 3]⟩
abbrev S540000x24 : Shape := ⟨2, ![540000, 24]⟩
abbrev S540000x8x3 : Shape := ⟨3, ![540000, 8, 3]⟩
abbrev S540000x12x3 : Shape := ⟨3, ![540000, 12, 3]⟩
abbrev S540000x5 : Shape := ⟨2, ![540000, 5]⟩
abbrev S540000x36 : Shape := ⟨2, ![540000, 36]⟩
abbrev S_ : Shape := ⟨0, ![]⟩
abbrev S26 : Shape := ⟨1, ![26]⟩
abbrev S52 : Shape := ⟨1, ![52]⟩
abbrev S20000 : Shape := ⟨1, ![20000]⟩
abbrev S20000x1 : Shape := ⟨2, ![20000, 1]⟩
abbrev S1x52 : Shape := ⟨2, ![1, 52]⟩
abbrev S20000x52 : Shape := ⟨2, ![20000, 52]⟩
abbrev S1040000 : Shape := ⟨1, ![1040000]⟩
abbrev S52x1 : Shape := ⟨2, ![52, 1]⟩
abbrev S52x3 : Shape := ⟨2, ![52, 3]⟩
abbrev S1040000x1 : Shape := ⟨2, ![1040000, 1]⟩
abbrev S1 : Shape := ⟨1, ![1]⟩
abbrev S1x1 : Shape := ⟨2, ![1, 1]⟩
abbrev S1040000x41 : Shape := ⟨2, ![1040000, 41]⟩
abbrev S20000x41 : Shape := ⟨2, ![20000, 41]⟩

abbrev nBuf : Space → Nat
  | .hbm => 111
  | .vmem => 0
  | .smem => 0
  | _ => 0

abbrev bufTy : (tb : Table) → Fin (tcTables nBuf tb) → BufTy
  | .hbm, ⟨0, _⟩ => ⟨S20000x483, .f32⟩
  | .hbm, ⟨1, _⟩ => ⟨S27x3, .f32⟩
  | .hbm, ⟨2, _⟩ => ⟨S20000x459, .f32⟩
  | .hbm, ⟨3, _⟩ => ⟨S20000x24, .f32⟩
  | .hbm, ⟨4, _⟩ => ⟨S20000x1x24, .f32⟩
  | .hbm, ⟨5, _⟩ => ⟨S20000x27x24, .f32⟩
  | .hbm, ⟨6, _⟩ => ⟨S20000x27x17, .f32⟩
  | .hbm, ⟨7, _⟩ => ⟨S20000x27x16, .f32⟩
  | .hbm, ⟨8, _⟩ => ⟨S20000x27x1, .f32⟩
  | .hbm, ⟨9, _⟩ => ⟨S20000x27x41, .f32⟩
  | .hbm, ⟨10, _⟩ => ⟨S540000x41, .f32⟩
  | .hbm, ⟨11, _⟩ => ⟨S540000x4, .f32⟩
  | .hbm, ⟨12, _⟩ => ⟨S540000x4x1, .f32⟩
  | .hbm, ⟨13, _⟩ => ⟨S540000x1, .f32⟩
  | .hbm, ⟨14, _⟩ => ⟨S540000x1x1, .f32⟩
  | .hbm, ⟨15, _⟩ => ⟨S540000x5x1, .f32⟩
  | .hbm, ⟨16, _⟩ => ⟨S540000x12, .f32⟩
  | .hbm, ⟨17, _⟩ => ⟨S540000x4x3, .f32⟩
  | .hbm, ⟨18, _⟩ => ⟨S540000x24, .f32⟩
  | .hbm, ⟨19, _⟩ => ⟨S540000x8x3, .f32⟩
  | .hbm, ⟨20, _⟩ => ⟨S540000x12x3, .f32⟩
  | .hbm, ⟨21, _⟩ => ⟨S540000x5, .f32⟩
  | .hbm, ⟨22, _⟩ => ⟨S540000x36, .f32⟩
  | .hbm, ⟨23, _⟩ => ⟨S540000x41, .f32⟩
  | .hbm, ⟨24, _⟩ => ⟨S_, .i32⟩
  | .hbm, ⟨25, _⟩ => ⟨S26, .i32⟩
  | .hbm, ⟨26, _⟩ => ⟨S26, .i32⟩
  | .hbm, ⟨27, _⟩ => ⟨S_, .i32⟩
  | .hbm, ⟨28, _⟩ => ⟨S26, .i32⟩
  | .hbm, ⟨29, _⟩ => ⟨S26, .i32⟩
  | .hbm, ⟨30, _⟩ => ⟨S52, .i32⟩
  | .hbm, ⟨31, _⟩ => ⟨S52, .i32⟩
  | .hbm, ⟨32, _⟩ => ⟨S20000, .i32⟩
  | .hbm, ⟨33, _⟩ => ⟨S20000x1, .i32⟩
  | .hbm, ⟨34, _⟩ => ⟨S_, .i32⟩
  | .hbm, ⟨35, _⟩ => ⟨S20000x1, .i32⟩
  | .hbm, ⟨36, _⟩ => ⟨S20000x1, .i32⟩
  | .hbm, ⟨37, _⟩ => ⟨S1x52, .i32⟩
  | .hbm, ⟨38, _⟩ => ⟨S20000x52, .i32⟩
  | .hbm, ⟨39, _⟩ => ⟨S20000x52, .i32⟩
  | .hbm, ⟨40, _⟩ => ⟨S20000x52, .i32⟩
  | .hbm, ⟨41, _⟩ => ⟨S1040000, .i32⟩
  | .hbm, ⟨42, _⟩ => ⟨S1x52, .i32⟩
  | .hbm, ⟨43, _⟩ => ⟨S20000x52, .i32⟩
  | .hbm, ⟨44, _⟩ => ⟨S20000x52, .i32⟩
  | .hbm, ⟨45, _⟩ => ⟨S20000x52, .i32⟩
  | .hbm, ⟨46, _⟩ => ⟨S1040000, .i32⟩
  | .hbm, ⟨47, _⟩ => ⟨S_, .i32⟩
  | .hbm, ⟨48, _⟩ => ⟨S52, .i32⟩
  | .hbm, ⟨49, _⟩ => ⟨S52, .i1⟩
  | .hbm, ⟨50, _⟩ => ⟨S_, .i32⟩
  | .hbm, ⟨51, _⟩ => ⟨S52, .i32⟩
  | .hbm, ⟨52, _⟩ => ⟨S52, .i32⟩
  | .hbm, ⟨53, _⟩ => ⟨S52, .i32⟩
  | .hbm, ⟨54, _⟩ => ⟨S52x1, .i32⟩
  | .hbm, ⟨55, _⟩ => ⟨S52x3, .f32⟩
  | .hbm, ⟨56, _⟩ => ⟨S_, .i32⟩
  | .hbm, ⟨57, _⟩ => ⟨S52, .i32⟩
  | .hbm, ⟨58, _⟩ => ⟨S52, .i1⟩
  | .hbm, ⟨59, _⟩ => ⟨S_, .i32⟩
  | .hbm, ⟨60, _⟩ => ⟨S52, .i32⟩
  | .hbm, ⟨61, _⟩ => ⟨S52, .i32⟩
  | .hbm, ⟨62, _⟩ => ⟨S52, .i32⟩
  | .hbm, ⟨63, _⟩ => ⟨S52x1, .i32⟩
  | .hbm, ⟨64, _⟩ => ⟨S52x3, .f32⟩
  | .hbm, ⟨65, _⟩ => ⟨S52x3, .f32⟩
  | .hbm, ⟨66, _⟩ => ⟨S52x3, .f32⟩
  | .hbm, ⟨67, _⟩ => ⟨S_, .f32⟩
  | .hbm, ⟨68, _⟩ => ⟨S52, .f32⟩
  | .hbm, ⟨69, _⟩ => ⟨S52, .f32⟩
  | .hbm, ⟨70, _⟩ => ⟨S52, .f32⟩
  | .hbm, ⟨71, _⟩ => ⟨S52, .f32⟩
  | .hbm, ⟨72, _⟩ => ⟨S1x52, .f32⟩
  | .hbm, ⟨73, _⟩ => ⟨S20000x52, .f32⟩
  | .hbm, ⟨74, _⟩ => ⟨S1040000, .f32⟩
  | .hbm, ⟨75, _⟩ => ⟨S_, .i32⟩
  | .hbm, ⟨76, _⟩ => ⟨S1040000, .i32⟩
  | .hbm, ⟨77, _⟩ => ⟨S1040000, .i1⟩
  | .hbm, ⟨78, _⟩ => ⟨S_, .i32⟩
  | .hbm, ⟨79, _⟩ => ⟨S1040000, .i32⟩
  | .hbm, ⟨80, _⟩ => ⟨S1040000, .i32⟩
  | .hbm, ⟨81, _⟩ => ⟨S1040000, .i32⟩
  | .hbm, ⟨82, _⟩ => ⟨S1040000x1, .i32⟩
  | .hbm, ⟨83, _⟩ => ⟨S1, .i32⟩
  | .hbm, ⟨84, _⟩ => ⟨S_, .i32⟩
  | .hbm, ⟨85, _⟩ => ⟨S1040000x1, .i32⟩
  | .hbm, ⟨86, _⟩ => ⟨S1040000x1, .i1⟩
  | .hbm, ⟨87, _⟩ => ⟨S1x1, .i32⟩
  | .hbm, ⟨88, _⟩ => ⟨S1040000x1, .i32⟩
  | .hbm, ⟨89, _⟩ => ⟨S1040000x1, .i1⟩
  | .hbm, ⟨90, _⟩ => ⟨S1040000x1, .i1⟩
  | .hbm, ⟨91, _⟩ => ⟨S_, .i1⟩
  | .hbm, ⟨92, _⟩ => ⟨S1040000, .i1⟩
  | .hbm, ⟨93, _⟩ => ⟨S1040000x41, .f32⟩
  | .hbm, ⟨94, _⟩ => ⟨S1040000x41, .i1⟩
  | .hbm, ⟨95, _⟩ => ⟨S_, .f32⟩
  | .hbm, ⟨96, _⟩ => ⟨S1040000x41, .f32⟩
  | .hbm, ⟨97, _⟩ => ⟨S1040000x41, .f32⟩
  | .hbm, ⟨98, _⟩ => ⟨S1040000x1, .f32⟩
  | .hbm, ⟨99, _⟩ => ⟨S1040000x41, .f32⟩
  | .hbm, ⟨100, _⟩ => ⟨S1040000x41, .f32⟩
  | .hbm, ⟨101, _⟩ => ⟨S_, .f32⟩
  | .hbm, ⟨102, _⟩ => ⟨S540000x41, .f32⟩
  | .hbm, ⟨103, _⟩ => ⟨S1040000x1, .i32⟩
  | .hbm, ⟨104, _⟩ => ⟨S540000x41, .f32⟩
  | .hbm, ⟨105, _⟩ => ⟨S20000x27x41, .f32⟩
  | .hbm, ⟨106, _⟩ => ⟨S_, .f32⟩
  | .hbm, ⟨107, _⟩ => ⟨S20000x41, .f32⟩
  | .hbm, ⟨108, _⟩ => ⟨S_, .f32⟩
  | .hbm, ⟨109, _⟩ => ⟨S20000x41, .f32⟩
  | .hbm, ⟨110, _⟩ => ⟨S20000x41, .f32⟩
  | _, _ => ⟨S20000x483, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_c : Ref sig .tc := ⟨.hbm, 24, rfl⟩
abbrev main_v22 : Ref sig .tc := ⟨.hbm, 25, rfl⟩
abbrev main_v23 : Ref sig .tc := ⟨.hbm, 26, rfl⟩
abbrev main_c_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c_2 : Ref sig .tc := ⟨.hbm, 47, rfl⟩
abbrev main_v42 : Ref sig .tc := ⟨.hbm, 48, rfl⟩
abbrev main_v43 : Ref sig .tc := ⟨.hbm, 49, rfl⟩
abbrev main_c_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_4 : Ref sig .tc := ⟨.hbm, 56, rfl⟩
abbrev main_v49 : Ref sig .tc := ⟨.hbm, 57, rfl⟩
abbrev main_v50 : Ref sig .tc := ⟨.hbm, 58, rfl⟩
abbrev main_c_5 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_call0_v0 : Ref sig .tc := ⟨.hbm, 66, rfl⟩
abbrev main_call0_cst : Ref sig .tc := ⟨.hbm, 67, rfl⟩
abbrev main_call0_v1 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_6 : Ref sig .tc := ⟨.hbm, 106, rfl⟩
abbrev main_v71 : Ref sig .tc := ⟨.hbm, 107, rfl⟩
abbrev main_cst_7 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]

class Facts₀ : Prop where
  slices_S20000x483_S20000x459_0_0 : S20000x483.Slices ![0, 0] S20000x459
  slices_S20000x483_S20000x24_0_459 : S20000x483.Slices ![0, 459] S20000x24
  bcast_S20000x24_S20000x1x24_0_2 : S20000x24.BroadcastsInDim S20000x1x24 (![0, 2] : Fin 2 → Fin S20000x1x24.rank)
  bcast_S20000x1x24_S20000x27x24_0_1_2 : S20000x1x24.BroadcastsInDim S20000x27x24 (![0, 1, 2] : Fin 3 → Fin S20000x27x24.rank)
  shapeCasts_S20000x459_S20000x27x17 : S20000x459.ShapeCasts S20000x27x17
  slices_S20000x27x17_S20000x27x16_0_0_0 : S20000x27x17.Slices ![0, 0, 0] S20000x27x16
  slices_S20000x27x17_S20000x27x1_0_0_16 : S20000x27x17.Slices ![0, 0, 16] S20000x27x1
  concatenates_S20000x27x16_S20000x27x1_S20000x27x24_S20000x27x41_d2 : Shape.Concatenates [S20000x27x16, S20000x27x1, S20000x27x24] S20000x27x41 2
  shapeCasts_S20000x27x41_S540000x41 : S20000x27x41.ShapeCasts S540000x41
  slices_S540000x41_S540000x4_0_0 : S540000x41.Slices ![0, 0] S540000x4
  shapeCasts_S540000x4_S540000x4x1 : S540000x4.ShapeCasts S540000x4x1
  slices_S540000x41_S540000x1_0_16 : S540000x41.Slices ![0, 16] S540000x1
  shapeCasts_S540000x1_S540000x1x1 : S540000x1.ShapeCasts S540000x1x1
  concatenates_S540000x4x1_S540000x1x1_S540000x5x1_d1 : Shape.Concatenates [S540000x4x1, S540000x1x1] S540000x5x1 1
  slices_S540000x41_S540000x12_0_4 : S540000x41.Slices ![0, 4] S540000x12
  shapeCasts_S540000x12_S540000x4x3 : S540000x12.ShapeCasts S540000x4x3
  slices_S540000x41_S540000x24_0_17 : S540000x41.Slices ![0, 17] S540000x24
  shapeCasts_S540000x24_S540000x8x3 : S540000x24.ShapeCasts S540000x8x3
  concatenates_S540000x4x3_S540000x8x3_S540000x12x3_d1 : Shape.Concatenates [S540000x4x3, S540000x8x3] S540000x12x3 1
  shapeCasts_S540000x5x1_S540000x5 : S540000x5x1.ShapeCasts S540000x5
  shapeCasts_S540000x12x3_S540000x36 : S540000x12x3.ShapeCasts S540000x36
  concatenates_S540000x5_S540000x36_S540000x41_d1 : Shape.Concatenates [S540000x5, S540000x36] S540000x41 1
  bcast_S_S26 : S_.BroadcastsInDim S26 (![] : Fin 0 → Fin S26.rank)
  concatenates_S26_S26_S52_d0 : Shape.Concatenates [S26, S26] S52 0
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S52_S1x52_1 : S52.BroadcastsInDim S1x52 (![1] : Fin 1 → Fin S1x52.rank)
  bcast_S20000x1_S20000x52_0_1 : S20000x1.BroadcastsInDim S20000x52 (![0, 1] : Fin 2 → Fin S20000x52.rank)
  bcast_S1x52_S20000x52_0_1 : S1x52.BroadcastsInDim S20000x52 (![0, 1] : Fin 2 → Fin S20000x52.rank)
  shapeCasts_S20000x52_S1040000 : S20000x52.ShapeCasts S1040000
  bcast_S_S52 : S_.BroadcastsInDim S52 (![] : Fin 0 → Fin S52.rank)
  bcast_S52_S52x1_0 : S52.BroadcastsInDim S52x1 (![0] : Fin 1 → Fin S52x1.rank)
  reducesTo_S52x3_S52_d1 : S52x3.ReducesTo [1] S52
  h_S_ : 0 < S_.numel
  shapeCasts_S52_S1x52 : S52.ShapeCasts S1x52
  bcast_S_S1040000 : S_.BroadcastsInDim S1040000 (![] : Fin 0 → Fin S1040000.rank)
  bcast_S1040000_S1040000x1_0 : S1040000.BroadcastsInDim S1040000x1 (![0] : Fin 1 → Fin S1040000x1.rank)
  bcast_S_S1040000x1 : S_.BroadcastsInDim S1040000x1 (![] : Fin 0 → Fin S1040000x1.rank)
  bcast_S1_S1x1_1 : S1.BroadcastsInDim S1x1 (![1] : Fin 1 → Fin S1x1.rank)
  bcast_S1x1_S1040000x1_0_1 : S1x1.BroadcastsInDim S1040000x1 (![0, 1] : Fin 2 → Fin S1040000x1.rank)
  reducesTo_S1040000x1_S1040000_d1 : S1040000x1.ReducesTo [1] S1040000
  bcast_S1040000_S1040000x41_0 : S1040000.BroadcastsInDim S1040000x41 (![0] : Fin 1 → Fin S1040000x41.rank)
  bcast_S_S1040000x41 : S_.BroadcastsInDim S1040000x41 (![] : Fin 0 → Fin S1040000x41.rank)
  bcast_S1040000x1_S1040000x41_0_1 : S1040000x1.BroadcastsInDim S1040000x41 (![0, 1] : Fin 2 → Fin S1040000x41.rank)
  bcast_S_S540000x41 : S_.BroadcastsInDim S540000x41 (![] : Fin 0 → Fin S540000x41.rank)
  shapeCasts_S540000x41_S20000x27x41 : S540000x41.ShapeCasts S20000x27x41
  reducesTo_S20000x27x41_S20000x41_d1 : S20000x27x41.ReducesTo [1] S20000x41
  bcast_S_S20000x41 : S_.BroadcastsInDim S20000x41 (![] : Fin 0 → Fin S20000x41.rank)
  gather_S27x3_S52x1_S52x3_1_0_n_n_0_1_13_wf : GatherDims.WF S27x3 S52x1 S52x3 [1] [0] [] [0] [] 1 ![1, 3]
  gather_S540000x41_S1040000x1_S1040000x41_1_0_n_n_0_1_141_wf : GatherDims.WF S540000x41 S1040000x1 S1040000x41 [1] [0] [] [0] [] 1 ![1, 41]
  scatter_S540000x41_S1040000x1_S1040000x41_1_0_0_1_wf : ScatterDims.WF S540000x41 S1040000x1 S1040000x41 [1] [0] [0] 1

variable [Facts₀]

def gather_S27x3_S52x1_S52x3_1_0_n_n_0_1_13 : GatherDims S27x3 S52x1 S52x3 where
  offsetDims := [1]
  collapsedSliceDims := [0]
  operandBatchingDims := []
  startIndicesBatchingDims := []
  startIndexMap := [0]
  indexVectorDim := 1
  sliceSizes := ![1, 3]
  wf := gather_S27x3_S52x1_S52x3_1_0_n_n_0_1_13_wf
def gather_S540000x41_S1040000x1_S1040000x41_1_0_n_n_0_1_141 : GatherDims S540000x41 S1040000x1 S1040000x41 where
  offsetDims := [1]
  collapsedSliceDims := [0]
  operandBatchingDims := []
  startIndicesBatchingDims := []
  startIndexMap := [0]
  indexVectorDim := 1
  sliceSizes := ![1, 41]
  wf := gather_S540000x41_S1040000x1_S1040000x41_1_0_n_n_0_1_141_wf
def scatter_S540000x41_S1040000x1_S1040000x41_1_0_0_1 : ScatterDims S540000x41 S1040000x1 S1040000x41 where
  updateWindowDims := [1]
  insertedWindowDims := [0]
  scatterDimsToOperandDims := [0]
  indexVectorDim := 1
  wf := scatter_S540000x41_S1040000x1_S1040000x41_1_0_0_1_wf

class Facts : Prop extends Facts₀ where

variable [Facts]
-- ==== Proof.Spec.lean ====
/-
  The mathematics both programs compute, with no program imported.

  A sample's state row holds, for each of 27 nodes v, 17 per-node channels at columns 17 · v + c, followed by 24
  direction channels (columns 459 …) shared by all nodes. Output column `j` reads channel `perm j`. The nodes form a
  star: the centre 0 is joined to each leaf v = 1 … 26 by an edge in each direction, 52 directed edges, and an edge
  between nodes a and b weighs `wgt D a b = exp (−‖D a − D b‖)`.

  * `refOut` — the message-passing form: every node receives the channel of its edges' sources times the edges'
    weights, and the 27 nodes' totals are averaged.
  * `Mspec`, `kerOut` — the matrix form: the state row times a fixed sparse matrix whose entries are the node
    coefficients `coef D v` (the centre's is the sum of all leaf weights, a leaf's is its own weight, over 27), and
    twice the centre's coefficient for the shared direction channels.
-/
import Idealize.ShloMosaic.PureOps.Ideal
import Idealize.ShloMosaic.Lib.ValueIdx

noncomputable section

namespace Cert.Spec

open Idealize.ShloMosaic Idealize.ShloMosaic.ValueIdx

abbrev SX : Shape := ⟨2, ![20000, 483]⟩
abbrev SD : Shape := ⟨2, ![27, 3]⟩
abbrev SM : Shape := ⟨2, ![483, 41]⟩

/-- Output column `j` reads channel `perm j`: 0 1 2 3, then 16, then 4 … 15, then 17 … 40. -/
def perm (j : Fin 41) : Fin 41 :=
  if j.val < 4 then j else if j.val = 4 then ⟨16, by omega⟩ else if h : j.val < 17 then ⟨j.val - 1, by omega⟩ else j

/-- The state column holding channel `c` of node `v`: per-node channels at 17 · v + c, the shared ones at 459 + (c − 17). -/
def col (v : Fin 27) (c : Fin 41) : Fin 483 :=
  if h : c.val < 17 then ⟨17 * v.val + c.val, by omega⟩ else ⟨459 + (c.val - 17), by omega⟩

/-- Edge `s`'s source: the centre for the first 26 edges, leaf s − 25 for the others. -/
def edgeSrc (s : Fin 52) : Fin 27 := if h : s.val < 26 then ⟨0, by omega⟩ else ⟨s.val - 25, by omega⟩

/-- Edge `s`'s destination: leaf s + 1 for the first 26 edges, the centre for the others. -/
def edgeDst (s : Fin 52) : Fin 27 := if h : s.val < 26 then ⟨s.val + 1, by omega⟩ else ⟨0, by omega⟩

/-- The weight of an edge between nodes `a` and `b`: exp (−√(0 + Σ_d (D a d − D b d)²)). -/
def wgt (D : SD.Idx → EReal) (a b : Fin 27) : EReal :=
  Ideal.exp (-(Ideal.sqrt (0 + ∑ d : Fin 3, (D (ix2 a d) - D (ix2 b d)) * (D (ix2 a d) - D (ix2 b d)))))

/-- The literal 27.0. -/
abbrev c27 : EReal := Ideal.ofBits .f32 0x41D80000#32
/-- The literal 2.0. -/
abbrev c2 : EReal := Ideal.ofBits .f32 0x40000000#32

theorem c27_eq : c27 = ((27 : ℝ) : EReal) := by
  simp [c27, Ideal.ofBits, Ideal.ieee, -EReal.coe_mul]; norm_num

theorem c2_eq : c2 = ((2 : ℝ) : EReal) := by
  simp [c2, Ideal.ofBits, Ideal.ieee, -EReal.coe_mul]; norm_num

theorem zero_eq : Ideal.ofBits .f32 0x00000000#32 = 0 := by
  simp [Ideal.ofBits, Ideal.ieee]

/-- The leaf weights as the kernel program lists them: leaf u + 1 against the centre. -/
def leafW (D : SD.Idx → EReal) (u : Fin 26) : EReal := wgt D ⟨u.val + 1, by omega⟩ ⟨0, by omega⟩

/-- Node `v`'s coefficient: (the sum of the leaf weights for the centre, the leaf's own weight for a leaf) / 27. -/
def coef (D : SD.Idx → EReal) (v : Fin 27) : EReal :=
  Ideal.div (if h : v.val = 0 then 0 + ∑ u : Fin 26, leafW D u else leafW D ⟨v.val - 1, by omega⟩) c27

/-- The weight matrix: row 17 · v + c (a per-node channel) holds node v's coefficient in the column reading channel c;
    row 459 + d (a shared channel) holds twice the centre's coefficient in the column reading channel 17 + d;
    zero elsewhere. -/
def Mspec (D : SD.Idx → EReal) (k : Fin 483) (j : Fin 41) : EReal :=
  if h : k.val < 459 then
    (if (perm j).val = k.val % 17 then coef D ⟨k.val / 17, by omega⟩ else 0)
  else
    (if (perm j).val = 17 + (k.val - 459) then c2 * coef D ⟨0, by omega⟩ else 0)

/-- The matrix form: row `i` of the state times column `j` of a matrix. -/
def kerOut (X : SX.Idx → EReal) (Mx : SM.Idx → EReal) (i : Fin 20000) (j : Fin 41) : EReal :=
  ∑ k : Fin 483, X (ix2 i k) * Mx (ix2 k j)

/-- The message-passing form: node `n` of sample `i` receives, over the edges `s` ending at it, the source node's
    channel times the edge's weight; the 27 nodes' totals are averaged. -/
def refOut (X : SX.Idx → EReal) (D : SD.Idx → EReal) (i : Fin 20000) (j : Fin 41) : EReal :=
  Ideal.div
    (0 + ∑ n : Fin 27,
      (0 + ∑ s ∈ Finset.univ.filter (fun s : Fin 52 => edgeDst s = n),
        X (ix2 i (col (edgeSrc s) (perm j))) * wgt D (edgeDst s) (edgeSrc s)))
    c27

/-- Every entry is a real number. -/
def Finite {S : Shape} (A : S.Idx → EReal) : Prop := ∀ i, ∃ r : ℝ, A i = (r : EReal)

end Cert.Spec

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KerValue.lean ====
/-
  The kernel's launch read as a value: the result array is the state times the weight matrix, entry by entry.

  The launch walks five grid points; point `t` stages rows 4000 · t … 4000 · t + 3999 of the state, the whole weight
  matrix, and writes back the same rows of the result. Its body stores one matrix product into a zero accumulator, so
  the entry (p, q) of the block is the sum over the 483 contracted columns of state (4000 · t + p, k) · matrix (k, q).
  Every row of the result lies in exactly one point's block, so the whole array is that one function.
-/
import proofs.«140815_g12034498363475_cont_main3_758_5_alg».proof.Proof.Gen.KernelIdeal.Value
import proofs.«140815_g12034498363475_cont_main3_758_5_alg».proof.Proof.Spec
import proofs.«140815_g12034498363475_cont_main3_758_5_alg».proof.Proof.LibPlainDot

noncomputable section

namespace Cert.KerValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the state and the matrix: entry (i, j) is row i times column j. -/
def G (X : S20000x483.Idx → EReal) (Mx : S483x41.Idx → EReal) : S20000x41.Idx → EReal :=
  fun q => Cert.Spec.kerOut X Mx ⟨(q 0).val, (q 0).isLt⟩ ⟨(q 1).val, (q 1).isLt⟩

/-- The body's stored value at the entry (p, q): the product into the zero accumulator is the plain sum. -/
theorem pay_apply (x0 : Vec Ideal S4000x483 .f32) (x1 : Vec Ideal S483x41 .f32) (p : Fin 4000) (q : Fin 41) :
    k0_pay1 (F := Ideal) x0 x1 (ix2 p q) = ∑ k : Fin 483, x0 (ix2 p k) * x1 (ix2 k q) := by
  unfold k0_pay1
  rw [shapeCast_self]
  exact Cert.PlainDot.matmul_zero_plain_apply none x0 x1 p q

/-- One point's block, over variables: if the staged state block holds rows 4000 · tv + p of `X` and the staged matrix
    block holds `Mx`, the stored entry at block coordinate `y` is `G X Mx` at the array index `z` it sits at. -/
theorem point (x0 : Vec Ideal S4000x483 .f32) (x1 : Vec Ideal S483x41 .f32)
    (X : S20000x483.Idx → EReal) (Mx : S483x41.Idx → EReal) (tv : ℕ) (htv : tv < 5)
    (h0 : ∀ (p : Fin 4000) (k : Fin 483), x0 (ix2 p k) = X (ix2 (⟨tv * 4000 + p.val, by omega⟩ : Fin 20000) k))
    (h1 : ∀ (k : Fin 483) (q : Fin 41), x1 (ix2 k q) = Mx (ix2 k q))
    (y : S4000x41.Idx) (z : S20000x41.Idx) (hz0 : (z 0).val = tv * 4000 + (y 0).val) (hz1 : (z 1).val = (y 1).val) :
    k0_pay1 (F := Ideal) x0 x1 y = G X Mx z := by
  obtain ⟨p, q, rfl⟩ : ∃ (p : Fin 4000) (q : Fin 41), y = ix2 p q := ⟨y 0, y 1, eq_ix2 y⟩
  rw [pay_apply]
  unfold G Cert.Spec.kerOut
  refine Finset.sum_congr rfl fun k _ => ?_
  rw [h0, h1]
  have e0 : (⟨tv * 4000 + p.val, by omega⟩ : Fin 20000) = ⟨(z 0).val, (z 0).isLt⟩ := Fin.ext hz0.symm
  have e1 : q = ⟨(z 1).val, (z 1).isLt⟩ := Fin.ext hz1.symm
  rw [e0, ← e1]

/-- The index maps over the five grid points: the state window and the result window sit at block row `t`, column
    block 0; the matrix window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G` of the state and the matrix as the launch finds them. -/
theorem flushed_eq (c : Dev nD) (t : Fin cfg0.N) :
    (dats m 0 c).flushed 2 t = ((cfg0.win 2).blk t).view.read (Elt Ideal) (G (V m c main_arg0) (V m c main_v41)) := by
  show (cfg0.win 2).cut (grid0.coords t) ((dats m 0 c).after 2 t) = _
  rw [after0_2]
  unfold out0_2
  rw [View.canon_unit_zero hz]
  simp only [View.ld_unit_zero (S := S4000x483) hz, View.ld_unit_zero (S := S483x41) hz]
  funext y
  obtain ⟨e00, e01, e10, e11, e20, e21⟩ := idx_facts t
  have ht : t.val < 5 := t.isLt
  show k0_pay1 (F := Ideal) (iblk m c 0 t) (iblk m c 1 t) y = G (V m c main_arg0) (V m c main_v41) (((cfg0.win 2).blk t).view.emb y)
  refine point (iblk m c 0 t) (iblk m c 1 t) (V m c main_arg0) (V m c main_v41) t.val ht ?_ ?_ y (((cfg0.win 2).blk t).view.emb y) ?_ ?_
  · intro p k
    show V m c main_arg0 (((cfg0.win 0).blk t).view.emb (ix2 p k)) = V m c main_arg0 (ix2 (⟨t.val * 4000 + p.val, by omega⟩ : Fin 20000) k)
    refine congrArg (V m c main_arg0) ?_
    funext a; apply Fin.ext
    match a with
    | ⟨0, _⟩ => show win0_0.index t (0 : Fin 2) * 4000 + 1 * p.val = t.val * 4000 + p.val; omega
    | ⟨1, _⟩ => show win0_0.index t (1 : Fin 2) * 483 + 1 * k.val = k.val; omega
  · intro k q
    show V m c main_v41 (((cfg0.win 1).blk t).view.emb (ix2 k q)) = V m c main_v41 (ix2 k q)
    refine congrArg (V m c main_v41) ?_
    funext a; apply Fin.ext
    match a with
    | ⟨0, _⟩ => show win0_1.index t (0 : Fin 2) * 483 + 1 * k.val = k.val; omega
    | ⟨1, _⟩ => show win0_1.index t (1 : Fin 2) * 41 + 1 * q.val = q.val; omega
  · show win0_2.index t (0 : Fin 2) * 4000 + 1 * (y 0).val = t.val * 4000 + (y 0).val; omega
  · show win0_2.index t (1 : Fin 2) * 41 + 1 * (y 1).val = (y 1).val; omega

/-- Every block row 0 … 4 is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- An index of the result array is in point `t`'s block iff each coordinate is in the block's range on its axis. -/
theorem mem_blk (t : Fin cfg0.N) (i : S20000x41.Idx) :
    i ∈ ((cfg0.win 2).blk t).view.set ↔ ∀ a : Fin 2, win0_2.index t a * S4000x41.size a ≤ (i a).val ∧ (i a).val < win0_2.index t a * S4000x41.size a + S4000x41.size a := by
  show i ∈ ((View.whole main_v42).slice (win0_2.rect t)).set ↔ _
  rw [View.set_slice_whole, Rect.mem_set_unit]
  exact Iff.rfl

/-- Row r lies in the block of point r / 4000: the five blocks cover the result array. -/
theorem cover (i : S20000x41.Idx) : ∃ t : Fin cfg0.N, (cfg0.win 2).flush t = true ∧ i ∈ ((cfg0.win 2).blk t).view.set := by
  have hi0 : (i 0).val < 20000 := (i 0).isLt
  have hi1 : (i 1).val < 41 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 41 ≤ (i 1).val ∧ (i 1).val < win0_2.index t (1 : Fin 2) * 41 + 41; omega

/-- The result array after the run is `G` of the state and the matrix as the launch finds them. -/
theorem final (c : Dev nD) : (dats m 0 c).arrAt 2 cfg0.N = G (V m c main_arg0) (V m c main_v41) :=
  (dats m 0 c).arrAt_eq_of_cover 2 (G (V m c main_arg0) (V m c main_v41)) (fun t _ => flushed_eq m c t) cover

end Cert.KerValue

end
-- ==== Proof.KerStages.lean ====
/-
  The kernel program's host operations before its one launch, grouped into named pure functions of the neighbour
  directions `D : [27, 3]`: they assemble the weight matrix `M D : [483, 41]` that the launch multiplies the state by.

  * `wK D` — one weight per leaf v = 1 … 26, exp (−‖D[v] − D[0]‖);
  * `aK D` — the 27 node coefficients: the sum of the leaf weights for the centre, each leaf's own weight for the
    leaves, all divided by 27;
  * `M1 D` — zeros, with coefficient v written at row 17 · v + channel, column = that channel's output position, for
    the 17 per-node channels of each of the 27 nodes (459 writes at literal positions);
  * `M D` — `M1 D` with twice the centre coefficient written at the 24 direction rows 459 … 482, columns 17 … 40.
-/
import proofs.«140815_g12034498363475_cont_main3_758_5_alg».proof.KernelIdeal

noncomputable section

namespace Cert.KerStages

open Idealize.ShloMosaic Cert.KernelIdeal Cert.KernelIdeal.Facts₀

variable [Cert.KernelIdeal.Facts] {F : FTy → Type} [FloatOps F]

/-- The leaf weights exp (−‖D[v + 1] − D[0]‖), v = 0 … 25. -/
def wK (D : FVec F S27x3 .f32) : FVec F S26 .f32 :=
  let v0 : FVec F S26x3 .f32 := extractStridedSlice S26x3 ![1, 0] D slices_S27x3_S26x3_1_0
  let v1 : FVec F S1x3 .f32 := extractStridedSlice S1x3 ![0, 0] D slices_S27x3_S1x3_0_0
  let v2 : FVec F S26x3 .f32 := broadcastInDim S26x3 ![0, 1] bcast_S1x3_S26x3_0_1 v1
  let v3 : FVec F S26x3 .f32 := subf v0 v2
  let v4 : FVec F S26x3 .f32 := mulf v3 v3
  Host.exp (Host.negf (Host.sqrt (Host.reduceAdd v4 (constant S_ .f32 0x00000000#32) reducesTo_S26x3_S26_d1 h_S_)))

/-- The node coefficients: (sum of the leaf weights, then the leaf weights) / 27. -/
def aK (D : FVec F S27x3 .f32) : FVec F S27 .f32 :=
  Host.divf
    (concatenate S27 0
      [⟨S1, broadcastInDim S1 ![] bcast_S_S1 (Host.reduceAdd (wK D) (constant S_ .f32 0x00000000#32) reducesTo_S26_S_d0 h_S_)⟩,
       ⟨S26, wK D⟩] concatenates_S1_S26_S27_d0)
    (broadcastInDim S27 ![] bcast_S_S27 (constant S_ .f32 0x41D80000#32))

/-- The 459 (row, column) positions of the per-node channels, from the two literal tables. -/
def pos459 : IVec S459x2 32 :=
  let c : IVec S459 32 := fun i => lit0 (S459.rowMajor i)
  let c1 : IVec S459 32 := fun i => lit1 (S459.rowMajor i)
  concatenate S459x2 1
    [⟨S459x1, broadcastInDim S459x1 ![0] bcast_S459_S459x1_0
        (select (constantI S459 1 0#1) (addi c (broadcastInDim S459 ![] bcast_S_S459 (constantI S_ 32 483#32))) c)⟩,
     ⟨S459x1, broadcastInDim S459x1 ![0] bcast_S459_S459x1_0
        (select (constantI S459 1 0#1) (addi c1 (broadcastInDim S459 ![] bcast_S_S459 (constantI S_ 32 41#32))) c1)⟩]
    concatenates_S459x1_S459x1_S459x2_d1

/-- The 24 (row, column) positions of the direction channels, from the two literal tables. -/
def pos24 : IVec S24x2 32 :=
  let c : IVec S24 32 := fun i => lit2 (S24.rowMajor i)
  let c1 : IVec S24 32 := fun i => lit3 (S24.rowMajor i)
  concatenate S24x2 1
    [⟨S24x1, broadcastInDim S24x1 ![0] bcast_S24_S24x1_0
        (select (constantI S24 1 0#1) (addi c (broadcastInDim S24 ![] bcast_S_S24 (constantI S_ 32 483#32))) c)⟩,
     ⟨S24x1, broadcastInDim S24x1 ![0] bcast_S24_S24x1_0
        (select (constantI S24 1 0#1) (addi c1 (broadcastInDim S24 ![] bcast_S_S24 (constantI S_ 32 41#32))) c1)⟩]
    concatenates_S24x1_S24x1_S24x2_d1

/-- Write `u`: coefficient `u / 17`, for the 459 per-node positions. -/
def vals459 (D : FVec F S27x3 .f32) : FVec F S459 .f32 :=
  shapeCast S459
    (broadcastInDim S27x17 ![0, 1] bcast_S27x1_S27x17_0_1 (broadcastInDim S27x1 ![0] bcast_S27_S27x1_0 (aK D)))
    shapeCasts_S27x17_S459

/-- Zeros with the per-node coefficients written in. -/
def M1 (D : FVec F S27x3 .f32) : FVec F S483x41 .f32 :=
  Host.scatter scatter_S483x41_S459x2_S459_n_01_01_1 (fun _ b => b)
    (broadcastInDim S483x41 ![] bcast_S_S483x41 (constant S_ .f32 0x00000000#32)) pos459 (vals459 D)

/-- Twice the centre coefficient. -/
def twoA0 (D : FVec F S27x3 .f32) : FVec F S_ .f32 :=
  mulf (constant S_ .f32 0x40000000#32) (shapeCast S_ (extractStridedSlice S1 ![0] (aK D) slices_S27_S1_0) shapeCasts_S1_S_)

/-- The weight matrix the launch multiplies by. -/
def M (D : FVec F S27x3 .f32) : FVec F S483x41 .f32 :=
  Host.scatter scatter_S483x41_S24x2_S24_n_01_01_1 (fun _ b => b) (M1 D) pos24
    (broadcastInDim S24 ![] bcast_S_S24 (twoA0 D))

end Cert.KerStages

end
-- ==== Proof.KerHost.lean ====
/-
  What the launch finds in the weight-matrix buffer: the host operations before it, applied to the directions, are
  the assembly `Cert.KerStages.M`.
-/
import proofs.«140815_g12034498363475_cont_main3_758_5_alg».proof.Proof.Gen.KernelIdeal.Frame
import proofs.«140815_g12034498363475_cont_main3_758_5_alg».proof.Proof.KerStages

noncomputable section

namespace Cert.KerHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.scatter Host.reduceAdd Host.divf Host.exp Host.sqrt Host.negf concatenate in
set_option maxRecDepth 65536 in
set_option maxHeartbeats 4000000 in
/-- The matrix buffer as the launch finds it is the assembled weight matrix of the directions. -/
theorem V_M (c : Dev nD) :
    (V m c main_v41 : FVec F S483x41 .f32) = Cert.KerStages.M (F := F) (m ((c : Thread nD τ).loc main_arg1)) := by
  dsimp only [Gen.V, Gen.hostOps0]
  after_results_simp
  rfl

end Cert.KerHost

end
-- ==== Proof.LibScatterRead.lean ====
/-
  Reading a scatter that writes its updates (body: return the update) at one position.

  Such a scatter is the left fold, over the updates in row-major order, of point writes: update `j` overwrites the operand
  at its result position when that lies inside the operand and is dropped otherwise. Read at a position where exactly one
  update lands, the result is that update's value, whatever the operand held and whatever the other updates do. The
  fold lemmas are stated for any list of point writes; the scatter lemma for any operand, index and update shapes.
-/
import Idealize.ShloMosaic.Lib.ValueIdx

noncomputable section

namespace Cert.Lib.ScatterRead

open Idealize.ShloMosaic

/-- A left fold of point writes read at a position no step writes: if every step of the fold either
    leaves the array alone (g n = none) or overwrites it at one position g n = some i, and no step
    of the list writes at i0, the fold's result at i0 is the start array's value there. -/
theorem foldl_write_miss {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (i0 : ι) :
    ∀ (l : List κ), (∀ n ∈ l, g n ≠ some i0) → ∀ r, l.foldl step r i0 = r i0 := by
  intro l
  induction l with
  | nil => intro _ r; rfl
  | cons a l ih =>
    intro hl r
    rw [List.foldl_cons, ih (fun n hn' => hl n (List.mem_cons_of_mem a hn'))]
    cases hga : g a with
    | none => rw [hn r a hga]
    | some i =>
      rw [hs r a i hga]
      have hne : i0 ≠ i := fun h => hl a List.mem_cons_self (by rw [hga, h])
      exact if_neg hne

/-- A left fold of point writes read at a position exactly one step writes: if the steps are as
    above, the list has no repetition, step n0 of the list writes at i0 and no other step of the
    list does, the fold's result at i0 is the value step n0 writes. -/
theorem foldl_write_hit {ι κ α : Type} (g : κ → Option ι) (v : κ → α) [DecidableEq ι]
    (step : (ι → α) → κ → ι → α)
    (hs : ∀ r n i, g n = some i → step r n = fun i' => if i' = i then v n else r i')
    (hn : ∀ r n, g n = none → step r n = r) (n0 : κ) (i0 : ι) (h0 : g n0 = some i0) :
    ∀ (l : List κ), l.Nodup → n0 ∈ l → (∀ n ∈ l, g n = some i0 → n = n0) →
      ∀ r, l.foldl step r i0 = v n0 := by
  intro l
  induction l with
  | nil => intro _ hm; exact absurd hm List.not_mem_nil
  | cons a l ih =>
    intro hnd hm huniq r
    rw [List.foldl_cons]
    have hnd' := List.nodup_cons.1 hnd
    by_cases han : n0 = a
    · subst han
      rw [foldl_write_miss g v step hs hn i0 l
        (fun n hnl hgn => hnd'.1 (huniq n (List.mem_cons_of_mem _ hnl) hgn ▸ hnl)),
        hs r n0 i0 h0]
      exact if_pos rfl
    · have hml : n0 ∈ l := by
        rcases List.mem_cons.1 hm with h | h
        · exact absurd h han
        · exact h
      exact ih hnd'.2 hml (fun n hnl => huniq n (List.mem_cons_of_mem _ hnl)) _

/-- A scatter whose body returns the update, read at an operand position that exactly one update
    lands at: the result there is that update's value, whatever the operand held. (The scatter is the
    left fold, over the updates in row-major order, of the point writes at their result positions;
    an update whose result position falls outside the operand is dropped.) -/
theorem scatter_set_read {α : Type} {s si u : Shape} {w : Nat} (d : ScatterDims s si u)
    (x : s.Idx → α) (idx : IVec si w) (upd : u.Idx → α) (j0 : u.Idx) (i0 : s.Idx)
    (h0 : d.resultIdx? j0 idx = some i0) (huniq : ∀ j, d.resultIdx? j idx = some i0 → j = j0) :
    Host.scatter d (fun _ b => b) x idx upd i0 = upd j0 := by
  unfold Host.scatter
  refine Eq.trans (foldl_write_hit
    (g := fun n : Fin u.numel => d.resultIdx? (u.rowMajor.symm n) idx)
    (v := fun n : Fin u.numel => upd (u.rowMajor.symm n)) _ ?_ ?_ (u.rowMajor j0) i0 ?_
    (List.finRange u.numel) (List.nodup_finRange _) (List.mem_finRange _) ?_ x) ?_
  · intro r n i h
    simp only [h]
  · intro r n h
    simp only [h]
  · simp only [Equiv.symm_apply_apply]; exact h0
  · intro n _ hn
    rw [← huniq _ hn, Equiv.apply_symm_apply]
  · simp only [Equiv.symm_apply_apply]

end Cert.Lib.ScatterRead

end
-- ==== Proof.LibScatterBlock.lean ====
/-
  A scatter that sets one rectangular window of a matrix, read at any position.

  Writing an [R, C] update as ONE window into an [A, B] matrix at the start (r0, c0) — the dimension numbers of
  `x.at[r0:r0+R, c0:c0+C].set(u)`: both update axes are window axes, no inserted axis, a single index vector (r0, c0) —
  sends update entry (p, q) to position (r0 + p, c0 + q). Read back, the result holds u(o − r0, c − c0) at every position
  (o, c) inside the window and the operand's own entry everywhere else.
-/
import proofs.«140815_g12034498363475_cont_main3_758_5_alg».proof.Proof.LibScatterRead
import Idealize.ShloMosaic.Lib.ValueIdx

noncomputable section

namespace Cert.Lib.ScatterBlock

open Idealize.ShloMosaic Idealize.ShloMosaic.ValueIdx Cert.Lib.ScatterRead

/-- A scatter whose body returns the update, read at a position no update lands at, is the operand there. -/
theorem scatter_set_miss {α : Type} {s si u : Shape} {w : Nat} (d : ScatterDims s si u)
    (x : s.Idx → α) (idx : IVec si w) (upd : u.Idx → α) (i0 : s.Idx)
    (hmiss : ∀ j, d.resultIdx? j idx ≠ some i0) :
    Host.scatter d (fun _ b => b) x idx upd i0 = x i0 := by
  unfold Host.scatter
  refine foldl_write_miss
    (g := fun n : Fin u.numel => d.resultIdx? (u.rowMajor.symm n) idx)
    (v := fun n : Fin u.numel => upd (u.rowMajor.symm n)) _ ?_ ?_ i0
    (List.finRange u.numel) (fun n _ => hmiss _) x
  · intro r n i h
    simp only [h]
  · intro r n h
    simp only [h]

variable {A B R C : ℕ} {w : Nat}

/-- The dimension numbers of setting one window: both update axes are window axes, one index vector. -/
abbrev dims (wf : ScatterDims.WF (⟨2, ![A, B]⟩ : Shape) ⟨1, ![2]⟩ ⟨2, ![R, C]⟩ [0, 1] [] [0, 1] 0) :
    ScatterDims (⟨2, ![A, B]⟩ : Shape) ⟨1, ![2]⟩ ⟨2, ![R, C]⟩ :=
  { updateWindowDims := [0, 1], insertedWindowDims := [], scatterDimsToOperandDims := [0, 1], indexVectorDim := 0, wf := wf }

variable (wf : ScatterDims.WF (⟨2, ![A, B]⟩ : Shape) ⟨1, ![2]⟩ ⟨2, ![R, C]⟩ [0, 1] [] [0, 1] 0)

theorem start0 (j : (⟨2, ![R, C]⟩ : Shape).Idx) (idx : IVec (⟨1, ![2]⟩ : Shape) w) :
    (dims wf).start j idx 0 = (idx (ix1 0)).toInt := by
  unfold ScatterDims.start
  rw [dif_pos (by show (0 : Fin 2) ∈ ([0, 1] : List (Fin 2)); decide)]
  refine congrArg (fun k => (idx k).toInt) (funext fun b => ?_)
  match b with
  | ⟨0, _⟩ => rfl

theorem start1 (j : (⟨2, ![R, C]⟩ : Shape).Idx) (idx : IVec (⟨1, ![2]⟩ : Shape) w) :
    (dims wf).start j idx 1 = (idx (ix1 1)).toInt := by
  unfold ScatterDims.start
  rw [dif_pos (by show (1 : Fin 2) ∈ ([0, 1] : List (Fin 2)); decide)]
  refine congrArg (fun k => (idx k).toInt) (funext fun b => ?_)
  match b with
  | ⟨0, _⟩ => rfl

theorem window0 (j : (⟨2, ![R, C]⟩ : Shape).Idx) : (dims wf).window j 0 = (j 0).val := by
  unfold ScatterDims.window
  rw [dif_pos (by show (0 : Fin 2) ∈ (List.finRange 2).filter (· ∉ ([] : List (Fin 2))); decide)]
  rfl

theorem window1 (j : (⟨2, ![R, C]⟩ : Shape).Idx) : (dims wf).window j 1 = (j 1).val := by
  unfold ScatterDims.window
  rw [dif_pos (by show (1 : Fin 2) ∈ (List.finRange 2).filter (· ∉ ([] : List (Fin 2))); decide)]
  rfl

/-- Update entry j lands at (r0 + j₀, c0 + j₁) when the index vector holds (r0, c0) and that position is inside. -/
theorem resultIdx_eq (j : (⟨2, ![R, C]⟩ : Shape).Idx) (idx : IVec (⟨1, ![2]⟩ : Shape) w) (r0 c0 : ℕ)
    (h0 : (idx (ix1 0)).toInt = (r0 : Int)) (h1 : (idx (ix1 1)).toInt = (c0 : Int))
    (hr : r0 + (j 0).val < A) (hc : c0 + (j 1).val < B) :
    (dims wf).resultIdx? j idx = some (ix2 ⟨r0 + (j 0).val, hr⟩ ⟨c0 + (j 1).val, hc⟩) := by
  have s0 : (dims wf).start j idx 0 + ((dims wf).window j 0 : Int) = ((r0 + (j 0).val : ℕ) : Int) := by
    rw [start0, window0, h0]; push_cast; rfl
  have s1 : (dims wf).start j idx 1 + ((dims wf).window j 1 : Int) = ((c0 + (j 1).val : ℕ) : Int) := by
    rw [start1, window1, h1]; push_cast; rfl
  unfold ScatterDims.resultIdx?
  rw [dif_pos (fun a => by
    match a with
    | ⟨0, _⟩ =>
      show 0 ≤ (dims wf).start j idx 0 + ((dims wf).window j 0 : Int) ∧ (dims wf).start j idx 0 + ((dims wf).window j 0 : Int) < ((A : ℕ) : Int)
      rw [s0]; omega
    | ⟨1, _⟩ =>
      show 0 ≤ (dims wf).start j idx 1 + ((dims wf).window j 1 : Int) ∧ (dims wf).start j idx 1 + ((dims wf).window j 1 : Int) < ((B : ℕ) : Int)
      rw [s1]; omega)]
  refine congrArg some (funext fun a => Fin.ext ?_)
  match a with
  | ⟨0, _⟩ =>
    show ((dims wf).start j idx 0 + ((dims wf).window j 0 : Int)).toNat = r0 + (j 0).val
    rw [s0]; exact Int.toNat_natCast _
  | ⟨1, _⟩ =>
    show ((dims wf).start j idx 1 + ((dims wf).window j 1 : Int)).toNat = c0 + (j 1).val
    rw [s1]; exact Int.toNat_natCast _

variable {α : Type}

/-- Inside the window the result holds the update's entry. -/
theorem read_hit (x : (⟨2, ![A, B]⟩ : Shape).Idx → α) (idx : IVec (⟨1, ![2]⟩ : Shape) w)
    (upd : (⟨2, ![R, C]⟩ : Shape).Idx → α) (r0 c0 : ℕ)
    (h0 : (idx (ix1 0)).toInt = (r0 : Int)) (h1 : (idx (ix1 1)).toInt = (c0 : Int))
    (hR : r0 + R ≤ A) (hC : c0 + C ≤ B) (o : Fin A) (c : Fin B) (p : Fin R) (q : Fin C)
    (ho : o.val = r0 + p.val) (hc : c.val = c0 + q.val) :
    Host.scatter (dims wf) (fun _ b => b) x idx upd (ix2 o c) = upd (ix2 p q) := by
  have hp := p.isLt
  have hq := q.isLt
  have e : (ix2 o c : (⟨2, ![A, B]⟩ : Shape).Idx)
      = ix2 ⟨r0 + ((ix2 p q : (⟨2, ![R, C]⟩ : Shape).Idx) 0).val, by show r0 + p.val < A; omega⟩
          ⟨c0 + ((ix2 p q : (⟨2, ![R, C]⟩ : Shape).Idx) 1).val, by show c0 + q.val < B; omega⟩ := by
    refine funext fun a => Fin.ext ?_
    match a with
    | ⟨0, _⟩ => exact ho
    | ⟨1, _⟩ => exact hc
  refine scatter_set_read (dims wf) x idx upd (ix2 p q) _ (e ▸ resultIdx_eq wf (ix2 p q) idx r0 c0 h0 h1 _ _) ?_
  intro j hj
  have hj0 : (j 0).val < R := (j 0).isLt
  have hj1 : (j 1).val < C := (j 1).isLt
  rw [resultIdx_eq wf j idx r0 c0 h0 h1 (by omega) (by omega)] at hj
  have hi := Option.some.inj hj
  have e0 : r0 + (j 0).val = o.val := congrArg (fun i : (⟨2, ![A, B]⟩ : Shape).Idx => (i 0).val) hi
  have e1 : c0 + (j 1).val = c.val := congrArg (fun i : (⟨2, ![A, B]⟩ : Shape).Idx => (i 1).val) hi
  rw [eq_ix2 j]
  refine funext fun a => Fin.ext ?_
  match a with
  | ⟨0, _⟩ => show (j 0).val = p.val; omega
  | ⟨1, _⟩ => show (j 1).val = q.val; omega

/-- Outside the window the result holds the operand's entry. -/
theorem read_miss (x : (⟨2, ![A, B]⟩ : Shape).Idx → α) (idx : IVec (⟨1, ![2]⟩ : Shape) w)
    (upd : (⟨2, ![R, C]⟩ : Shape).Idx → α) (r0 c0 : ℕ)
    (h0 : (idx (ix1 0)).toInt = (r0 : Int)) (h1 : (idx (ix1 1)).toInt = (c0 : Int))
    (hR : r0 + R ≤ A) (hC : c0 + C ≤ B) (o : Fin A) (c : Fin B)
    (hout : ¬ (r0 ≤ o.val ∧ o.val < r0 + R ∧ c0 ≤ c.val ∧ c.val < c0 + C)) :
    Host.scatter (dims wf) (fun _ b => b) x idx upd (ix2 o c) = x (ix2 o c) := by
  refine scatter_set_miss (dims wf) x idx upd _ fun j hj => hout ?_
  have hj0 : (j 0).val < R := (j 0).isLt
  have hj1 : (j 1).val < C := (j 1).isLt
  rw [resultIdx_eq wf j idx r0 c0 h0 h1 (by omega) (by omega)] at hj
  have hi := Option.some.inj hj
  have e0 : r0 + (j 0).val = o.val := congrArg (fun i : (⟨2, ![A, B]⟩ : Shape).Idx => (i 0).val) hi
  have e1 : c0 + (j 1).val = c.val := congrArg (fun i : (⟨2, ![A, B]⟩ : Shape).Idx => (i 1).val) hi
  omega

end Cert.Lib.ScatterBlock

end
-- ==== Proof.KerMatrix.lean ====
/-
  The kernel program's weight matrix read at an entry.

  The matrix is built by two scatters that SET single entries. The first writes, for each of the 459 positions
  u = 17 · v + c (node v, output column c of the 17 per-node columns), node v's coefficient at row
  17 · v + q c, column c, where q c is the per-node channel that output column c reads (0 1 2 3 16 4 … 15); the rows
  and columns are two literal tables. The second writes twice the centre's coefficient at (459 + t, 17 + t),
  t = 0 … 23. Every entry of the matrix receives at most one write, so an entry reads the value of the one write
  landing at it, or zero.
-/
import proofs.«140815_g12034498363475_cont_main3_758_5_alg».proof.Proof.Spec
import proofs.«140815_g12034498363475_cont_main3_758_5_alg».proof.Proof.KerStages
import proofs.«140815_g12034498363475_cont_main3_758_5_alg».proof.Proof.LibScatterRead
import proofs.«140815_g12034498363475_cont_main3_758_5_alg».proof.Proof.LibScatterBlock
import Idealize.ShloMosaic.Lib.ValueIdx
import Idealize.ShloMosaic.Lib.ValueLayout
import Idealize.ShloMosaic.Lib.Pipeline.Value

noncomputable section

namespace Cert.KerMatrix

open Idealize.ShloMosaic Idealize.ShloMosaic.ValueIdx Cert.Spec Cert.KernelIdeal Cert.KernelIdeal.Facts₀ Cert.KerStages
open Cert.Lib.ScatterRead Cert.Lib.ScatterBlock

/-! ## The literal tables -/

/-- The per-node channel read by output column `c` of the 17 per-node columns: 0 1 2 3 16 4 5 … 15. -/
def q (c : ℕ) : ℕ := if c < 4 then c else if c = 4 then 16 else c - 1

theorem q_lt (c : ℕ) (h : c < 17) : q c < 17 := by
  unfold q; split_ifs <;> omega

/-- Write `u`'s row: 17 · (u / 17) + q (u % 17). -/
theorem lit0_toInt : ∀ u : Fin 459, (lit0 u).toInt = ((17 * (u.val / 17) + q (u.val % 17) : ℕ) : ℤ) := by
  decide +kernel

/-- Write `u`'s column: u % 17. -/
theorem lit1_toInt : ∀ u : Fin 459, (lit1 u).toInt = ((u.val % 17 : ℕ) : ℤ) := by
  decide +kernel

/-- Write `t`'s row: 459 + t. -/
theorem lit2_toInt : ∀ t : Fin 24, (lit2 t).toInt = ((459 + t.val : ℕ) : ℤ) := by
  decide +kernel

/-- Write `t`'s column: 17 + t. -/
theorem lit3_toInt : ∀ t : Fin 24, (lit3 t).toInt = ((17 + t.val : ℕ) : ℤ) := by
  decide +kernel

/-- Output column `j` reads channel q j among the per-node columns, and channel j itself past them. -/
theorem perm_val : ∀ j : Fin 41, (perm j).val = if j.val < 17 then q j.val else j.val := by
  decide

/-! ## A scatter that sets single entries of a matrix

The dimension numbers of `x.at[rows, cols].set(u)` for an [A, B] matrix, N (row, column) pairs held as an [N, 2]
integer array and N updates: no window axis, both operand axes inserted, the pair's two components on the index
array's last axis. Update `n` lands at (idx[n, 0], idx[n, 1]) read as signed integers. -/

section Point
variable {A B N : ℕ} {w : Nat}

abbrev pdims (wf : ScatterDims.WF (⟨2, ![A, B]⟩ : Shape) ⟨2, ![N, 2]⟩ ⟨1, ![N]⟩ [] [0, 1] [0, 1] 1) :
    ScatterDims (⟨2, ![A, B]⟩ : Shape) ⟨2, ![N, 2]⟩ ⟨1, ![N]⟩ :=
  { updateWindowDims := [], insertedWindowDims := [0, 1], scatterDimsToOperandDims := [0, 1], indexVectorDim := 1, wf := wf }

variable (wf : ScatterDims.WF (⟨2, ![A, B]⟩ : Shape) ⟨2, ![N, 2]⟩ ⟨1, ![N]⟩ [] [0, 1] [0, 1] 1)

theorem pstart0 (n : Fin N) (idx : IVec (⟨2, ![N, 2]⟩ : Shape) w) :
    (pdims wf).start (ix1 n) idx 0 = (idx (ix2 n 0)).toInt := by
  unfold ScatterDims.start
  rw [dif_pos (by show (0 : Fin 2) ∈ ([0, 1] : List (Fin 2)); decide)]
  refine congrArg (fun k => (idx k).toInt) (funext fun b => ?_)
  match b with
  | ⟨0, _⟩ => rfl
  | ⟨1, _⟩ => rfl

theorem pstart1 (n : Fin N) (idx : IVec (⟨2, ![N, 2]⟩ : Shape) w) :
    (pdims wf).start (ix1 n) idx 1 = (idx (ix2 n 1)).toInt := by
  unfold ScatterDims.start
  rw [dif_pos (by show (1 : Fin 2) ∈ ([0, 1] : List (Fin 2)); decide)]
  refine congrArg (fun k => (idx k).toInt) (funext fun b => ?_)
  match b with
  | ⟨0, _⟩ => rfl
  | ⟨1, _⟩ => rfl

theorem pwindow (j : (⟨1, ![N]⟩ : Shape).Idx) (a : Fin 2) : (pdims wf).window j a = 0 := by
  unfold ScatterDims.window
  rw [dif_neg]
  match a with
  | ⟨0, _⟩ => show ¬ (0 : Fin 2) ∈ (List.finRange 2).filter (· ∉ ([0, 1] : List (Fin 2))); decide
  | ⟨1, _⟩ => show ¬ (1 : Fin 2) ∈ (List.finRange 2).filter (· ∉ ([0, 1] : List (Fin 2))); decide

/-- Update `n` lands at (r, c) when the index array holds (r, c) at row `n` and that position is inside. -/
theorem presultIdx_eq (n : Fin N) (idx : IVec (⟨2, ![N, 2]⟩ : Shape) w) (r c : ℕ)
    (h0 : (idx (ix2 n 0)).toInt = (r : Int)) (h1 : (idx (ix2 n 1)).toInt = (c : Int)) (hr : r < A) (hc : c < B) :
    (pdims wf).resultIdx? (ix1 n) idx = some (ix2 ⟨r, hr⟩ ⟨c, hc⟩) := by
  have s0 : (pdims wf).start (ix1 n) idx 0 + ((pdims wf).window (ix1 n) 0 : Int) = (r : Int) := by
    rw [pstart0, pwindow, h0]; simp
  have s1 : (pdims wf).start (ix1 n) idx 1 + ((pdims wf).window (ix1 n) 1 : Int) = (c : Int) := by
    rw [pstart1, pwindow, h1]; simp
  unfold ScatterDims.resultIdx?
  rw [dif_pos (fun a => by
    match a with
    | ⟨0, _⟩ =>
      show 0 ≤ (pdims wf).start (ix1 n) idx 0 + ((pdims wf).window (ix1 n) 0 : Int) ∧ (pdims wf).start (ix1 n) idx 0 + ((pdims wf).window (ix1 n) 0 : Int) < ((A : ℕ) : Int)
      rw [s0]; omega
    | ⟨1, _⟩ =>
      show 0 ≤ (pdims wf).start (ix1 n) idx 1 + ((pdims wf).window (ix1 n) 1 : Int) ∧ (pdims wf).start (ix1 n) idx 1 + ((pdims wf).window (ix1 n) 1 : Int) < ((B : ℕ) : Int)
      rw [s1]; omega)]
  refine congrArg some (funext fun a => Fin.ext ?_)
  match a with
  | ⟨0, _⟩ =>
    show ((pdims wf).start (ix1 n) idx 0 + ((pdims wf).window (ix1 n) 0 : Int)).toNat = r
    rw [s0]; exact Int.toNat_natCast _
  | ⟨1, _⟩ =>
    show ((pdims wf).start (ix1 n) idx 1 + ((pdims wf).window (ix1 n) 1 : Int)).toNat = c
    rw [s1]; exact Int.toNat_natCast _

end Point

/-! ## The position tables read at a row

Both index arrays are two length-N columns, each made an [N, 1] array and the two joined along the last axis: entry
(n, 0) is the first column's entry n and (n, 1) the second's. -/

section PosTable
variable {N : ℕ} {w : Nat}

theorem column_apply (hb : (⟨1, ![N]⟩ : Shape).BroadcastsInDim (⟨2, ![N, 1]⟩ : Shape) (![0] : Fin 1 → Fin 2))
    (a : IVec (⟨1, ![N]⟩ : Shape) w) (n : Fin N) :
    broadcastInDim (⟨2, ![N, 1]⟩ : Shape) ![0] hb a (ix2 n 0) = a (ix1 n) := by
  refine broadcastInDim_apply _ hb a _ _ fun b => ?_
  match b with
  | ⟨0, _⟩ =>
    show n.val = if N = 1 then 0 else n.val
    split_ifs with h
    · have := n.isLt; omega
    · rfl

theorem table_apply0 (hb : (⟨1, ![N]⟩ : Shape).BroadcastsInDim (⟨2, ![N, 1]⟩ : Shape) (![0] : Fin 1 → Fin 2))
    (hc : Shape.Concatenates [(⟨2, ![N, 1]⟩ : Shape), ⟨2, ![N, 1]⟩] ⟨2, ![N, 2]⟩ 1)
    (a b : IVec (⟨1, ![N]⟩ : Shape) w) (n : Fin N) :
    concatenate (⟨2, ![N, 2]⟩ : Shape) 1
        [⟨⟨2, ![N, 1]⟩, broadcastInDim (⟨2, ![N, 1]⟩ : Shape) ![0] hb a⟩, ⟨⟨2, ![N, 1]⟩, broadcastInDim (⟨2, ![N, 1]⟩ : Shape) ![0] hb b⟩] hc (ix2 n 0)
      = a (ix1 n) := by
  refine (concatenate_pair_apply_left (t := (⟨2, ![N, 2]⟩ : Shape)) (s₁ := ⟨2, ![N, 1]⟩) (s₂ := ⟨2, ![N, 1]⟩) (1 : Fin 2) _ _ hc
    (ix2 n 0) rfl (ix2 n 0) fun c => ?_).trans (column_apply hb a n)
  match c with
  | ⟨0, _⟩ => rfl
  | ⟨1, _⟩ => rfl

theorem table_apply1 (hb : (⟨1, ![N]⟩ : Shape).BroadcastsInDim (⟨2, ![N, 1]⟩ : Shape) (![0] : Fin 1 → Fin 2))
    (hc : Shape.Concatenates [(⟨2, ![N, 1]⟩ : Shape), ⟨2, ![N, 1]⟩] ⟨2, ![N, 2]⟩ 1)
    (a b : IVec (⟨1, ![N]⟩ : Shape) w) (n : Fin N) :
    concatenate (⟨2, ![N, 2]⟩ : Shape) 1
        [⟨⟨2, ![N, 1]⟩, broadcastInDim (⟨2, ![N, 1]⟩ : Shape) ![0] hb a⟩, ⟨⟨2, ![N, 1]⟩, broadcastInDim (⟨2, ![N, 1]⟩ : Shape) ![0] hb b⟩] hc (ix2 n 1)
      = b (ix1 n) := by
  refine (concatenate_pair_apply_right (t := (⟨2, ![N, 2]⟩ : Shape)) (s₁ := ⟨2, ![N, 1]⟩) (s₂ := ⟨2, ![N, 1]⟩) (1 : Fin 2) _ _ hc
    (ix2 n 1) rfl rfl (ix2 n 0) (fun c hne => ?_) (by rfl)).trans (column_apply hb b n)
  match c with
  | ⟨0, _⟩ => rfl
  | ⟨1, _⟩ => exact absurd rfl hne

end PosTable

section Ker
variable [Cert.KernelIdeal.Facts]

theorem pos459_apply0 (u : Fin 459) : pos459 (ix2 u 0) = lit0 u := by
  refine (table_apply0 bcast_S459_S459x1_0 concatenates_S459x1_S459x1_S459x2_d1 _ _ u).trans ?_
  rw [select_apply, constantI_apply, select_zero]
  exact congrArg lit0 (Fin.ext (Shape.rowMajor_val_one _))

theorem pos459_apply1 (u : Fin 459) : pos459 (ix2 u 1) = lit1 u := by
  refine (table_apply1 bcast_S459_S459x1_0 concatenates_S459x1_S459x1_S459x2_d1 _ _ u).trans ?_
  rw [select_apply, constantI_apply, select_zero]
  exact congrArg lit1 (Fin.ext (Shape.rowMajor_val_one _))

theorem pos24_apply0 (t : Fin 24) : pos24 (ix2 t 0) = lit2 t := by
  refine (table_apply0 bcast_S24_S24x1_0 concatenates_S24x1_S24x1_S24x2_d1 _ _ t).trans ?_
  rw [select_apply, constantI_apply, select_zero]
  exact congrArg lit2 (Fin.ext (Shape.rowMajor_val_one _))

theorem pos24_apply1 (t : Fin 24) : pos24 (ix2 t 1) = lit3 t := by
  refine (table_apply1 bcast_S24_S24x1_0 concatenates_S24x1_S24x1_S24x2_d1 _ _ t).trans ?_
  rw [select_apply, constantI_apply, select_zero]
  exact congrArg lit3 (Fin.ext (Shape.rowMajor_val_one _))

/-! ## The written values -/

/-- Write `u` carries node u / 17's coefficient: the 27 coefficients, each repeated over 17 columns, read row-major. -/
theorem vals459_apply (D : FVec Ideal S27x3 .f32) (u : Fin 459) :
    vals459 (F := Ideal) D (ix1 u) = aK (F := Ideal) D (ix1 (⟨u.val / 17, by omega⟩ : Fin 27)) := by
  unfold vals459
  refine (shapeCast_apply _ shapeCasts_S27x17_S459 (ix1 u)
    (ix2 (⟨u.val / 17, by omega⟩ : Fin 27) (⟨u.val % 17, by omega⟩ : Fin 17)) ?_).trans ?_
  · rw [Shape.rowMajor_val_two, Shape.rowMajor_val_one]
    show u.val / 17 * 17 + u.val % 17 = u.val
    omega
  refine (broadcastInDim_apply _ bcast_S27x1_S27x17_0_1 _ _ (ix2 (⟨u.val / 17, by omega⟩ : Fin 27) (0 : Fin 1)) fun a => ?_).trans ?_
  · match a with
    | ⟨0, _⟩ => rfl
    | ⟨1, _⟩ => rfl
  refine broadcastInDim_apply _ bcast_S27_S27x1_0 _ _ (ix1 (⟨u.val / 17, by omega⟩ : Fin 27)) fun a => ?_
  match a with
  | ⟨0, _⟩ => rfl

/-- The second scatter's value: the literal 2 times the centre's coefficient. -/
theorem twoA0_apply (D : FVec Ideal S27x3 .f32) (haK : ∀ v : Fin 27, aK (F := Ideal) D (ix1 v) = coef D v) :
    twoA0 (F := Ideal) D ix0 = c2 * coef D ⟨0, by omega⟩ := by
  unfold twoA0
  rw [mulf_apply, constant_apply]
  refine congrArg (c2 * ·) ?_
  refine (shapeCast_apply _ shapeCasts_S1_S_ ix0 (ix1 (0 : Fin 1)) ?_).trans ?_
  · rw [Shape.rowMajor_val_one]
    exact (Shape.rowMajorPi_zero _ _).symm
  refine (extractStridedSlice_apply _ _ slices_S27_S1_0 (ix1 (0 : Fin 1)) (ix1 (0 : Fin 27)) fun a => ?_).trans (haK 0)
  match a with
  | ⟨0, _⟩ => rfl

end Ker

section Ker2
variable [Cert.KernelIdeal.Facts]

/-! ## The first scatter: the per-node coefficients -/

theorem M1_eq (D : FVec Ideal S27x3 .f32) :
    M1 (F := Ideal) D
      = Host.scatter (pdims scatter_S483x41_S459x2_S459_n_01_01_1_wf) (fun _ b => b)
          (broadcastInDim S483x41 ![] bcast_S_S483x41 (constant (F := Ideal) S_ .f32 0x00000000#32)) pos459 (vals459 (F := Ideal) D) := rfl

/-- Write `u` lands at row 17 · (u / 17) + q (u % 17), column u % 17. -/
theorem land459 (u : Fin 459) :
    (pdims scatter_S483x41_S459x2_S459_n_01_01_1_wf).resultIdx? (ix1 u) pos459
      = some (ix2 (⟨17 * (u.val / 17) + q (u.val % 17), by have := q_lt (u.val % 17) (by omega); omega⟩ : Fin 483)
          (⟨u.val % 17, by omega⟩ : Fin 41)) :=
  presultIdx_eq scatter_S483x41_S459x2_S459_n_01_01_1_wf u pos459 _ _
    (by rw [pos459_apply0]; exact lit0_toInt u) (by rw [pos459_apply1]; exact lit1_toInt u) _ _

/-- The zeros the first scatter starts from. -/
theorem zeros_apply (i : S483x41.Idx) :
    broadcastInDim S483x41 ![] bcast_S_S483x41 (constant (F := Ideal) S_ .f32 0x00000000#32) i = 0 := by
  refine (broadcastInDim_apply _ bcast_S_S483x41 _ _ ix0 (fun a => a.elim0)).trans ?_
  rw [constant_apply]; exact zero_eq

/-- Row k = 17 · v + r below 459, column j below 17 with q j = r: the one write u = 17 · v + j lands there. -/
theorem M1_hit (D : FVec Ideal S27x3 .f32) (k : Fin 483) (j : Fin 41) (hk : k.val < 459) (hj : j.val < 17)
    (hq : q j.val = k.val % 17) :
    M1 (F := Ideal) D (ix2 k j) = aK (F := Ideal) D (ix1 (⟨k.val / 17, by omega⟩ : Fin 27)) := by
  rw [M1_eq]
  have hu : 17 * (k.val / 17) + j.val < 459 := by omega
  have e1 : (17 * (k.val / 17) + j.val) / 17 = k.val / 17 := by omega
  have e2 : (17 * (k.val / 17) + j.val) % 17 = j.val := by omega
  refine (scatter_set_read _ _ _ _ (ix1 (⟨17 * (k.val / 17) + j.val, hu⟩ : Fin 459)) (ix2 k j) ?_ ?_).trans ?_
  · rw [land459]
    refine congrArg some (funext fun a => Fin.ext ?_)
    match a with
    | ⟨0, _⟩ =>
      show 17 * ((17 * (k.val / 17) + j.val) / 17) + q ((17 * (k.val / 17) + j.val) % 17) = k.val
      rw [e1, e2, hq]; omega
    | ⟨1, _⟩ =>
      show (17 * (k.val / 17) + j.val) % 17 = j.val
      exact e2
  · intro j' hj'
    obtain ⟨u, rfl⟩ : ∃ u : Fin 459, j' = ix1 u := ⟨j' 0, eq_ix1 j'⟩
    rw [land459] at hj'
    have hi := Option.some.inj hj'
    have e0 : 17 * (u.val / 17) + q (u.val % 17) = k.val := congrArg (fun i : S483x41.Idx => (i 0).val) hi
    have e3 : u.val % 17 = j.val := congrArg (fun i : S483x41.Idx => (i 1).val) hi
    have := q_lt (u.val % 17) (by omega)
    refine congrArg ix1 (Fin.ext ?_)
    show u.val = 17 * (k.val / 17) + j.val
    omega
  · rw [vals459_apply]
    refine congrArg (fun v : Fin 27 => aK (F := Ideal) D (ix1 v)) (Fin.ext ?_)
    exact e1

/-- Any other entry receives no write and stays zero. -/
theorem M1_miss (D : FVec Ideal S27x3 .f32) (k : Fin 483) (j : Fin 41)
    (h : ¬ (k.val < 459 ∧ j.val < 17 ∧ q j.val = k.val % 17)) :
    M1 (F := Ideal) D (ix2 k j) = 0 := by
  rw [M1_eq]
  refine (scatter_set_miss _ _ _ _ (ix2 k j) ?_).trans (zeros_apply _)
  intro j' hj'
  obtain ⟨u, rfl⟩ : ∃ u : Fin 459, j' = ix1 u := ⟨j' 0, eq_ix1 j'⟩
  rw [land459] at hj'
  have hi := Option.some.inj hj'
  have e0 : 17 * (u.val / 17) + q (u.val % 17) = k.val := congrArg (fun i : S483x41.Idx => (i 0).val) hi
  have e3 : u.val % 17 = j.val := congrArg (fun i : S483x41.Idx => (i 1).val) hi
  have hq := q_lt (u.val % 17) (by omega)
  refine h ⟨by omega, by omega, ?_⟩
  rw [← e3, ← e0]; omega

/-! ## The second scatter: the shared direction channels -/

theorem M_eq (D : FVec Ideal S27x3 .f32) :
    M (F := Ideal) D
      = Host.scatter (pdims scatter_S483x41_S24x2_S24_n_01_01_1_wf) (fun _ b => b) (M1 (F := Ideal) D) pos24
          (broadcastInDim S24 ![] bcast_S_S24 (twoA0 (F := Ideal) D)) := rfl

/-- Write `t` lands at row 459 + t, column 17 + t. -/
theorem land24 (t : Fin 24) :
    (pdims scatter_S483x41_S24x2_S24_n_01_01_1_wf).resultIdx? (ix1 t) pos24
      = some (ix2 (⟨459 + t.val, by omega⟩ : Fin 483) (⟨17 + t.val, by omega⟩ : Fin 41)) :=
  presultIdx_eq scatter_S483x41_S24x2_S24_n_01_01_1_wf t pos24 _ _
    (by rw [pos24_apply0]; exact lit2_toInt t) (by rw [pos24_apply1]; exact lit3_toInt t) _ _

theorem M_hit (D : FVec Ideal S27x3 .f32) (k : Fin 483) (j : Fin 41) (hk : 459 ≤ k.val) (hj : j.val = 17 + (k.val - 459)) :
    M (F := Ideal) D (ix2 k j) = twoA0 (F := Ideal) D ix0 := by
  rw [M_eq]
  refine (scatter_set_read _ _ _ _ (ix1 (⟨k.val - 459, by omega⟩ : Fin 24)) (ix2 k j) ?_ ?_).trans ?_
  · rw [land24]
    refine congrArg some (funext fun a => Fin.ext ?_)
    match a with
    | ⟨0, _⟩ => show 459 + (k.val - 459) = k.val; omega
    | ⟨1, _⟩ => show 17 + (k.val - 459) = j.val; omega
  · intro j' hj'
    obtain ⟨t, rfl⟩ : ∃ t : Fin 24, j' = ix1 t := ⟨j' 0, eq_ix1 j'⟩
    rw [land24] at hj'
    have hi := Option.some.inj hj'
    have e0 : 459 + t.val = k.val := congrArg (fun i : S483x41.Idx => (i 0).val) hi
    refine congrArg ix1 (Fin.ext ?_)
    show t.val = k.val - 459
    omega
  · exact broadcastInDim_apply _ bcast_S_S24 _ _ ix0 (fun a => a.elim0)

theorem M_miss (D : FVec Ideal S27x3 .f32) (k : Fin 483) (j : Fin 41) (h : ¬ (459 ≤ k.val ∧ j.val = 17 + (k.val - 459))) :
    M (F := Ideal) D (ix2 k j) = M1 (F := Ideal) D (ix2 k j) := by
  rw [M_eq]
  refine scatter_set_miss _ _ _ _ (ix2 k j) ?_
  intro j' hj'
  obtain ⟨t, rfl⟩ : ∃ t : Fin 24, j' = ix1 t := ⟨j' 0, eq_ix1 j'⟩
  rw [land24] at hj'
  have hi := Option.some.inj hj'
  have e0 : 459 + t.val = k.val := congrArg (fun i : S483x41.Idx => (i 0).val) hi
  have e1 : 17 + t.val = j.val := congrArg (fun i : S483x41.Idx => (i 1).val) hi
  exact h ⟨by omega, by omega⟩

/-! ## The matrix at an entry -/

/-- The kernel's weight matrix is the matrix of the specification. -/
theorem M_apply (D : FVec Ideal S27x3 .f32) (haK : ∀ v : Fin 27, aK (F := Ideal) D (ix1 v) = coef D v) (k : Fin 483) (j : Fin 41) :
    M (F := Ideal) D (ix2 k j) = Mspec D k j := by
  unfold Mspec
  by_cases hk : k.val < 459
  · rw [dif_pos hk, M_miss D k j (by omega), perm_val]
    by_cases hj : j.val < 17
    · rw [if_pos hj]
      by_cases hq : q j.val = k.val % 17
      · rw [if_pos hq, M1_hit D k j hk hj hq, haK]
      · rw [if_neg hq, M1_miss D k j (fun h => hq h.2.2)]
    · rw [if_neg hj, if_neg (by omega), M1_miss D k j (fun h => hj h.2.1)]
  · rw [dif_neg hk, perm_val]
    by_cases hj : j.val < 17
    · have := q_lt j.val hj
      rw [if_pos hj, if_neg (by omega), M_miss D k j (by omega), M1_miss D k j (fun h => hk h.1)]
    · rw [if_neg hj]
      by_cases he : j.val = 17 + (k.val - 459)
      · rw [if_pos he, M_hit D k j (by omega) he, twoA0_apply D haK]
      · rw [if_neg he, M_miss D k j (fun h => he h.2), M1_miss D k j (fun h => hk h.1)]

end Ker2

end Cert.KerMatrix

end
-- ==== Proof.RefStages.lean ====
/-
  The reference program's host operations, grouped into named pure functions of the two argument arrays
  (the state rows `X : [20000, 483]` and the neighbour directions `D : [27, 3]`), in the order the program applies them:

  * `nodeFeat X` — every sample's 27 node rows of 41 channels (17 per-node channels followed by the 24 direction
    channels shared by all nodes), with the channels regrouped by irreducible degree;
  * `srcLocal`, `dstLocal` — the 52 directed edges of the star graph (centre 0 to leaf v, then leaf v to centre 0),
    and `flatIdx`, the same edges offset by 27 · sample for all 20000 samples;
  * `wRef D` — one weight per edge, exp (−‖D[dst] − D[src]‖);
  * `takeF` — rows gathered by index, with the out-of-range fill;
  * `msg`, `agg`, `refVal` — gathered source rows times the edge weight, summed into their destination rows,
    then averaged over each sample's 27 nodes.
-/
import proofs.«140815_g12034498363475_cont_main3_758_5_alg».proof.ReferenceIdeal

noncomputable section

namespace Cert.RefStages

open Idealize.ShloMosaic Cert.ReferenceIdeal Cert.ReferenceIdeal.Facts₀

variable [Cert.ReferenceIdeal.Facts] {F : FTy → Type} [FloatOps F]

/-- The node features: rows `27 · sample + node`, columns the 41 channels in the regrouped order. -/
def nodeFeat (X : FVec F S20000x483 .f32) : FVec F S540000x41 .f32 :=
  let v0 : FVec F S20000x459 .f32 := extractStridedSlice S20000x459 ![0, 0] X slices_S20000x483_S20000x459_0_0
  let v1 : FVec F S20000x24 .f32 := extractStridedSlice S20000x24 ![0, 459] X slices_S20000x483_S20000x24_0_459
  let v2 : FVec F S20000x1x24 .f32 := broadcastInDim S20000x1x24 ![0, 2] bcast_S20000x24_S20000x1x24_0_2 v1
  let v3 : FVec F S20000x27x24 .f32 := broadcastInDim S20000x27x24 ![0, 1, 2] bcast_S20000x1x24_S20000x27x24_0_1_2 v2
  let v4 : FVec F S20000x27x17 .f32 := shapeCast S20000x27x17 v0 shapeCasts_S20000x459_S20000x27x17
  let v5 : FVec F S20000x27x16 .f32 := extractStridedSlice S20000x27x16 ![0, 0, 0] v4 slices_S20000x27x17_S20000x27x16_0_0_0
  let v6 : FVec F S20000x27x1 .f32 := extractStridedSlice S20000x27x1 ![0, 0, 16] v4 slices_S20000x27x17_S20000x27x1_0_0_16
  let v7 : FVec F S20000x27x41 .f32 := concatenate S20000x27x41 2 [⟨S20000x27x16, v5⟩, ⟨S20000x27x1, v6⟩, ⟨S20000x27x24, v3⟩] concatenates_S20000x27x16_S20000x27x1_S20000x27x24_S20000x27x41_d2
  let v8 : FVec F S540000x41 .f32 := shapeCast S540000x41 v7 shapeCasts_S20000x27x41_S540000x41
  let v9 : FVec F S540000x4 .f32 := extractStridedSlice S540000x4 ![0, 0] v8 slices_S540000x41_S540000x4_0_0
  let v10 : FVec F S540000x4x1 .f32 := shapeCast S540000x4x1 v9 shapeCasts_S540000x4_S540000x4x1
  let v11 : FVec F S540000x1 .f32 := extractStridedSlice S540000x1 ![0, 16] v8 slices_S540000x41_S540000x1_0_16
  let v12 : FVec F S540000x1x1 .f32 := shapeCast S540000x1x1 v11 shapeCasts_S540000x1_S540000x1x1
  let v13 : FVec F S540000x5x1 .f32 := concatenate S540000x5x1 1 [⟨S540000x4x1, v10⟩, ⟨S540000x1x1, v12⟩] concatenates_S540000x4x1_S540000x1x1_S540000x5x1_d1
  let v14 : FVec F S540000x12 .f32 := extractStridedSlice S540000x12 ![0, 4] v8 slices_S540000x41_S540000x12_0_4
  let v15 : FVec F S540000x4x3 .f32 := shapeCast S540000x4x3 v14 shapeCasts_S540000x12_S540000x4x3
  let v16 : FVec F S540000x24 .f32 := extractStridedSlice S540000x24 ![0, 17] v8 slices_S540000x41_S540000x24_0_17
  let v17 : FVec F S540000x8x3 .f32 := shapeCast S540000x8x3 v16 shapeCasts_S540000x24_S540000x8x3
  let v18 : FVec F S540000x12x3 .f32 := concatenate S540000x12x3 1 [⟨S540000x4x3, v15⟩, ⟨S540000x8x3, v17⟩] concatenates_S540000x4x3_S540000x8x3_S540000x12x3_d1
  let v19 : FVec F S540000x5 .f32 := shapeCast S540000x5 v13 shapeCasts_S540000x5x1_S540000x5
  let v20 : FVec F S540000x36 .f32 := shapeCast S540000x36 v18 shapeCasts_S540000x12x3_S540000x36
  concatenate S540000x41 1 [⟨S540000x5, v19⟩, ⟨S540000x36, v20⟩] concatenates_S540000x5_S540000x36_S540000x41_d1

/-- Twenty-six zeros: the centre node, once per leaf. -/
def zeros26 : IVec S26 32 := broadcastInDim S26 ![] bcast_S_S26 (constantI S_ 32 0#32)

/-- The leaves 1 … 26. -/
def leaves26 : IVec S26 32 := addi (broadcastInDim S26 ![] bcast_S_S26 (constantI S_ 32 1#32)) (iotaInDim S26 32 0)

/-- Each edge's source node within a sample: the centre for the first 26 edges, then the leaves. -/
def srcLocal : IVec S52 32 := concatenate S52 0 [⟨S26, zeros26⟩, ⟨S26, leaves26⟩] concatenates_S26_S26_S52_d0

/-- Each edge's destination node within a sample: the leaves for the first 26 edges, then the centre. -/
def dstLocal : IVec S52 32 := concatenate S52 0 [⟨S26, leaves26⟩, ⟨S26, zeros26⟩] concatenates_S26_S26_S52_d0

/-- Sample `i`'s first node row, 27 · i. -/
def offsets : IVec S20000x1 32 :=
  muli (broadcastInDim S20000x1 ![0] bcast_S20000_S20000x1_0 (iotaInDim S20000 32 0))
    (broadcastInDim S20000x1 ![] bcast_S_S20000x1 (constantI S_ 32 27#32))

/-- The node rows of all 20000 · 52 edges: entry 52 · i + s is 27 · i + loc s. -/
def flatIdx (loc : IVec S52 32) : IVec S1040000 32 :=
  shapeCast S1040000
    (addi (broadcastInDim S20000x52 ![0, 1] bcast_S20000x1_S20000x52_0_1 offsets)
      (broadcastInDim S20000x52 ![0, 1] bcast_S1x52_S20000x52_0_1 (broadcastInDim S1x52 ![1] bcast_S52_S1x52_1 loc)))
    shapeCasts_S20000x52_S1040000

def srcIdx : IVec S1040000 32 := flatIdx srcLocal
def dstIdx : IVec S1040000 32 := flatIdx dstLocal

/-- A node index made non-negative (a negative one counts from the end) and set as a column of start indices. -/
def nodeStart (loc : IVec S52 32) : IVec S52x1 32 :=
  broadcastInDim S52x1 ![0] bcast_S52_S52x1_0
    (select (cmpi .slt loc (broadcastInDim S52 ![] bcast_S_S52 (constantI S_ 32 0#32)))
      (addi loc (broadcastInDim S52 ![] bcast_S_S52 (constantI S_ 32 27#32))) loc)

/-- Each edge's displacement D[dst] − D[src]. -/
def relPos (D : FVec F S27x3 .f32) : FVec F S52x3 .f32 :=
  subf (Host.gather gather_S27x3_S52x1_S52x3_1_0_n_n_0_1_13 D (nodeStart dstLocal))
    (Host.gather gather_S27x3_S52x1_S52x3_1_0_n_n_0_1_13 D (nodeStart srcLocal))

/-- Each edge's weight exp (−‖displacement‖). -/
def wRef (D : FVec F S27x3 .f32) : FVec F S52 .f32 :=
  Host.exp (Host.negf (Host.sqrt
    (Host.reduceAdd (mulf (relPos D) (relPos D)) (constant S_ .f32 0x00000000#32) reducesTo_S52x3_S52_d1 h_S_)))

/-- The 52 weights repeated for every sample: entry 52 · i + s is weight s. -/
def wFull (D : FVec F S27x3 .f32) : FVec F S1040000 .f32 :=
  shapeCast S1040000
    (broadcastInDim S20000x52 ![0, 1] bcast_S1x52_S20000x52_0_1 (shapeCast S1x52 (wRef D) shapeCasts_S52_S1x52))
    shapeCasts_S20000x52_S1040000

/-- A row index made non-negative and set as a column of start indices. -/
def takeStart (idx : IVec S1040000 32) : IVec S1040000x1 32 :=
  broadcastInDim S1040000x1 ![0] bcast_S1040000_S1040000x1_0
    (select (cmpi .slt idx (broadcastInDim S1040000 ![] bcast_S_S1040000 (constantI S_ 32 0#32)))
      (addi idx (broadcastInDim S1040000 ![] bcast_S_S1040000 (constantI S_ 32 540000#32))) idx)

/-- Whether each start index lies in 0 … 539999. -/
def takeOk (idx : IVec S1040000 32) : IVec S1040000 1 :=
  Host.reduce IntOp.andi
    (andi (cmpi .sge (takeStart idx) (broadcastInDim S1040000x1 ![] bcast_S_S1040000x1 (constantI S_ 32 0#32)))
      (cmpi .sle (takeStart idx)
        (broadcastInDim S1040000x1 ![0, 1] bcast_S1x1_S1040000x1_0_1 (broadcastInDim S1x1 ![1] bcast_S1_S1x1_1 (constantI S1 32 539999#32)))))
    (constantI S_ 1 1#1) reducesTo_S1040000x1_S1040000_d1 h_S_

/-- Rows of `nf` gathered at `idx`; a row whose index is out of range is filled with the fill pattern. -/
def takeF (nf : FVec F S540000x41 .f32) (idx : IVec S1040000 32) : FVec F S1040000x41 .f32 :=
  select (broadcastInDim S1040000x41 ![0] bcast_S1040000_S1040000x41_0 (takeOk idx))
    (Host.gather gather_S540000x41_S1040000x1_S1040000x41_1_0_n_n_0_1_141 nf (takeStart idx))
    (broadcastInDim S1040000x41 ![] bcast_S_S1040000x41 (constant S_ .f32 0x7FC00000#32))

/-- One message per edge: the source node's row times the edge's weight. -/
def msg (X : FVec F S20000x483 .f32) (D : FVec F S27x3 .f32) : FVec F S1040000x41 .f32 :=
  mulf (takeF (nodeFeat X) srcIdx)
    (broadcastInDim S1040000x41 ![0, 1] bcast_S1040000x1_S1040000x41_0_1
      (broadcastInDim S1040000x1 ![0] bcast_S1040000_S1040000x1_0 (wFull D)))

/-- The messages summed into their destination rows. -/
def agg (X : FVec F S20000x483 .f32) (D : FVec F S27x3 .f32) : FVec F S540000x41 .f32 :=
  Host.scatterAdd scatter_S540000x41_S1040000x1_S1040000x41_1_0_0_1
    (broadcastInDim S540000x41 ![] bcast_S_S540000x41 (constant S_ .f32 0x00000000#32))
    (broadcastInDim S1040000x1 ![0] bcast_S1040000_S1040000x1_0 dstIdx) (msg X D)

/-- The reference's result: each sample's 27 aggregated node rows averaged. -/
def refVal (X : FVec F S20000x483 .f32) (D : FVec F S27x3 .f32) : FVec F S20000x41 .f32 :=
  Host.divf
    (Host.reduceAdd (shapeCast S20000x27x41 (agg X D) shapeCasts_S540000x41_S20000x27x41)
      (constant S_ .f32 0x00000000#32) reducesTo_S20000x27x41_S20000x41_d1 h_S_)
    (broadcastInDim S20000x41 ![] bcast_S_S20000x41 (constant S_ .f32 0x41D80000#32))

end Cert.RefStages

end
-- ==== Proof.RefEdges.lean ====
/-
  The reference program's two edge tables read at an edge: the star's 52 directed edges are the centre to each leaf
  (edges 0 … 25) followed by each leaf to the centre (edges 26 … 51).
-/
import proofs.«140815_g12034498363475_cont_main3_758_5_alg».proof.Proof.Spec
import proofs.«140815_g12034498363475_cont_main3_758_5_alg».proof.Proof.RefStages
import Idealize.ShloMosaic.Lib.Pipeline.Value

noncomputable section

namespace Cert.RefEdges

open Idealize.ShloMosaic Idealize.ShloMosaic.ValueIdx Cert.ReferenceIdeal Cert.ReferenceIdeal.Facts₀ Cert.RefStages Cert.Spec

variable [Cert.ReferenceIdeal.Facts]

/-- Every entry of the zero table is the zero word. -/
theorem zeros26_apply (u : Fin 26) : zeros26 (ix1 u) = 0#32 := rfl

/-- Entry u of the leaf table is the word 1 + u. -/
theorem leaves26_apply (u : Fin 26) : leaves26 (ix1 u) = BitVec.ofNat 32 (u.val + 1) := by
  show (1#32 : BitVec 32) + BitVec.ofNat 32 u.val = BitVec.ofNat 32 (u.val + 1)
  rw [Nat.add_comm, BitVec.ofNat_add]

/-- The concatenation of two 26-entry tables read in its first half. -/
theorem cat_lo (A B : IVec S26 32) (s : Fin 52) (h : s.val < 26) :
    concatenate S52 0 [⟨S26, A⟩, ⟨S26, B⟩] concatenates_S26_S26_S52_d0 (ix1 s) = A (ix1 ⟨s.val, h⟩) :=
  concatenate_pair_apply_left (t := S52) (s₁ := S26) (s₂ := S26) 0 A B concatenates_S26_S26_S52_d0 (ix1 s) rfl
    (ix1 ⟨s.val, h⟩) (fun b => match b with | ⟨0, _⟩ => rfl)

/-- The concatenation of two 26-entry tables read in its second half. -/
theorem cat_hi (A B : IVec S26 32) (s : Fin 52) (h : 26 ≤ s.val) :
    concatenate S52 0 [⟨S26, A⟩, ⟨S26, B⟩] concatenates_S26_S26_S52_d0 (ix1 s) = B (ix1 ⟨s.val - 26, by omega⟩) :=
  concatenate_pair_apply_right (t := S52) (s₁ := S26) (s₂ := S26) 0 A B concatenates_S26_S26_S52_d0 (ix1 s) rfl rfl
    (ix1 ⟨s.val - 26, by omega⟩) (fun b hb => match b, hb with | ⟨0, _⟩, hb => absurd rfl hb)
    (by show s.val - 26 + 26 = s.val; omega)

/-- Edge s's source: the centre for the first 26 edges, leaf s − 25 for the others. -/
theorem srcLocal_apply (s : Fin 52) : srcLocal (ix1 s) = BitVec.ofNat 32 (edgeSrc s).val := by
  unfold srcLocal edgeSrc
  by_cases h : s.val < 26
  · rw [cat_lo _ _ s h, zeros26_apply, dif_pos h]
  · rw [cat_hi _ _ s (by omega), leaves26_apply, dif_neg h]
    congr 1; show s.val - 26 + 1 = s.val - 25; omega

/-- Edge s's destination: leaf s + 1 for the first 26 edges, the centre for the others. -/
theorem dstLocal_apply (s : Fin 52) : dstLocal (ix1 s) = BitVec.ofNat 32 (edgeDst s).val := by
  unfold dstLocal edgeDst
  by_cases h : s.val < 26
  · rw [cat_lo _ _ s h, leaves26_apply, dif_pos h]
  · rw [cat_hi _ _ s (by omega), zeros26_apply, dif_neg h]

end Cert.RefEdges

end
-- ==== Proof.Weights.lean ====
/-
  The edge weights of both programs read at an index.

  An edge between nodes a and b weighs wgt D a b = exp (−√(0 + Σ_d (D a d − D b d)²)). The message-passing program
  gathers the rows of D at its two edge tables, subtracts, squares, sums over the 3 coordinates, and applies
  √, −, exp: one weight per directed edge, then repeated for every sample. The matrix program slices rows 1 … 26
  of D and row 0, does the same arithmetic for the 26 leaves, and forms the 27 node coefficients: the sum of the
  leaf weights for the centre, each leaf's own weight for a leaf, all over 27.
-/
import proofs.«140815_g12034498363475_cont_main3_758_5_alg».proof.Proof.Spec
import proofs.«140815_g12034498363475_cont_main3_758_5_alg».proof.Proof.RefStages
import proofs.«140815_g12034498363475_cont_main3_758_5_alg».proof.Proof.KerStages
import proofs.«140815_g12034498363475_cont_main3_758_5_alg».proof.Proof.RefEdges
import Idealize.ShloMosaic.PureOps.Ideal.Laws
import Idealize.ShloMosaic.Lib.Pipeline.Value

noncomputable section

namespace Cert.Weights

open Idealize.ShloMosaic Idealize.ShloMosaic.ValueIdx Cert.Spec

section Ref
open Cert.ReferenceIdeal Cert.ReferenceIdeal.Facts₀ Cert.RefStages
variable [Cert.ReferenceIdeal.Facts]

/-- A node number 0 … 26 as a 32-bit word is not negative. -/
theorem slt_small (n : ℕ) (hn : n < 27) : IntOp.cmpi .slt (BitVec.ofNat 32 n) 0#32 = 0#1 := by
  interval_cases n <;> rfl

/-- A node number 0 … 26 read back signed and clamped into 0 … 26 is itself. -/
theorem clamp_small (n : ℕ) (hn : n < 27) : min (BitVec.ofNat 32 n).toInt.toNat 26 = n := by
  interval_cases n <;> rfl

/-- The start column of a table of node numbers: row s holds the table's entry s (no wrap from the end is taken). -/
theorem nodeStart_apply (loc : IVec S52 32) (s : Fin 52) (c : Fin 1) (n : ℕ) (hn : n < 27)
    (h : loc (ix1 s) = BitVec.ofNat 32 n) : nodeStart loc (ix2 s c) = BitVec.ofNat 32 n := by
  unfold nodeStart
  refine (broadcastInDim_apply _ _ _ (ix2 s c) (ix1 s) ?_).trans ?_
  · intro a
    match a with
    | ⟨0, _⟩ => rfl
  · show Scalar.select (IntOp.cmpi .slt (loc (ix1 s)) 0#32) (IntOp.addi (loc (ix1 s)) 27#32) (loc (ix1 s)) = _
    rw [h, slt_small n hn, select_zero]

/-- The row gather read at (s, d): row (start s, signed, clamped into 0 … 26) of the operand, column d. -/
theorem gather_row {α : Type} (x : S27x3.Idx → α) (idx : IVec S52x1 32) (s : Fin 52) (d : Fin 3) :
    Host.gather gather_S27x3_S52x1_S52x3_1_0_n_n_0_1_13 x idx (ix2 s d)
      = x (ix2 (⟨min (idx (ix2 s (⟨0, by omega⟩ : Fin 1))).toInt.toNat 26, by omega⟩ : Fin 27) d) := by
  unfold Host.gather
  congr 1
  funext a
  apply Fin.ext
  match a with
  | ⟨0, _⟩ =>
    simp [GatherDims.operandIdx, GatherDims.start, GatherDims.offCoord, GatherDims.batchCoord,
      gather_S27x3_S52x1_S52x3_1_0_n_n_0_1_13, GatherDims.sKept, Shape.kept]
    refine congrArg (fun z => min (idx z).toInt.toNat 26) (funext fun b => Fin.ext ?_)
    match b with
    | ⟨0, _⟩ => rfl
    | ⟨1, _⟩ => rfl
  | ⟨1, _⟩ =>
    simp [GatherDims.operandIdx, GatherDims.start, GatherDims.offCoord, GatherDims.batchCoord,
      gather_S27x3_S52x1_S52x3_1_0_n_n_0_1_13, GatherDims.sKept, Shape.kept]
    rfl

/-- Rows gathered at a table of node numbers: row s is the operand's row v when the table's entry s is node v. -/
theorem gather_node {α : Type} (x : S27x3.Idx → α) (loc : IVec S52 32) (s : Fin 52) (d : Fin 3) (v : Fin 27)
    (h : loc (ix1 s) = BitVec.ofNat 32 v.val) :
    Host.gather gather_S27x3_S52x1_S52x3_1_0_n_n_0_1_13 x (nodeStart loc) (ix2 s d) = x (ix2 v d) := by
  rw [gather_row]
  congr 2
  apply Fin.ext
  show min (nodeStart loc (ix2 s (⟨0, by omega⟩ : Fin 1))).toInt.toNat 26 = v.val
  rw [nodeStart_apply loc s _ v.val v.isLt h, clamp_small v.val v.isLt]

/-- Edge s's displacement: D at its destination minus D at its source. -/
theorem relPos_apply (D : FVec Ideal S27x3 .f32) (s : Fin 52) (d : Fin 3) :
    relPos (F := Ideal) D (ix2 s d) = D (ix2 (edgeDst s) d) - D (ix2 (edgeSrc s) d) := by
  unfold relPos
  rw [subf_apply, gather_node D dstLocal s d (edgeDst s) (Cert.RefEdges.dstLocal_apply s),
    gather_node D srcLocal s d (edgeSrc s) (Cert.RefEdges.srcLocal_apply s)]

/-- The reduction over the 3 coordinates of a [52, 3] array. -/
theorem red3 : S52x3.Reduces [1] S52 := by decide

/-- Edge s's weight: exp (−‖D[dst s] − D[src s]‖). -/
theorem wRef_apply (D : FVec Ideal S27x3 .f32) (s : Fin 52) :
    wRef (F := Ideal) D (ix1 s) = wgt D (edgeDst s) (edgeSrc s) := by
  show Ideal.exp (-(Ideal.sqrt (Ideal.hostReduceAdd reducesTo_S52x3_S52_d1 (mulf (relPos (F := Ideal) D) (relPos (F := Ideal) D))
    (Ideal.ofBits .f32 0x00000000#32) (ix1 s)))) = _
  rw [Ideal.hostReduceAdd_single reducesTo_S52x3_S52_d1 red3, zero_eq]
  unfold wgt
  refine congrArg (fun z => Ideal.exp (-(Ideal.sqrt (0 + z)))) ?_
  refine Finset.sum_congr rfl fun (k : Fin 3) _ => ?_
  have hk : red3.lift (ix1 s) k = ix2 s k := by
    funext a
    apply Fin.ext
    match a with
    | ⟨0, _⟩ => rfl
    | ⟨1, _⟩ => rfl
  rw [hk, mulf_apply, relPos_apply]

/-- The weights repeated for every sample: entry e is weight e mod 52. -/
theorem wFull_apply (D : FVec Ideal S27x3 .f32) (e : Fin 1040000) :
    wFull (F := Ideal) D (ix1 e) = wRef (F := Ideal) D (ix1 (⟨e.val % 52, Nat.mod_lt _ (by norm_num)⟩ : Fin 52)) := by
  unfold wFull
  refine (shapeCast_apply _ _ (ix1 e) (ix2 (⟨e.val / 52, by omega⟩ : Fin 20000) (⟨e.val % 52, Nat.mod_lt _ (by norm_num)⟩ : Fin 52)) ?_).trans ?_
  · rw [Shape.rowMajor_val_two, Shape.rowMajor_val_one]
    show e.val / 52 * 52 + e.val % 52 = e.val
    omega
  refine (broadcastInDim_apply _ _ _ _ (ix2 (⟨0, by omega⟩ : Fin 1) (⟨e.val % 52, Nat.mod_lt _ (by norm_num)⟩ : Fin 52)) ?_).trans ?_
  · intro a
    match a with
    | ⟨0, _⟩ => rfl
    | ⟨1, _⟩ => rfl
  refine shapeCast_apply _ _ _ (ix1 (⟨e.val % 52, Nat.mod_lt _ (by norm_num)⟩ : Fin 52)) ?_
  rw [Shape.rowMajor_val_two, Shape.rowMajor_val_one]
  show e.val % 52 = 0 * 52 + e.val % 52
  omega

end Ref

section Ker
open Cert.KernelIdeal Cert.KernelIdeal.Facts₀ Cert.KerStages
variable [Cert.KernelIdeal.Facts]

/-- Leaf u's displacement from the centre, coordinate d: row u + 1 of D minus row 0 of D. -/
theorem diffK_apply (D : FVec Ideal S27x3 .f32) (u : Fin 26) (d : Fin 3) :
    subf (extractStridedSlice S26x3 ![1, 0] D slices_S27x3_S26x3_1_0)
        (broadcastInDim S26x3 ![0, 1] bcast_S1x3_S26x3_0_1 (extractStridedSlice S1x3 ![0, 0] D slices_S27x3_S1x3_0_0))
        (ix2 u d)
      = D (ix2 (⟨u.val + 1, by omega⟩ : Fin 27) d) - D (ix2 (⟨0, by omega⟩ : Fin 27) d) := by
  rw [subf_apply]
  congr 1
  · refine extractStridedSlice_apply _ D _ (ix2 u d) (ix2 (⟨u.val + 1, by omega⟩ : Fin 27) d) fun a => ?_
    match a with
    | ⟨0, _⟩ => show u.val + 1 = 1 + u.val; omega
    | ⟨1, _⟩ => show d.val = 0 + d.val; omega
  · refine (broadcastInDim_apply _ _ _ (ix2 u d) (ix2 (⟨0, by omega⟩ : Fin 1) d) fun a => ?_).trans ?_
    · match a with
      | ⟨0, _⟩ => rfl
      | ⟨1, _⟩ => rfl
    · refine extractStridedSlice_apply _ D _ _ (ix2 (⟨0, by omega⟩ : Fin 27) d) fun a => ?_
      match a with
      | ⟨0, _⟩ => rfl
      | ⟨1, _⟩ => show d.val = 0 + d.val; omega

/-- The reduction over the 3 coordinates of a [26, 3] array. -/
theorem redK3 : S26x3.Reduces [1] S26 := by decide

/-- Leaf u + 1's weight against the centre. -/
theorem wK_apply (D : FVec Ideal S27x3 .f32) (u : Fin 26) : wK (F := Ideal) D (ix1 u) = leafW D u := by
  show Ideal.exp (-(Ideal.sqrt (Ideal.hostReduceAdd reducesTo_S26x3_S26_d1
    (mulf
      (subf (extractStridedSlice S26x3 ![1, 0] D slices_S27x3_S26x3_1_0)
        (broadcastInDim S26x3 ![0, 1] bcast_S1x3_S26x3_0_1 (extractStridedSlice S1x3 ![0, 0] D slices_S27x3_S1x3_0_0)))
      (subf (extractStridedSlice S26x3 ![1, 0] D slices_S27x3_S26x3_1_0)
        (broadcastInDim S26x3 ![0, 1] bcast_S1x3_S26x3_0_1 (extractStridedSlice S1x3 ![0, 0] D slices_S27x3_S1x3_0_0))))
    (Ideal.ofBits .f32 0x00000000#32) (ix1 u)))) = _
  rw [Ideal.hostReduceAdd_single reducesTo_S26x3_S26_d1 redK3, zero_eq]
  unfold leafW wgt
  refine congrArg (fun z => Ideal.exp (-(Ideal.sqrt (0 + z)))) ?_
  refine Finset.sum_congr rfl fun (k : Fin 3) _ => ?_
  have hk : redK3.lift (ix1 u) k = ix2 u k := by
    funext a
    apply Fin.ext
    match a with
    | ⟨0, _⟩ => rfl
    | ⟨1, _⟩ => rfl
  rw [hk, mulf_apply, diffK_apply]

/-- A sum over the indices of a rank-1 array is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    fun i => congrArg f (eq_ix1 i)

/-- The sum of the 26 leaf weights, from zero. -/
theorem sumK_apply (D : FVec Ideal S27x3 .f32) (j : S_.Idx) :
    Host.reduceAdd (wK (F := Ideal) D) (constant (F := Ideal) S_ .f32 0x00000000#32) reducesTo_S26_S_d0 h_S_ j
      = 0 + ∑ u : Fin 26, leafW D u := by
  show Ideal.hostReduceAdd reducesTo_S26_S_d0 (wK (F := Ideal) D) (Ideal.ofBits .f32 0x00000000#32) j = _
  rw [Ideal.hostReduceAdd_total reducesTo_S26_S_d0 (fun b => b.elim0), zero_eq, sum_idx1]
  exact congrArg (fun z => (0 : EReal) + z) (Finset.sum_congr rfl fun k _ => wK_apply D k)

/-- Node v's coefficient: (the sum of the leaf weights for the centre, the leaf's own weight for a leaf) / 27. -/
theorem aK_apply (D : FVec Ideal S27x3 .f32) (v : Fin 27) : aK (F := Ideal) D (ix1 v) = coef D v := by
  unfold aK coef
  show Ideal.div _ (Ideal.ofBits .f32 0x41D80000#32) = _
  refine congrArg (fun z => Ideal.div z c27) ?_
  by_cases h : v.val = 0
  · rw [dif_pos h]
    refine (concatenate_pair_apply_left (t := S27) (s₁ := S1) (s₂ := S26) 0 _ _ concatenates_S1_S26_S27_d0 (ix1 v) rfl
      (ix1 (⟨0, by omega⟩ : Fin 1)) (fun b => match b with | ⟨0, _⟩ => h.symm)).trans ?_
    exact sumK_apply D _
  · rw [dif_neg h]
    refine (concatenate_pair_apply_right (t := S27) (s₁ := S1) (s₂ := S26) 0 _ _ concatenates_S1_S26_S27_d0 (ix1 v) rfl rfl
      (ix1 (⟨v.val - 1, by omega⟩ : Fin 26)) (fun b hb => match b, hb with | ⟨0, _⟩, hb => absurd rfl hb)
      (by show v.val - 1 + 1 = v.val; omega)).trans ?_
    exact wK_apply D _

end Ker

end Cert.Weights

end
-- ==== Proof.RefRunAux1.lean ====
/-
  The reference program's main function as a list of its 109 host operations, in order, each called function's
  operations standing in its call's place over that call's own buffers, and the program's run read as the fold of the
  operations' results over the launch contents of the buffers.

  The list is also given in five consecutive pieces (node features; index tables; edge weights; gathered rows;
  messages, scatter and mean), whose concatenation it is, so that the fold can be read one piece at a time.
-/
import proofs.«140815_g12034498363475_cont_main3_758_5_alg».proof.Proof.RefStages
import Idealize.ShloMosaic.Lib.StableHlo.Run

noncomputable section

namespace Cert.RefRun

open Idealize.ShloMosaic Idealize.ShloMosaic.TcCoe Idealize.SL.Sem Idealize.ShloMosaic.StableHlo
open Cert.ReferenceIdeal Cert.ReferenceIdeal.Facts₀

variable [Cert.ReferenceIdeal.Facts] {F : FTy → Type} [FloatOps F]

/-- Operations 1 … 22: the node features, ending at `main_v21`. -/
abbrev opsA : List (HloOp τ sig (Elt F)) :=
  [ StableHlo.unary main_arg0 main_v0 ((extractStridedSlice S20000x459 ![0, 0] · slices_S20000x483_S20000x459_0_0) : (⟨S20000x483, .f32⟩ : BufTy).Contents (Elt F) → (⟨S20000x459, .f32⟩ : BufTy).Contents (Elt F)),
    StableHlo.unary main_arg0 main_v1 ((extractStridedSlice S20000x24 ![0, 459] · slices_S20000x483_S20000x24_0_459) : (⟨S20000x483, .f32⟩ : BufTy).Contents (Elt F) → (⟨S20000x24, .f32⟩ : BufTy).Contents (Elt F)),
    StableHlo.unary main_v1 main_v2 (broadcastInDim S20000x1x24 ![0, 2] bcast_S20000x24_S20000x1x24_0_2 : (⟨S20000x24, .f32⟩ : BufTy).Contents (Elt F) → (⟨S20000x1x24, .f32⟩ : BufTy).Contents (Elt F)),
    StableHlo.unary main_v2 main_v3 (broadcastInDim S20000x27x24 ![0, 1, 2] bcast_S20000x1x24_S20000x27x24_0_1_2 : (⟨S20000x1x24, .f32⟩ : BufTy).Contents (Elt F) → (⟨S20000x27x24, .f32⟩ : BufTy).Contents (Elt F)),
    StableHlo.reshape main_v0 main_v4 rfl shapeCasts_S20000x459_S20000x27x17,
    StableHlo.unary main_v4 main_v5 ((extractStridedSlice S20000x27x16 ![0, 0, 0] · slices_S20000x27x17_S20000x27x16_0_0_0) : (⟨S20000x27x17, .f32⟩ : BufTy).Contents (Elt F) → (⟨S20000x27x16, .f32⟩ : BufTy).Contents (Elt F)),
    StableHlo.unary main_v4 main_v6 ((extractStridedSlice S20000x27x1 ![0, 0, 16] · slices_S20000x27x17_S20000x27x1_0_0_16) : (⟨S20000x27x17, .f32⟩ : BufTy).Contents (Elt F) → (⟨S20000x27x1, .f32⟩ : BufTy).Contents (Elt F)),
    StableHlo.nary ![main_v5, main_v6, main_v3] main_v7 (fun u => concatenate S20000x27x41 2 [⟨S20000x27x16, u 0⟩, ⟨S20000x27x1, u 1⟩, ⟨S20000x27x24, u 2⟩] concatenates_S20000x27x16_S20000x27x1_S20000x27x24_S20000x27x41_d2),
    StableHlo.reshape main_v7 main_v8 rfl shapeCasts_S20000x27x41_S540000x41,
    StableHlo.unary main_v8 main_v9 ((extractStridedSlice S540000x4 ![0, 0] · slices_S540000x41_S540000x4_0_0) : (⟨S540000x41, .f32⟩ : BufTy).Contents (Elt F) → (⟨S540000x4, .f32⟩ : BufTy).Contents (Elt F)),
    StableHlo.reshape main_v9 main_v10 rfl shapeCasts_S540000x4_S540000x4x1,
    StableHlo.unary main_v8 main_v11 ((extractStridedSlice S540000x1 ![0, 16] · slices_S540000x41_S540000x1_0_16) : (⟨S540000x41, .f32⟩ : BufTy).Contents (Elt F) → (⟨S540000x1, .f32⟩ : BufTy).Contents (Elt F)),
    StableHlo.reshape main_v11 main_v12 rfl shapeCasts_S540000x1_S540000x1x1,
    StableHlo.binary main_v10 main_v12 main_v13 ((fun a b => concatenate S540000x5x1 1 [⟨S540000x4x1, a⟩, ⟨S540000x1x1, b⟩] concatenates_S540000x4x1_S540000x1x1_S540000x5x1_d1) : (⟨S540000x4x1, .f32⟩ : BufTy).Contents (Elt F) → (⟨S540000x1x1, .f32⟩ : BufTy).Contents (Elt F) → (⟨S540000x5x1, .f32⟩ : BufTy).Contents (Elt F)),
    StableHlo.unary main_v8 main_v14 ((extractStridedSlice S540000x12 ![0, 4] · slices_S540000x41_S540000x12_0_4) : (⟨S540000x41, .f32⟩ : BufTy).Contents (Elt F) → (⟨S540000x12, .f32⟩ : BufTy).Contents (Elt F)),
    StableHlo.reshape main_v14 main_v15 rfl shapeCasts_S540000x12_S540000x4x3,
    StableHlo.unary main_v8 main_v16 ((extractStridedSlice S540000x24 ![0, 17] · slices_S540000x41_S540000x24_0_17) : (⟨S540000x41, .f32⟩ : BufTy).Contents (Elt F) → (⟨S540000x24, .f32⟩ : BufTy).Contents (Elt F)),
    StableHlo.reshape main_v16 main_v17 rfl shapeCasts_S540000x24_S540000x8x3,
    StableHlo.binary main_v15 main_v17 main_v18 ((fun a b => concatenate S540000x12x3 1 [⟨S540000x4x3, a⟩, ⟨S540000x8x3, b⟩] concatenates_S540000x4x3_S540000x8x3_S540000x12x3_d1) : (⟨S540000x4x3, .f32⟩ : BufTy).Contents (Elt F) → (⟨S540000x8x3, .f32⟩ : BufTy).Contents (Elt F) → (⟨S540000x12x3, .f32⟩ : BufTy).Contents (Elt F)),
    StableHlo.reshape main_v13 main_v19 rfl shapeCasts_S540000x5x1_S540000x5,
    StableHlo.reshape main_v18 main_v20 rfl shapeCasts_S540000x12x3_S540000x36,
    StableHlo.binary main_v19 main_v20 main_v21 ((fun a b => concatenate S540000x41 1 [⟨S540000x5, a⟩, ⟨S540000x36, b⟩] concatenates_S540000x5_S540000x36_S540000x41_d1) : (⟨S540000x5, .f32⟩ : BufTy).Contents (Elt F) → (⟨S540000x36, .f32⟩ : BufTy).Contents (Elt F) → (⟨S540000x41, .f32⟩ : BufTy).Contents (Elt F)) ]

/-- Operations 23 … 45: the edge tables and the flat source and destination row indices, ending at `main_v36` and `main_v41`. -/
abbrev opsB : List (HloOp τ sig (Elt F)) :=
  [ StableHlo.nullary main_c (constantI S_ 32 0#32),
    StableHlo.unary main_c main_v22 (broadcastInDim S26 ![] bcast_S_S26 : (⟨S_, .i32⟩ : BufTy).Contents (Elt F) → (⟨S26, .i32⟩ : BufTy).Contents (Elt F)),
    StableHlo.nullary main_v23 (iotaInDim S26 32 0),
    StableHlo.nullary main_c_0 (constantI S_ 32 1#32),
    StableHlo.unary main_c_0 main_v24 (broadcastInDim S26 ![] bcast_S_S26 : (⟨S_, .i32⟩ : BufTy).Contents (Elt F) → (⟨S26, .i32⟩ : BufTy).Contents (Elt F)),
    StableHlo.binary main_v24 main_v23 main_v25 (addi : (⟨S26, .i32⟩ : BufTy).Contents (Elt F) → (⟨S26, .i32⟩ : BufTy).Contents (Elt F) → (⟨S26, .i32⟩ : BufTy).Contents (Elt F)),
    StableHlo.binary main_v22 main_v25 main_v26 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    StableHlo.binary main_v25 main_v22 main_v27 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    StableHlo.nullary main_v28 (iotaInDim S20000 32 0),
    StableHlo.unary main_v28 main_v29 (broadcastInDim S20000x1 ![0] bcast_S20000_S20000x1_0 : (⟨S20000, .i32⟩ : BufTy).Contents (Elt F) → (⟨S20000x1, .i32⟩ : BufTy).Contents (Elt F)),
    StableHlo.nullary main_c_1 (constantI S_ 32 27#32),
    StableHlo.unary main_c_1 main_v30 (broadcastInDim S20000x1 ![] bcast_S_S20000x1 : (⟨S_, .i32⟩ : BufTy).Contents (Elt F) → (⟨S20000x1, .i32⟩ : BufTy).Contents (Elt F)),
    StableHlo.binary main_v29 main_v30 main_v31 (muli : (⟨S20000x1, .i32⟩ : BufTy).Contents (Elt F) → (⟨S20000x1, .i32⟩ : BufTy).Contents (Elt F) → (⟨S20000x1, .i32⟩ : BufTy).Contents (Elt F)),
    StableHlo.unary main_v26 main_v32 (broadcastInDim S1x52 ![1] bcast_S52_S1x52_1 : (⟨S52, .i32⟩ : BufTy).Contents (Elt F) → (⟨S1x52, .i32⟩ : BufTy).Contents (Elt F)),
    StableHlo.unary main_v31 main_v33 (broadcastInDim S20000x52 ![0, 1] bcast_S20000x1_S20000x52_0_1 : (⟨S20000x1, .i32⟩ : BufTy).Contents (Elt F) → (⟨S20000x52, .i32⟩ : BufTy).Contents (Elt F)),
    StableHlo.unary main_v32 main_v34 (broadcastInDim S20000x52 ![0, 1] bcast_S1x52_S20000x52_0_1 : (⟨S1x52, .i32⟩ : BufTy).Contents (Elt F) → (⟨S20000x52, .i32⟩ : BufTy).Contents (Elt F)),
    StableHlo.binary main_v33 main_v34 main_v35 (addi : (⟨S20000x52, .i32⟩ : BufTy).Contents (Elt F) → (⟨S20000x52, .i32⟩ : BufTy).Contents (Elt F) → (⟨S20000x52, .i32⟩ : BufTy).Contents (Elt F)),
    StableHlo.reshape main_v35 main_v36 rfl shapeCasts_S20000x52_S1040000,
    StableHlo.unary main_v27 main_v37 (broadcastInDim S1x52 ![1] bcast_S52_S1x52_1 : (⟨S52, .i32⟩ : BufTy).Contents (Elt F) → (⟨S1x52, .i32⟩ : BufTy).Contents (Elt F)),
    StableHlo.unary main_v31 main_v38 (broadcastInDim S20000x52 ![0, 1] bcast_S20000x1_S20000x52_0_1 : (⟨S20000x1, .i32⟩ : BufTy).Contents (Elt F) → (⟨S20000x52, .i32⟩ : BufTy).Contents (Elt F)),
    StableHlo.unary main_v37 main_v39 (broadcastInDim S20000x52 ![0, 1] bcast_S1x52_S20000x52_0_1 : (⟨S1x52, .i32⟩ : BufTy).Contents (Elt F) → (⟨S20000x52, .i32⟩ : BufTy).Contents (Elt F)),
    StableHlo.binary main_v38 main_v39 main_v40 (addi : (⟨S20000x52, .i32⟩ : BufTy).Contents (Elt F) → (⟨S20000x52, .i32⟩ : BufTy).Contents (Elt F) → (⟨S20000x52, .i32⟩ : BufTy).Contents (Elt F)),
    StableHlo.reshape main_v40 main_v41 rfl shapeCasts_S20000x52_S1040000 ]

/-- Operations 46 … 73: the edge displacements, their norms (the called norm function's four operations in place), the weights, repeated per sample, ending at `main_v62`. -/
abbrev opsC : List (HloOp τ sig (Elt F)) :=
  [ StableHlo.nullary main_c_2 (constantI S_ 32 0#32),
    StableHlo.unary main_c_2 main_v42 (broadcastInDim S52 ![] bcast_S_S52 : (⟨S_, .i32⟩ : BufTy).Contents (Elt F) → (⟨S52, .i32⟩ : BufTy).Contents (Elt F)),
    StableHlo.binary main_v27 main_v42 main_v43 (cmpi .slt : (⟨S52, .i32⟩ : BufTy).Contents (Elt F) → (⟨S52, .i32⟩ : BufTy).Contents (Elt F) → (⟨S52, .i1⟩ : BufTy).Contents (Elt F)),
    StableHlo.nullary main_c_3 (constantI S_ 32 27#32),
    StableHlo.unary main_c_3 main_v44 (broadcastInDim S52 ![] bcast_S_S52 : (⟨S_, .i32⟩ : BufTy).Contents (Elt F) → (⟨S52, .i32⟩ : BufTy).Contents (Elt F)),
    StableHlo.binary main_v27 main_v44 main_v45 (addi : (⟨S52, .i32⟩ : BufTy).Contents (Elt F) → (⟨S52, .i32⟩ : BufTy).Contents (Elt F) → (⟨S52, .i32⟩ : BufTy).Contents (Elt F)),
    StableHlo.ternary main_v43 main_v45 main_v27 main_v46 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    StableHlo.unary main_v46 main_v47 (broadcastInDim S52x1 ![0] bcast_S52_S52x1_0 : (⟨S52, .i32⟩ : BufTy).Contents (Elt F) → (⟨S52x1, .i32⟩ : BufTy).Contents (Elt F)),
    StableHlo.binary main_arg1 main_v47 main_v48 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    StableHlo.nullary main_c_4 (constantI S_ 32 0#32),
    StableHlo.unary main_c_4 main_v49 (broadcastInDim S52 ![] bcast_S_S52 : (⟨S_, .i32⟩ : BufTy).Contents (Elt F) → (⟨S52, .i32⟩ : BufTy).Contents (Elt F)),
    StableHlo.binary main_v26 main_v49 main_v50 (cmpi .slt : (⟨S52, .i32⟩ : BufTy).Contents (Elt F) → (⟨S52, .i32⟩ : BufTy).Contents (Elt F) → (⟨S52, .i1⟩ : BufTy).Contents (Elt F)),
    StableHlo.nullary main_c_5 (constantI S_ 32 27#32),
    StableHlo.unary main_c_5 main_v51 (broadcastInDim S52 ![] bcast_S_S52 : (⟨S_, .i32⟩ : BufTy).Contents (Elt F) → (⟨S52, .i32⟩ : BufTy).Contents (Elt F)),
    StableHlo.binary main_v26 main_v51 main_v52 (addi : (⟨S52, .i32⟩ : BufTy).Contents (Elt F) → (⟨S52, .i32⟩ : BufTy).Contents (Elt F) → (⟨S52, .i32⟩ : BufTy).Contents (Elt F)),
    StableHlo.ternary main_v50 main_v52 main_v26 main_v53 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    StableHlo.unary main_v53 main_v54 (broadcastInDim S52x1 ![0] bcast_S52_S52x1_0 : (⟨S52, .i32⟩ : BufTy).Contents (Elt F) → (⟨S52x1, .i32⟩ : BufTy).Contents (Elt F)),
    StableHlo.binary main_arg1 main_v54 main_v55 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    StableHlo.binary main_v48 main_v55 main_v56 (subf : (⟨S52x3, .f32⟩ : BufTy).Contents (Elt F) → (⟨S52x3, .f32⟩ : BufTy).Contents (Elt F) → (⟨S52x3, .f32⟩ : BufTy).Contents (Elt F)),
    StableHlo.TRef.binary (.of main_v56) (.of main_v56) main_call0.v0 mulf,
    StableHlo.TRef.nullary main_call0.cst (constant S_ .f32 0x00000000#32),
    StableHlo.TRef.binary main_call0.v0 main_call0.cst main_call0.v1 (fun x v => Host.reduceAdd x v reducesTo_S52x3_S52_d1 h_S_),
    StableHlo.TRef.unary main_call0.v1 main_call0.v2 Host.sqrt,
    StableHlo.unary main_v57 main_v58 (Host.negf : (⟨S52, .f32⟩ : BufTy).Contents (Elt F) → (⟨S52, .f32⟩ : BufTy).Contents (Elt F)),
    StableHlo.unary main_v58 main_v59 (Host.exp : (⟨S52, .f32⟩ : BufTy).Contents (Elt F) → (⟨S52, .f32⟩ : BufTy).Contents (Elt F)),
    StableHlo.reshape main_v59 main_v60 rfl shapeCasts_S52_S1x52,
    StableHlo.unary main_v60 main_v61 (broadcastInDim S20000x52 ![0, 1] bcast_S1x52_S20000x52_0_1 : (⟨S1x52, .f32⟩ : BufTy).Contents (Elt F) → (⟨S20000x52, .f32⟩ : BufTy).Contents (Elt F)),
    StableHlo.reshape main_v61 main_v62 rfl shapeCasts_S20000x52_S1040000 ]

/-- Operations 74 … 96: the rows gathered by index (the called row-gathering function's twenty-three operations in place, the select of the function it calls among them), ending at `main_v63`. -/
abbrev opsD : List (HloOp τ sig (Elt F)) :=
  [ StableHlo.TRef.nullary main_call1.c (constantI S_ 32 0#32),
    StableHlo.TRef.unary main_call1.c main_call1.v0 (broadcastInDim S1040000 ![] bcast_S_S1040000),
    StableHlo.TRef.binary (.of main_v36) main_call1.v0 main_call1.v1 (cmpi .slt),
    StableHlo.TRef.nullary main_call1.c_0 (constantI S_ 32 540000#32),
    StableHlo.TRef.unary main_call1.c_0 main_call1.v2 (broadcastInDim S1040000 ![] bcast_S_S1040000),
    StableHlo.TRef.binary (.of main_v36) main_call1.v2 main_call1.v3 addi,
    StableHlo.TRef.ternary main_call1.v1 main_call1.v3 (.of main_v36) main_call1.call0.v0 select,
    StableHlo.TRef.unary main_call1.call0.v0 main_call1.v5 (broadcastInDim S1040000x1 ![0] bcast_S1040000_S1040000x1_0),
    StableHlo.TRef.nullary main_call1.c_1 (constantI S1 32 539999#32),
    StableHlo.TRef.nullary main_call1.c_2 (constantI S_ 32 0#32),
    StableHlo.TRef.unary main_call1.c_2 main_call1.v6 (broadcastInDim S1040000x1 ![] bcast_S_S1040000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1040000x1 ![0, 1] bcast_S1x1_S1040000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1040000x1_S1040000_d1 h_S_),
    StableHlo.TRef.binary (.of main_v21) main_call1.v5 main_call1.v13 (fun x i => Host.gather gather_S540000x41_S1040000x1_S1040000x41_1_0_n_n_0_1_141 x i),
    StableHlo.TRef.unary main_call1.v12 main_call1.v14 (broadcastInDim S1040000x41 ![0] bcast_S1040000_S1040000x41_0),
    StableHlo.TRef.nullary main_call1.cst (constant S_ .f32 0x7FC00000#32),
    StableHlo.TRef.unary main_call1.cst main_call1.v15 (broadcastInDim S1040000x41 ![] bcast_S_S1040000x41),
    StableHlo.TRef.ternary main_call1.v14 main_call1.v13 main_call1.v15 main_call1.v16 select ]

/-- Operations 97 … 109: messages, their sum by destination row, the mean over each sample's nodes, ending at `main_v73`. -/
abbrev opsE : List (HloOp τ sig (Elt F)) :=
  [ StableHlo.unary main_v62 main_v64 (broadcastInDim S1040000x1 ![0] bcast_S1040000_S1040000x1_0 : (⟨S1040000, .f32⟩ : BufTy).Contents (Elt F) → (⟨S1040000x1, .f32⟩ : BufTy).Contents (Elt F)),
    StableHlo.unary main_v64 main_v65 (broadcastInDim S1040000x41 ![0, 1] bcast_S1040000x1_S1040000x41_0_1 : (⟨S1040000x1, .f32⟩ : BufTy).Contents (Elt F) → (⟨S1040000x41, .f32⟩ : BufTy).Contents (Elt F)),
    StableHlo.binary main_v63 main_v65 main_v66 (mulf : (⟨S1040000x41, .f32⟩ : BufTy).Contents (Elt F) → (⟨S1040000x41, .f32⟩ : BufTy).Contents (Elt F) → (⟨S1040000x41, .f32⟩ : BufTy).Contents (Elt F)),
    StableHlo.nullary main_cst (constant S_ .f32 0x00000000#32),
    StableHlo.unary main_cst main_v67 (broadcastInDim S540000x41 ![] bcast_S_S540000x41 : (⟨S_, .f32⟩ : BufTy).Contents (Elt F) → (⟨S540000x41, .f32⟩ : BufTy).Contents (Elt F)),
    StableHlo.unary main_v41 main_v68 (broadcastInDim S1040000x1 ![0] bcast_S1040000_S1040000x1_0 : (⟨S1040000, .i32⟩ : BufTy).Contents (Elt F) → (⟨S1040000x1, .i32⟩ : BufTy).Contents (Elt F)),
    StableHlo.ternary main_v67 main_v68 main_v66 main_v69 ((fun x i u => Host.scatterAdd scatter_S540000x41_S1040000x1_S1040000x41_1_0_0_1 x i u) : (⟨S540000x41, .f32⟩ : BufTy).Contents (Elt F) → (⟨S1040000x1, .i32⟩ : BufTy).Contents (Elt F) → (⟨S1040000x41, .f32⟩ : BufTy).Contents (Elt F) → (⟨S540000x41, .f32⟩ : BufTy).Contents (Elt F)),
    StableHlo.reshape main_v69 main_v70 rfl shapeCasts_S540000x41_S20000x27x41,
    StableHlo.nullary main_cst_6 (constant S_ .f32 0x00000000#32),
    StableHlo.binary main_v70 main_cst_6 main_v71 ((fun x v => Host.reduceAdd x v reducesTo_S20000x27x41_S20000x41_d1 h_S_) : (⟨S20000x27x41, .f32⟩ : BufTy).Contents (Elt F) → (⟨S_, .f32⟩ : BufTy).Contents (Elt F) → (⟨S20000x41, .f32⟩ : BufTy).Contents (Elt F)),
    StableHlo.nullary main_cst_7 (constant S_ .f32 0x41D80000#32),
    StableHlo.unary main_cst_7 main_v72 (broadcastInDim S20000x41 ![] bcast_S_S20000x41 : (⟨S_, .f32⟩ : BufTy).Contents (Elt F) → (⟨S20000x41, .f32⟩ : BufTy).Contents (Elt F)),
    StableHlo.binary main_v71 main_v72 main_v73 (Host.divf : (⟨S20000x41, .f32⟩ : BufTy).Contents (Elt F) → (⟨S20000x41, .f32⟩ : BufTy).Contents (Elt F) → (⟨S20000x41, .f32⟩ : BufTy).Contents (Elt F)) ]

/-- The main function's 109 operations, in order. -/
abbrev ops : List (HloOp τ sig (Elt F)) :=
  [ StableHlo.unary main_arg0 main_v0 ((extractStridedSlice S20000x459 ![0, 0] · slices_S20000x483_S20000x459_0_0) : (⟨S20000x483, .f32⟩ : BufTy).Contents (Elt F) → (⟨S20000x459, .f32⟩ : BufTy).Contents (Elt F)),
    StableHlo.unary main_arg0 main_v1 ((extractStridedSlice S20000x24 ![0, 459] · slices_S20000x483_S20000x24_0_459) : (⟨S20000x483, .f32⟩ : BufTy).Contents (Elt F) → (⟨S20000x24, .f32⟩ : BufTy).Contents (Elt F)),
    StableHlo.unary main_v1 main_v2 (broadcastInDim S20000x1x24 ![0, 2] bcast_S20000x24_S20000x1x24_0_2 : (⟨S20000x24, .f32⟩ : BufTy).Contents (Elt F) → (⟨S20000x1x24, .f32⟩ : BufTy).Contents (Elt F)),
    StableHlo.unary main_v2 main_v3 (broadcastInDim S20000x27x24 ![0, 1, 2] bcast_S20000x1x24_S20000x27x24_0_1_2 : (⟨S20000x1x24, .f32⟩ : BufTy).Contents (Elt F) → (⟨S20000x27x24, .f32⟩ : BufTy).Contents (Elt F)),
    StableHlo.reshape main_v0 main_v4 rfl shapeCasts_S20000x459_S20000x27x17,
    StableHlo.unary main_v4 main_v5 ((extractStridedSlice S20000x27x16 ![0, 0, 0] · slices_S20000x27x17_S20000x27x16_0_0_0) : (⟨S20000x27x17, .f32⟩ : BufTy).Contents (Elt F) → (⟨S20000x27x16, .f32⟩ : BufTy).Contents (Elt F)),
    StableHlo.unary main_v4 main_v6 ((extractStridedSlice S20000x27x1 ![0, 0, 16] · slices_S20000x27x17_S20000x27x1_0_0_16) : (⟨S20000x27x17, .f32⟩ : BufTy).Contents (Elt F) → (⟨S20000x27x1, .f32⟩ : BufTy).Contents (Elt F)),
    StableHlo.nary ![main_v5, main_v6, main_v3] main_v7 (fun u => concatenate S20000x27x41 2 [⟨S20000x27x16, u 0⟩, ⟨S20000x27x1, u 1⟩, ⟨S20000x27x24, u 2⟩] concatenates_S20000x27x16_S20000x27x1_S20000x27x24_S20000x27x41_d2),
    StableHlo.reshape main_v7 main_v8 rfl shapeCasts_S20000x27x41_S540000x41,
    StableHlo.unary main_v8 main_v9 ((extractStridedSlice S540000x4 ![0, 0] · slices_S540000x41_S540000x4_0_0) : (⟨S540000x41, .f32⟩ : BufTy).Contents (Elt F) → (⟨S540000x4, .f32⟩ : BufTy).Contents (Elt F)),
    StableHlo.reshape main_v9 main_v10 rfl shapeCasts_S540000x4_S540000x4x1,
    StableHlo.unary main_v8 main_v11 ((extractStridedSlice S540000x1 ![0, 16] · slices_S540000x41_S540000x1_0_16) : (⟨S540000x41, .f32⟩ : BufTy).Contents (Elt F) → (⟨S540000x1, .f32⟩ : BufTy).Contents (Elt F)),
    StableHlo.reshape main_v11 main_v12 rfl shapeCasts_S540000x1_S540000x1x1,
    StableHlo.binary main_v10 main_v12 main_v13 ((fun a b => concatenate S540000x5x1 1 [⟨S540000x4x1, a⟩, ⟨S540000x1x1, b⟩] concatenates_S540000x4x1_S540000x1x1_S540000x5x1_d1) : (⟨S540000x4x1, .f32⟩ : BufTy).Contents (Elt F) → (⟨S540000x1x1, .f32⟩ : BufTy).Contents (Elt F) → (⟨S540000x5x1, .f32⟩ : BufTy).Contents (Elt F)),
    StableHlo.unary main_v8 main_v14 ((extractStridedSlice S540000x12 ![0, 4] · slices_S540000x41_S540000x12_0_4) : (⟨S540000x41, .f32⟩ : BufTy).Contents (Elt F) → (⟨S540000x12, .f32⟩ : BufTy).Contents (Elt F)),
    StableHlo.reshape main_v14 main_v15 rfl shapeCasts_S540000x12_S540000x4x3,
    StableHlo.unary main_v8 main_v16 ((extractStridedSlice S540000x24 ![0, 17] · slices_S540000x41_S540000x24_0_17) : (⟨S540000x41, .f32⟩ : BufTy).Contents (Elt F) → (⟨S540000x24, .f32⟩ : BufTy).Contents (Elt F)),
    StableHlo.reshape main_v16 main_v17 rfl shapeCasts_S540000x24_S540000x8x3,
    StableHlo.binary main_v15 main_v17 main_v18 ((fun a b => concatenate S540000x12x3 1 [⟨S540000x4x3, a⟩, ⟨S540000x8x3, b⟩] concatenates_S540000x4x3_S540000x8x3_S540000x12x3_d1) : (⟨S540000x4x3, .f32⟩ : BufTy).Contents (Elt F) → (⟨S540000x8x3, .f32⟩ : BufTy).Contents (Elt F) → (⟨S540000x12x3, .f32⟩ : BufTy).Contents (Elt F)),
    StableHlo.reshape main_v13 main_v19 rfl shapeCasts_S540000x5x1_S540000x5,
    StableHlo.reshape main_v18 main_v20 rfl shapeCasts_S540000x12x3_S540000x36,
    StableHlo.binary main_v19 main_v20 main_v21 ((fun a b => concatenate S540000x41 1 [⟨S540000x5, a⟩, ⟨S540000x36, b⟩] concatenates_S540000x5_S540000x36_S540000x41_d1) : (⟨S540000x5, .f32⟩ : BufTy).Contents (Elt F) → (⟨S540000x36, .f32⟩ : BufTy).Contents (Elt F) → (⟨S540000x41, .f32⟩ : BufTy).Contents (Elt F)),
    StableHlo.nullary main_c (constantI S_ 32 0#32),
    StableHlo.unary main_c main_v22 (broadcastInDim S26 ![] bcast_S_S26 : (⟨S_, .i32⟩ : BufTy).Contents (Elt F) → (⟨S26, .i32⟩ : BufTy).Contents (Elt F)),
    StableHlo.nullary main_v23 (iotaInDim S26 32 0),
    StableHlo.nullary main_c_0 (constantI S_ 32 1#32),
    StableHlo.unary main_c_0 main_v24 (broadcastInDim S26 ![] bcast_S_S26 : (⟨S_, .i32⟩ : BufTy).Contents (Elt F) → (⟨S26, .i32⟩ : BufTy).Contents (Elt F)),
    StableHlo.binary main_v24 main_v23 main_v25 (addi : (⟨S26, .i32⟩ : BufTy).Contents (Elt F) → (⟨S26, .i32⟩ : BufTy).Contents (Elt F) → (⟨S26, .i32⟩ : BufTy).Contents (Elt F)),
    StableHlo.binary main_v22 main_v25 main_v26 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    StableHlo.binary main_v25 main_v22 main_v27 ((fun a b => concatenate S52 0 [⟨S26, a⟩, ⟨S26, b⟩] concatenates_S26_S26_S52_d0) : (⟨S26, .i32⟩ : BufTy).Contents (Elt F) → (⟨S26, .i32⟩ : BufTy).Contents (Elt F) → (⟨S52, .i32⟩ : BufTy).Contents (Elt F)),
    StableHlo.nullary main_v28 (iotaInDim S20000 32 0),
    StableHlo.unary main_v28 main_v29 (broadcastInDim S20000x1 ![0] bcast_S20000_S20000x1_0 : (⟨S20000, .i32⟩ : BufTy).Contents (Elt F) → (⟨S20000x1, .i32⟩ : BufTy).Contents (Elt F)),
    StableHlo.nullary main_c_1 (constantI S_ 32 27#32),
    StableHlo.unary main_c_1 main_v30 (broadcastInDim S20000x1 ![] bcast_S_S20000x1 : (⟨S_, .i32⟩ : BufTy).Contents (Elt F) → (⟨S20000x1, .i32⟩ : BufTy).Contents (Elt F)),
    StableHlo.binary main_v29 main_v30 main_v31 (muli : (⟨S20000x1, .i32⟩ : BufTy).Contents (Elt F) → (⟨S20000x1, .i32⟩ : BufTy).Contents (Elt F) → (⟨S20000x1, .i32⟩ : BufTy).Contents (Elt F)),
    StableHlo.unary main_v26 main_v32 (broadcastInDim S1x52 ![1] bcast_S52_S1x52_1 : (⟨S52, .i32⟩ : BufTy).Contents (Elt F) → (⟨S1x52, .i32⟩ : BufTy).Contents (Elt F)),
    StableHlo.unary main_v31 main_v33 (broadcastInDim S20000x52 ![0, 1] bcast_S20000x1_S20000x52_0_1 : (⟨S20000x1, .i32⟩ : BufTy).Contents (Elt F) → (⟨S20000x52, .i32⟩ : BufTy).Contents (Elt F)),
    StableHlo.unary main_v32 main_v34 (broadcastInDim S20000x52 ![0, 1] bcast_S1x52_S20000x52_0_1 : (⟨S1x52, .i32⟩ : BufTy).Contents (Elt F) → (⟨S20000x52, .i32⟩ : BufTy).Contents (Elt F)),
    StableHlo.binary main_v33 main_v34 main_v35 (addi : (⟨S20000x52, .i32⟩ : BufTy).Contents (Elt F) → (⟨S20000x52, .i32⟩ : BufTy).Contents (Elt F) → (⟨S20000x52, .i32⟩ : BufTy).Contents (Elt F)),
    StableHlo.reshape main_v35 main_v36 rfl shapeCasts_S20000x52_S1040000,
    StableHlo.unary main_v27 main_v37 (broadcastInDim S1x52 ![1] bcast_S52_S1x52_1 : (⟨S52, .i32⟩ : BufTy).Contents (Elt F) → (⟨S1x52, .i32⟩ : BufTy).Contents (Elt F)),
    StableHlo.unary main_v31 main_v38 (broadcastInDim S20000x52 ![0, 1] bcast_S20000x1_S20000x52_0_1 : (⟨S20000x1, .i32⟩ : BufTy).Contents (Elt F) → (⟨S20000x52, .i32⟩ : BufTy).Contents (Elt F)),
    StableHlo.unary main_v37 main_v39 (broadcastInDim S20000x52 ![0, 1] bcast_S1x52_S20000x52_0_1 : (⟨S1x52, .i32⟩ : BufTy).Contents (Elt F) → (⟨S20000x52, .i32⟩ : BufTy).Contents (Elt F)),
    StableHlo.binary main_v38 main_v39 main_v40 (addi : (⟨S20000x52, .i32⟩ : BufTy).Contents (Elt F) → (⟨S20000x52, .i32⟩ : BufTy).Contents (Elt F) → (⟨S20000x52, .i32⟩ : BufTy).Contents (Elt F)),
    StableHlo.reshape main_v40 main_v41 rfl shapeCasts_S20000x52_S1040000,
    StableHlo.nullary main_c_2 (constantI S_ 32 0#32),
    StableHlo.unary main_c_2 main_v42 (broadcastInDim S52 ![] bcast_S_S52 : (⟨S_, .i32⟩ : BufTy).Contents (Elt F) → (⟨S52, .i32⟩ : BufTy).Contents (Elt F)),
    StableHlo.binary main_v27 main_v42 main_v43 (cmpi .slt : (⟨S52, .i32⟩ : BufTy).Contents (Elt F) → (⟨S52, .i32⟩ : BufTy).Contents (Elt F) → (⟨S52, .i1⟩ : BufTy).Contents (Elt F)),
    StableHlo.nullary main_c_3 (constantI S_ 32 27#32),
    StableHlo.unary main_c_3 main_v44 (broadcastInDim S52 ![] bcast_S_S52 : (⟨S_, .i32⟩ : BufTy).Contents (Elt F) → (⟨S52, .i32⟩ : BufTy).Contents (Elt F)),
    StableHlo.binary main_v27 main_v44 main_v45 (addi : (⟨S52, .i32⟩ : BufTy).Contents (Elt F) → (⟨S52, .i32⟩ : BufTy).Contents (Elt F) → (⟨S52, .i32⟩ : BufTy).Contents (Elt F)),
    StableHlo.ternary main_v43 main_v45 main_v27 main_v46 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    StableHlo.unary main_v46 main_v47 (broadcastInDim S52x1 ![0] bcast_S52_S52x1_0 : (⟨S52, .i32⟩ : BufTy).Contents (Elt F) → (⟨S52x1, .i32⟩ : BufTy).Contents (Elt F)),
    StableHlo.binary main_arg1 main_v47 main_v48 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    StableHlo.nullary main_c_4 (constantI S_ 32 0#32),
    StableHlo.unary main_c_4 main_v49 (broadcastInDim S52 ![] bcast_S_S52 : (⟨S_, .i32⟩ : BufTy).Contents (Elt F) → (⟨S52, .i32⟩ : BufTy).Contents (Elt F)),
    StableHlo.binary main_v26 main_v49 main_v50 (cmpi .slt : (⟨S52, .i32⟩ : BufTy).Contents (Elt F) → (⟨S52, .i32⟩ : BufTy).Contents (Elt F) → (⟨S52, .i1⟩ : BufTy).Contents (Elt F)),
    StableHlo.nullary main_c_5 (constantI S_ 32 27#32),
    StableHlo.unary main_c_5 main_v51 (broadcastInDim S52 ![] bcast_S_S52 : (⟨S_, .i32⟩ : BufTy).Contents (Elt F) → (⟨S52, .i32⟩ : BufTy).Contents (Elt F)),
    StableHlo.binary main_v26 main_v51 main_v52 (addi : (⟨S52, .i32⟩ : BufTy).Contents (Elt F) → (⟨S52, .i32⟩ : BufTy).Contents (Elt F) → (⟨S52, .i32⟩ : BufTy).Contents (Elt F)),
    StableHlo.ternary main_v50 main_v52 main_v26 main_v53 (select : (⟨S52, .i1⟩ : BufTy).Contents (Elt F) → (⟨S52, .i32⟩ : BufTy).Contents (Elt F) → (⟨S52, .i32⟩ : BufTy).Contents (Elt F) → (⟨S52, .i32⟩ : BufTy).Contents (Elt F)),
    StableHlo.unary main_v53 main_v54 (broadcastInDim S52x1 ![0] bcast_S52_S52x1_0 : (⟨S52, .i32⟩ : BufTy).Contents (Elt F) → (⟨S52x1, .i32⟩ : BufTy).Contents (Elt F)),
    StableHlo.binary main_arg1 main_v54 main_v55 ((fun x i => Host.gather gather_S27x3_S52x1_S52x3_1_0_n_n_0_1_13 x i) : (⟨S27x3, .f32⟩ : BufTy).Contents (Elt F) → (⟨S52x1, .i32⟩ : BufTy).Contents (Elt F) → (⟨S52x3, .f32⟩ : BufTy).Contents (Elt F)),
    StableHlo.binary main_v48 main_v55 main_v56 (subf : (⟨S52x3, .f32⟩ : BufTy).Contents (Elt F) → (⟨S52x3, .f32⟩ : BufTy).Contents (Elt F) → (⟨S52x3, .f32⟩ : BufTy).Contents (Elt F)),
    StableHlo.TRef.binary (.of main_v56) (.of main_v56) main_call0.v0 mulf,
    StableHlo.TRef.nullary main_call0.cst (constant S_ .f32 0x00000000#32),
    StableHlo.TRef.binary main_call0.v0 main_call0.cst main_call0.v1 (fun x v => Host.reduceAdd x v reducesTo_S52x3_S52_d1 h_S_),
    StableHlo.TRef.unary main_call0.v1 main_call0.v2 Host.sqrt,
    StableHlo.unary main_v57 main_v58 (Host.negf : (⟨S52, .f32⟩ : BufTy).Contents (Elt F) → (⟨S52, .f32⟩ : BufTy).Contents (Elt F)),
    StableHlo.unary main_v58 main_v59 (Host.exp : (⟨S52, .f32⟩ : BufTy).Contents (Elt F) → (⟨S52, .f32⟩ : BufTy).Contents (Elt F)),
    StableHlo.reshape main_v59 main_v60 rfl shapeCasts_S52_S1x52,
    StableHlo.unary main_v60 main_v61 (broadcastInDim S20000x52 ![0, 1] bcast_S1x52_S20000x52_0_1 : (⟨S1x52, .f32⟩ : BufTy).Contents (Elt F) → (⟨S20000x52, .f32⟩ : BufTy).Contents (Elt F)),
    StableHlo.reshape main_v61 main_v62 rfl shapeCasts_S20000x52_S1040000,
    StableHlo.TRef.nullary main_call1.c (constantI S_ 32 0#32),
    StableHlo.TRef.unary main_call1.c main_call1.v0 (broadcastInDim S1040000 ![] bcast_S_S1040000),
    StableHlo.TRef.binary (.of main_v36) main_call1.v0 main_call1.v1 (cmpi .slt),
    StableHlo.TRef.nullary main_call1.c_0 (constantI S_ 32 540000#32),
    StableHlo.TRef.unary main_call1.c_0 main_call1.v2 (broadcastInDim S1040000 ![] bcast_S_S1040000),
    StableHlo.TRef.binary (.of main_v36) main_call1.v2 main_call1.v3 addi,
    StableHlo.TRef.ternary main_call1.v1 main_call1.v3 (.of main_v36) main_call1.call0.v0 select,
    StableHlo.TRef.unary main_call1.call0.v0 main_call1.v5 (broadcastInDim S1040000x1 ![0] bcast_S1040000_S1040000x1_0),
    StableHlo.TRef.nullary main_call1.c_1 (constantI S1 32 539999#32),
    StableHlo.TRef.nullary main_call1.c_2 (constantI S_ 32 0#32),
    StableHlo.TRef.unary main_call1.c_2 main_call1.v6 (broadcastInDim S1040000x1 ![] bcast_S_S1040000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1040000x1 ![0, 1] bcast_S1x1_S1040000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1040000x1_S1040000_d1 h_S_),
    StableHlo.TRef.binary (.of main_v21) main_call1.v5 main_call1.v13 (fun x i => Host.gather gather_S540000x41_S1040000x1_S1040000x41_1_0_n_n_0_1_141 x i),
    StableHlo.TRef.unary main_call1.v12 main_call1.v14 (broadcastInDim S1040000x41 ![0] bcast_S1040000_S1040000x41_0),
    StableHlo.TRef.nullary main_call1.cst (constant S_ .f32 0x7FC00000#32),
    StableHlo.TRef.unary main_call1.cst main_call1.v15 (broadcastInDim S1040000x41 ![] bcast_S_S1040000x41),
    StableHlo.TRef.ternary main_call1.v14 main_call1.v13 main_call1.v15 main_call1.v16 select,
    StableHlo.unary main_v62 main_v64 (broadcastInDim S1040000x1 ![0] bcast_S1040000_S1040000x1_0 : (⟨S1040000, .f32⟩ : BufTy).Contents (Elt F) → (⟨S1040000x1, .f32⟩ : BufTy).Contents (Elt F)),
    StableHlo.unary main_v64 main_v65 (broadcastInDim S1040000x41 ![0, 1] bcast_S1040000x1_S1040000x41_0_1 : (⟨S1040000x1, .f32⟩ : BufTy).Contents (Elt F) → (⟨S1040000x41, .f32⟩ : BufTy).Contents (Elt F)),
    StableHlo.binary main_v63 main_v65 main_v66 (mulf : (⟨S1040000x41, .f32⟩ : BufTy).Contents (Elt F) → (⟨S1040000x41, .f32⟩ : BufTy).Contents (Elt F) → (⟨S1040000x41, .f32⟩ : BufTy).Contents (Elt F)),
    StableHlo.nullary main_cst (constant S_ .f32 0x00000000#32),
    StableHlo.unary main_cst main_v67 (broadcastInDim S540000x41 ![] bcast_S_S540000x41 : (⟨S_, .f32⟩ : BufTy).Contents (Elt F) → (⟨S540000x41, .f32⟩ : BufTy).Contents (Elt F)),
    StableHlo.unary main_v41 main_v68 (broadcastInDim S1040000x1 ![0] bcast_S1040000_S1040000x1_0 : (⟨S1040000, .i32⟩ : BufTy).Contents (Elt F) → (⟨S1040000x1, .i32⟩ : BufTy).Contents (Elt F)),
    StableHlo.ternary main_v67 main_v68 main_v66 main_v69 ((fun x i u => Host.scatterAdd scatter_S540000x41_S1040000x1_S1040000x41_1_0_0_1 x i u) : (⟨S540000x41, .f32⟩ : BufTy).Contents (Elt F) → (⟨S1040000x1, .i32⟩ : BufTy).Contents (Elt F) → (⟨S1040000x41, .f32⟩ : BufTy).Contents (Elt F) → (⟨S540000x41, .f32⟩ : BufTy).Contents (Elt F)),
    StableHlo.reshape main_v69 main_v70 rfl shapeCasts_S540000x41_S20000x27x41,
    StableHlo.nullary main_cst_6 (constant S_ .f32 0x00000000#32),
    StableHlo.binary main_v70 main_cst_6 main_v71 ((fun x v => Host.reduceAdd x v reducesTo_S20000x27x41_S20000x41_d1 h_S_) : (⟨S20000x27x41, .f32⟩ : BufTy).Contents (Elt F) → (⟨S_, .f32⟩ : BufTy).Contents (Elt F) → (⟨S20000x41, .f32⟩ : BufTy).Contents (Elt F)),
    StableHlo.nullary main_cst_7 (constant S_ .f32 0x41D80000#32),
    StableHlo.unary main_cst_7 main_v72 (broadcastInDim S20000x41 ![] bcast_S_S20000x41 : (⟨S_, .f32⟩ : BufTy).Contents (Elt F) → (⟨S20000x41, .f32⟩ : BufTy).Contents (Elt F)),
    StableHlo.binary main_v71 main_v72 main_v73 (Host.divf : (⟨S20000x41, .f32⟩ : BufTy).Contents (Elt F) → (⟨S20000x41, .f32⟩ : BufTy).Contents (Elt F) → (⟨S20000x41, .f32⟩ : BufTy).Contents (Elt F)) ]

/-- The list is its five pieces in order. -/
theorem ops_split : (ops : List (HloOp τ sig (Elt F))) = opsA ++ (opsB ++ (opsC ++ (opsD ++ opsE))) := rfl

set_option maxRecDepth 8192 in
set_option maxHeartbeats 4000000 in
/-- The main function is that straight line: the two windows in turn, the called functions' bodies unfolded at their
    calls, sequencing reassociated. -/
theorem main_eq (c : Dev nD) : main (F := F) c = seq ops := by
  simp only [main, main_part0, main_part1, fn_norm.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., unary_bufs_sub .., unary_bufs_sub .., reshape_bufs_sub .., unary_bufs_sub .., unary_bufs_sub .., nary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., reshape_bufs_sub .., reshape_bufs_sub .., binary_bufs_sub .., nullary_bufs_sub .., unary_bufs_sub .., nullary_bufs_sub .., nullary_bufs_sub .., unary_bufs_sub .., binary_bufs_sub .., binary_bufs_sub .., binary_bufs_sub .., nullary_bufs_sub .., unary_bufs_sub .., nullary_bufs_sub .., unary_bufs_sub .., binary_bufs_sub .., unary_bufs_sub .., unary_bufs_sub .., unary_bufs_sub .., binary_bufs_sub .., reshape_bufs_sub .., unary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., reshape_bufs_sub .., nullary_bufs_sub .., binary_bufs_sub .., nullary_bufs_sub .., unary_bufs_sub .., binary_bufs_sub ..⟩

set_option maxRecDepth 8192 in
set_option maxHeartbeats 4000000 in
/-- From any memory with zero counters every weakly fair execution of the main function terminates, and every buffer
    ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefRun.lean ====
/-
  The reference program's run.  Its main function is a straight line of 109 host operations (the list `ops`), so every
  buffer ends at the fold of the operations' results over the launch contents.  The fold is read in five pieces, each from
  an arbitrary starting valuation `W`:

  * the first 22 operations leave the node features `nodeFeat` of the first argument at `main_v21`;
  * the next 23 leave the edge tables `srcLocal`, `dstLocal` at `main_v26`, `main_v27` and the flat row indices
    `srcIdx`, `dstIdx` at `main_v36`, `main_v41`, whatever `W` is;
  * the next 28 leave the per-edge weights repeated per sample, `wFull` of the second argument, at `main_v62`,
    provided `main_v26`, `main_v27` hold the edge tables;
  * the next 23 leave the gathered rows `takeF` of `main_v21` at the indices `main_v36` at `main_v63`;
  * the last 13 leave at `main_v73` the mean over each sample's nodes of the messages `main_v63 · main_v62` summed into
    the destination rows `main_v41`.

  Each piece leaves the buffers it does not write as they were, so the five readings chain to `refVal` of the two
  arguments.  An operation of a called function carries its value to its buffer's own type and back along the
  reference's type equation; the two carryings cancel (`ofBuf_toBuf`).
-/
import proofs.«140815_g12034498363475_cont_main3_758_5_alg».proof.Proof.RefRunAux1
import proofs.«140815_g12034498363475_cont_main3_758_5_alg».proof.Proof.LibRunPieces
import proofs.«140815_g12034498363475_cont_main3_758_5_alg».proof.Proof.Gen.ReferenceIdeal
import Idealize.ShloMosaic.PureOps.Ideal

noncomputable section

namespace Cert.RefRun

open Idealize.ShloMosaic Idealize.ShloMosaic.TcCoe Idealize.SL.Sem Idealize.ShloMosaic.StableHlo

section Nary3
variable {τ₀ : Topo} {sig₀ : RefSig} {Val : EltTy → Type} {x a b y : Ref sig₀ .tc}

/-- An operation over a literal family of three operands: its result with each operand's contents at its own
    reference, so that the operands' contents can be read in turn. -/
theorem nary3_result'
    (f : ((k : Fin 3) → ((![x, a, b] : Fin 3 → Ref sig₀ .tc) k).ty.Contents Val) → y.ty.Contents Val) (hxs hy)
    (G : Valuation τ₀ sig₀ Val) :
    (nary (τ := τ₀) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl
end Nary3

/-- Reads a fold of a literal list of operations at a literal reference in one pass: each operation's result at its own
    buffer is its function's value, at any other reference what was there. -/
macro "results_simp" : tactic =>
  `(tactic| (simp (disch := decide) only [after_cons, after_nil, nary3_result',
      nullary_result', unary_result', binary_result', ternary_result', quaternary_result', reshape_result', nary4_result', nary_result',
      nullary_result_ne', unary_result_ne', binary_result_ne', ternary_result_ne', quaternary_result_ne', reshape_result_ne',
      nary_result_ne']))

open Cert.ReferenceIdeal Cert.ReferenceIdeal.Facts₀ Cert.RefStages Cert.Lib.RunPieces

variable [Cert.ReferenceIdeal.Facts] {F : FTy → Type} [FloatOps F]

/-- The last piece's result as a function of the gathered rows, the repeated weights and the destination rows. -/
def refE (t : FVec F S1040000x41 .f32) (w : FVec F S1040000 .f32) (d : IVec S1040000 32) : FVec F S20000x41 .f32 :=
  Host.divf
    (Host.reduceAdd
      (shapeCast S20000x27x41
        (Host.scatterAdd scatter_S540000x41_S1040000x1_S1040000x41_1_0_0_1
          (broadcastInDim S540000x41 ![] bcast_S_S540000x41 (constant S_ .f32 0x00000000#32))
          (broadcastInDim S1040000x1 ![0] bcast_S1040000_S1040000x1_0 d)
          (mulf t
            (broadcastInDim S1040000x41 ![0, 1] bcast_S1040000x1_S1040000x41_0_1
              (broadcastInDim S1040000x1 ![0] bcast_S1040000_S1040000x1_0 w))))
        shapeCasts_S540000x41_S20000x27x41)
      (constant S_ .f32 0x00000000#32) reducesTo_S20000x27x41_S20000x41_d1 h_S_)
    (broadcastInDim S20000x41 ![] bcast_S_S20000x41 (constant S_ .f32 0x41D80000#32))

/-- The reference's result is the last piece applied to the earlier pieces' results. -/
theorem refVal_eq (X : FVec F S20000x483 .f32) (D : FVec F S27x3 .f32) :
    refVal X D = refE (takeF (nodeFeat X) srcIdx) (wFull D) dstIdx := rfl

attribute [local irreducible] Host.gather Host.scatterAdd Host.reduce Host.reduceAdd

/-! ## The five pieces -/

/-! A concatenation takes its operands in a list of pairs (shape, array) whose shapes its last argument's type
    mentions, so an operand cannot be rewritten where it stands.  Applied by name the operands are plain arguments;
    the first piece nests four concatenations over long chains, so it is read with them named, and the names unfold
    at the end. -/

/-- The concatenation that writes `main_v13`, as a function of its operands. -/
def cat_v13 : (⟨S540000x4x1, .f32⟩ : BufTy).Contents (Elt F) → (⟨S540000x1x1, .f32⟩ : BufTy).Contents (Elt F) → (⟨S540000x5x1, .f32⟩ : BufTy).Contents (Elt F) :=
  fun a b => concatenate S540000x5x1 1 [⟨S540000x4x1, a⟩, ⟨S540000x1x1, b⟩] concatenates_S540000x4x1_S540000x1x1_S540000x5x1_d1

/-- The concatenation that writes `main_v18`, as a function of its operands. -/
def cat_v18 : (⟨S540000x4x3, .f32⟩ : BufTy).Contents (Elt F) → (⟨S540000x8x3, .f32⟩ : BufTy).Contents (Elt F) → (⟨S540000x12x3, .f32⟩ : BufTy).Contents (Elt F) :=
  fun a b => concatenate S540000x12x3 1 [⟨S540000x4x3, a⟩, ⟨S540000x8x3, b⟩] concatenates_S540000x4x3_S540000x8x3_S540000x12x3_d1

/-- The concatenation that writes `main_v21`, as a function of its operands. -/
def cat_v21 : (⟨S540000x5, .f32⟩ : BufTy).Contents (Elt F) → (⟨S540000x36, .f32⟩ : BufTy).Contents (Elt F) → (⟨S540000x41, .f32⟩ : BufTy).Contents (Elt F) :=
  fun a b => concatenate S540000x41 1 [⟨S540000x5, a⟩, ⟨S540000x36, b⟩] concatenates_S540000x5_S540000x36_S540000x41_d1

/-- The concatenation that writes `main_v7`, as a function of its operands. -/
def cat_v7 : ((k : Fin 3) → ((![main_v5, main_v6, main_v3] : Fin 3 → Ref sig .tc) k).ty.Contents (Elt F)) → (⟨S20000x27x41, .f32⟩ : BufTy).Contents (Elt F) :=
  fun u => concatenate S20000x27x41 2 [⟨S20000x27x16, u 0⟩, ⟨S20000x27x1, u 1⟩, ⟨S20000x27x24, u 2⟩] concatenates_S20000x27x16_S20000x27x1_S20000x27x24_S20000x27x41_d2

/-- The first piece with its four concatenations applied by name: their operands are then plain arguments, which can be
    read in place. -/
abbrev opsA' : List (HloOp τ sig (Elt F)) :=
  [ StableHlo.unary main_arg0 main_v0 ((extractStridedSlice S20000x459 ![0, 0] · slices_S20000x483_S20000x459_0_0) : (⟨S20000x483, .f32⟩ : BufTy).Contents (Elt F) → (⟨S20000x459, .f32⟩ : BufTy).Contents (Elt F)),
    StableHlo.unary main_arg0 main_v1 ((extractStridedSlice S20000x24 ![0, 459] · slices_S20000x483_S20000x24_0_459) : (⟨S20000x483, .f32⟩ : BufTy).Contents (Elt F) → (⟨S20000x24, .f32⟩ : BufTy).Contents (Elt F)),
    StableHlo.unary main_v1 main_v2 (broadcastInDim S20000x1x24 ![0, 2] bcast_S20000x24_S20000x1x24_0_2 : (⟨S20000x24, .f32⟩ : BufTy).Contents (Elt F) → (⟨S20000x1x24, .f32⟩ : BufTy).Contents (Elt F)),
    StableHlo.unary main_v2 main_v3 (broadcastInDim S20000x27x24 ![0, 1, 2] bcast_S20000x1x24_S20000x27x24_0_1_2 : (⟨S20000x1x24, .f32⟩ : BufTy).Contents (Elt F) → (⟨S20000x27x24, .f32⟩ : BufTy).Contents (Elt F)),
    StableHlo.reshape main_v0 main_v4 rfl shapeCasts_S20000x459_S20000x27x17,
    StableHlo.unary main_v4 main_v5 ((extractStridedSlice S20000x27x16 ![0, 0, 0] · slices_S20000x27x17_S20000x27x16_0_0_0) : (⟨S20000x27x17, .f32⟩ : BufTy).Contents (Elt F) → (⟨S20000x27x16, .f32⟩ : BufTy).Contents (Elt F)),
    StableHlo.unary main_v4 main_v6 ((extractStridedSlice S20000x27x1 ![0, 0, 16] · slices_S20000x27x17_S20000x27x1_0_0_16) : (⟨S20000x27x17, .f32⟩ : BufTy).Contents (Elt F) → (⟨S20000x27x1, .f32⟩ : BufTy).Contents (Elt F)),
    StableHlo.nary ![main_v5, main_v6, main_v3] main_v7 cat_v7,
    StableHlo.reshape main_v7 main_v8 rfl shapeCasts_S20000x27x41_S540000x41,
    StableHlo.unary main_v8 main_v9 ((extractStridedSlice S540000x4 ![0, 0] · slices_S540000x41_S540000x4_0_0) : (⟨S540000x41, .f32⟩ : BufTy).Contents (Elt F) → (⟨S540000x4, .f32⟩ : BufTy).Contents (Elt F)),
    StableHlo.reshape main_v9 main_v10 rfl shapeCasts_S540000x4_S540000x4x1,
    StableHlo.unary main_v8 main_v11 ((extractStridedSlice S540000x1 ![0, 16] · slices_S540000x41_S540000x1_0_16) : (⟨S540000x41, .f32⟩ : BufTy).Contents (Elt F) → (⟨S540000x1, .f32⟩ : BufTy).Contents (Elt F)),
    StableHlo.reshape main_v11 main_v12 rfl shapeCasts_S540000x1_S540000x1x1,
    StableHlo.binary main_v10 main_v12 main_v13 cat_v13,
    StableHlo.unary main_v8 main_v14 ((extractStridedSlice S540000x12 ![0, 4] · slices_S540000x41_S540000x12_0_4) : (⟨S540000x41, .f32⟩ : BufTy).Contents (Elt F) → (⟨S540000x12, .f32⟩ : BufTy).Contents (Elt F)),
    StableHlo.reshape main_v14 main_v15 rfl shapeCasts_S540000x12_S540000x4x3,
    StableHlo.unary main_v8 main_v16 ((extractStridedSlice S540000x24 ![0, 17] · slices_S540000x41_S540000x24_0_17) : (⟨S540000x41, .f32⟩ : BufTy).Contents (Elt F) → (⟨S540000x24, .f32⟩ : BufTy).Contents (Elt F)),
    StableHlo.reshape main_v16 main_v17 rfl shapeCasts_S540000x24_S540000x8x3,
    StableHlo.binary main_v15 main_v17 main_v18 cat_v18,
    StableHlo.reshape main_v13 main_v19 rfl shapeCasts_S540000x5x1_S540000x5,
    StableHlo.reshape main_v18 main_v20 rfl shapeCasts_S540000x12x3_S540000x36,
    StableHlo.binary main_v19 main_v20 main_v21 cat_v21 ]

theorem opsA_eq : (opsA : List (HloOp τ sig (Elt F))) = opsA' := rfl

set_option maxRecDepth 8192 in
theorem A_v21 (W : Valuation τ sig (Elt F)) :
    after opsA W (Proc.devRef .tc main_v21) = nodeFeat (W (Proc.devRef .tc main_arg0)) := by
  rw [opsA_eq]
  results_simp
  unfold cat_v21 cat_v18 cat_v13 cat_v7
  rfl

theorem A_arg1 (W : Valuation τ sig (Elt F)) :
    after opsA W (Proc.devRef .tc main_arg1) = W (Proc.devRef .tc main_arg1) := by
  results_simp

set_option maxRecDepth 8192 in
theorem B_v26 (W : Valuation τ sig (Elt F)) : after opsB W (Proc.devRef .tc main_v26) = (srcLocal : IVec S52 32) := by
  results_simp
  rfl

set_option maxRecDepth 8192 in
theorem B_v27 (W : Valuation τ sig (Elt F)) : after opsB W (Proc.devRef .tc main_v27) = (dstLocal : IVec S52 32) := by
  results_simp
  rfl

set_option maxRecDepth 8192 in
theorem B_v36 (W : Valuation τ sig (Elt F)) : after opsB W (Proc.devRef .tc main_v36) = (srcIdx : IVec S1040000 32) := by
  results_simp
  rfl

set_option maxRecDepth 8192 in
theorem B_v41 (W : Valuation τ sig (Elt F)) : after opsB W (Proc.devRef .tc main_v41) = (dstIdx : IVec S1040000 32) := by
  results_simp
  rfl

theorem B_v21 (W : Valuation τ sig (Elt F)) :
    after opsB W (Proc.devRef .tc main_v21) = W (Proc.devRef .tc main_v21) := by
  results_simp

theorem B_arg1 (W : Valuation τ sig (Elt F)) :
    after opsB W (Proc.devRef .tc main_arg1) = W (Proc.devRef .tc main_arg1) := by
  results_simp

set_option maxRecDepth 8192 in
theorem C_v62 (W : Valuation τ sig (Elt F)) (h26 : W (Proc.devRef .tc main_v26) = (srcLocal : IVec S52 32))
    (h27 : W (Proc.devRef .tc main_v27) = (dstLocal : IVec S52 32)) :
    after opsC W (Proc.devRef .tc main_v62) = wFull (W (Proc.devRef .tc main_arg1)) := by
  results_simp
  simp only [ofBuf_toBuf, h26, h27]
  rfl

theorem C_v21 (W : Valuation τ sig (Elt F)) :
    after opsC W (Proc.devRef .tc main_v21) = W (Proc.devRef .tc main_v21) := by
  results_simp

theorem C_v36 (W : Valuation τ sig (Elt F)) :
    after opsC W (Proc.devRef .tc main_v36) = W (Proc.devRef .tc main_v36) := by
  results_simp

theorem C_v41 (W : Valuation τ sig (Elt F)) :
    after opsC W (Proc.devRef .tc main_v41) = W (Proc.devRef .tc main_v41) := by
  results_simp

set_option maxRecDepth 8192 in
theorem D_v63 (W : Valuation τ sig (Elt F)) :
    after opsD W (Proc.devRef .tc main_v63) = takeF (W (Proc.devRef .tc main_v21)) (W (Proc.devRef .tc main_v36)) := by
  results_simp
  simp only [ofBuf_toBuf]
  rfl

theorem D_v62 (W : Valuation τ sig (Elt F)) :
    after opsD W (Proc.devRef .tc main_v62) = W (Proc.devRef .tc main_v62) := by
  results_simp

theorem D_v41 (W : Valuation τ sig (Elt F)) :
    after opsD W (Proc.devRef .tc main_v41) = W (Proc.devRef .tc main_v41) := by
  results_simp

set_option maxRecDepth 8192 in
theorem E_v73 (W : Valuation τ sig (Elt F)) :
    after opsE W (Proc.devRef .tc main_v73)
      = refE (W (Proc.devRef .tc main_v63)) (W (Proc.devRef .tc main_v62)) (W (Proc.devRef .tc main_v41)) := by
  results_simp
  rfl

/-! ## The chain -/

/-- The fold of all 109 operations at the result buffer is the reference's value of the two arguments. -/
theorem out_eq (V : Valuation τ sig (Elt F)) :
    after ops V (Proc.devRef .tc main_v73) = refVal (V (Proc.devRef .tc main_arg0)) (V (Proc.devRef .tc main_arg1)) := by
  rw [ops_split]
  simp only [after_append]
  rw [E_v73, D_v63, D_v62, D_v41, C_v21, C_v36, C_v41, C_v62 _ (B_v26 _) (B_v27 _), B_v36, B_v41, B_v21, B_arg1,
    A_v21, A_arg1, refVal_eq]

set_option maxRecDepth 8192 in
set_option maxHeartbeats 4000000 in
theorem arg0_eq (V : Valuation τ sig (Elt F)) : after ops V (Proc.devRef .tc main_arg0) = V (Proc.devRef .tc main_arg0) := by
  results_simp

set_option maxRecDepth 8192 in
set_option maxHeartbeats 4000000 in
theorem arg1_eq (V : Valuation τ sig (Elt F)) : after ops V (Proc.devRef .tc main_arg1) = V (Proc.devRef .tc main_arg1) := by
  results_simp

/-! ## The run -/

/-- For any float values, from any memory with zero counters: every weakly fair execution of the main function
    terminates with the result buffer at the reference's value of the two arguments' launch contents, the arguments
    unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v73)
          = refVal (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v73).trans (out_eq (launchContents m c)),
      (h c main_arg0).trans (arg0_eq (launchContents m c)),
      (h c main_arg1).trans (arg1_eq (launchContents m c))⟩)
    (run_main m ρ)

/-- The run at the exact reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v73)
          = refVal (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_gen m ρ

end Cert.RefRun

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.RefNodeFeat.lean ====
/-
  The node features read at an index.

  A sample's state row X(i, ·) holds 17 channels for each of 27 nodes (node v's channel c at column 17 · v + c) and then
  24 direction channels shared by all nodes (columns 459 …). The node features lay these out as one row per
  (sample, node) pair, row 27 · i + v, with 41 channels: the node's own 17 followed by the shared 24, so that channel c
  of that row is X(i, col v c). The 41 channels are then regrouped: columns 0 … 3, then 16, then 4 … 15, then 17 … 40,
  so that output column j holds channel perm j. Every operation involved only moves entries; each is read here at
  an index, one operation at a time, and the reads are then composed.
-/
import proofs.«140815_g12034498363475_cont_main3_758_5_alg».proof.Proof.Spec
import proofs.«140815_g12034498363475_cont_main3_758_5_alg».proof.Proof.RefStages
import proofs.«140815_g12034498363475_cont_main3_758_5_alg».proof.Proof.LibGroupedLanes
import proofs.«140815_g12034498363475_cont_main3_758_5_alg».proof.Proof.LibLayout
import Idealize.ShloMosaic.Lib.ValueIdx
import Idealize.ShloMosaic.Lib.Pipeline.Value
import Idealize.ShloMosaic.Lib.ValueLayout

noncomputable section

namespace Cert.RefNodeFeat

open Idealize.ShloMosaic Idealize.ShloMosaic.ValueIdx Cert.Spec Cert.ReferenceIdeal Cert.ReferenceIdeal.Facts₀ Cert.RefStages

/-! ## Layout operations read at an index, for any extents -/

section Generic
variable {α : Type}

/-- A rank-3 array cut along its last axis from `o` reads, at (p, g, j), the source at (p, g, k) with k = o + j. -/
theorem slice3_last_apply {n0 n1 n2 m : ℕ} (o : ℕ) (x : (⟨3, ![n0, n1, n2]⟩ : Shape).Idx → α)
    (h : (⟨3, ![n0, n1, n2]⟩ : Shape).Slices ![0, 0, o] ⟨3, ![n0, n1, m]⟩)
    (p : Fin n0) (g : Fin n1) (j : Fin m) (k : Fin n2) (hk : k.val = o + j.val) :
    extractStridedSlice ⟨3, ![n0, n1, m]⟩ ![0, 0, o] x h (ix3 p g j) = x (ix3 p g k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A matrix [a, c] given a unit middle axis [a, 1, c] (axes 0 and 2 kept): the entries are the same. -/
theorem spreadMid_unit_apply {a c : ℕ} (x : (⟨2, ![a, c]⟩ : Shape).Idx → α)
    (h : (⟨2, ![a, c]⟩ : Shape).BroadcastsInDim ⟨3, ![a, 1, c]⟩ ![0, 2]) (p : Fin a) (u : Fin 1) (d : Fin c) :
    broadcastInDim ⟨3, ![a, 1, c]⟩ ![0, 2] h x (ix3 p u d) = x (ix2 p d) := by
  refine broadcastInDim_apply _ h x (ix3 p u d) (ix2 p d) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl

/-- [a, 1, c] repeated along its middle axis to [a, b, c]: row g of member p is the member's one row. -/
theorem spreadMid_apply {a b c : ℕ} (x : (⟨3, ![a, 1, c]⟩ : Shape).Idx → α)
    (h : (⟨3, ![a, 1, c]⟩ : Shape).BroadcastsInDim ⟨3, ![a, b, c]⟩ ![0, 1, 2]) (p : Fin a) (g : Fin b) (d : Fin c) :
    broadcastInDim ⟨3, ![a, b, c]⟩ ![0, 1, 2] h x (ix3 p g d) = x (ix3 p (0 : Fin 1) d) := by
  refine broadcastInDim_apply _ h x (ix3 p g d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- Two matrices joined along their columns, read in the left one. -/
theorem joinCols_left {a n1 n2 n : ℕ} (x1 : (⟨2, ![a, n1]⟩ : Shape).Idx → α) (x2 : (⟨2, ![a, n2]⟩ : Shape).Idx → α)
    (h : Shape.Concatenates [⟨2, ![a, n1]⟩, ⟨2, ![a, n2]⟩] ⟨2, ![a, n]⟩ 1) (p : Fin a) (q : Fin n) (q1 : Fin n1)
    (hq : q1.val = q.val) :
    concatenate ⟨2, ![a, n]⟩ 1 [⟨⟨2, ![a, n1]⟩, x1⟩, ⟨⟨2, ![a, n2]⟩, x2⟩] h (ix2 p q) = x1 (ix2 p q1) :=
  concatenate_pair_apply_left 1 x1 x2 h (ix2 p q) rfl (ix2 p q1) (fun b => by
    match b with
    | ⟨0, _⟩ => rfl
    | ⟨1, _⟩ => exact hq)

/-- Two matrices joined along their columns, read in the right one: column q of the result is column q − n1 of it. -/
theorem joinCols_right {a n1 n2 n : ℕ} (x1 : (⟨2, ![a, n1]⟩ : Shape).Idx → α) (x2 : (⟨2, ![a, n2]⟩ : Shape).Idx → α)
    (h : Shape.Concatenates [⟨2, ![a, n1]⟩, ⟨2, ![a, n2]⟩] ⟨2, ![a, n]⟩ 1) (p : Fin a) (q : Fin n) (q2 : Fin n2)
    (hq : q2.val + n1 = q.val) :
    concatenate ⟨2, ![a, n]⟩ 1 [⟨⟨2, ![a, n1]⟩, x1⟩, ⟨⟨2, ![a, n2]⟩, x2⟩] h (ix2 p q) = x2 (ix2 p q2) :=
  concatenate_pair_apply_right 1 x1 x2 h (ix2 p q) rfl rfl (ix2 p q2) (fun b hb => by
    match b, hb with
    | ⟨0, _⟩, _ => rfl
    | ⟨1, _⟩, hb => exact absurd rfl hb) hq

/-- Two rank-3 arrays joined along the middle axis, read in the first one. -/
theorem joinMid_left {a n1 n2 n c : ℕ} (x1 : (⟨3, ![a, n1, c]⟩ : Shape).Idx → α) (x2 : (⟨3, ![a, n2, c]⟩ : Shape).Idx → α)
    (h : Shape.Concatenates [⟨3, ![a, n1, c]⟩, ⟨3, ![a, n2, c]⟩] ⟨3, ![a, n, c]⟩ 1) (p : Fin a) (g : Fin n) (d : Fin c)
    (g1 : Fin n1) (hg : g1.val = g.val) :
    concatenate ⟨3, ![a, n, c]⟩ 1 [⟨⟨3, ![a, n1, c]⟩, x1⟩, ⟨⟨3, ![a, n2, c]⟩, x2⟩] h (ix3 p g d) = x1 (ix3 p g1 d) :=
  concatenate_pair_apply_left 1 x1 x2 h (ix3 p g d) rfl (ix3 p g1 d) (fun b => by
    match b with
    | ⟨0, _⟩ => rfl
    | ⟨1, _⟩ => exact hg
    | ⟨2, _⟩ => rfl)

/-- Two rank-3 arrays joined along the middle axis, read in the second one: group g of the result is its group g − n1. -/
theorem joinMid_right {a n1 n2 n c : ℕ} (x1 : (⟨3, ![a, n1, c]⟩ : Shape).Idx → α) (x2 : (⟨3, ![a, n2, c]⟩ : Shape).Idx → α)
    (h : Shape.Concatenates [⟨3, ![a, n1, c]⟩, ⟨3, ![a, n2, c]⟩] ⟨3, ![a, n, c]⟩ 1) (p : Fin a) (g : Fin n) (d : Fin c)
    (g2 : Fin n2) (hg : g2.val + n1 = g.val) :
    concatenate ⟨3, ![a, n, c]⟩ 1 [⟨⟨3, ![a, n1, c]⟩, x1⟩, ⟨⟨3, ![a, n2, c]⟩, x2⟩] h (ix3 p g d) = x2 (ix3 p g2 d) :=
  concatenate_pair_apply_right 1 x1 x2 h (ix3 p g d) rfl rfl (ix3 p g2 d) (fun b hb => by
    match b, hb with
    | ⟨0, _⟩, _ => rfl
    | ⟨1, _⟩, hb => exact absurd rfl hb
    | ⟨2, _⟩, _ => rfl) hg

/-- Three rank-3 arrays joined along the last axis, read in piece number `k` (0, 1 or 2), whose lanes start at lane
    `pre` of the result: lane q of the result is that piece's lane q − pre. -/
theorem joinLast3_apply {a b n1 n2 n3 n : ℕ} (x1 : (⟨3, ![a, b, n1]⟩ : Shape).Idx → α)
    (x2 : (⟨3, ![a, b, n2]⟩ : Shape).Idx → α) (x3 : (⟨3, ![a, b, n3]⟩ : Shape).Idx → α)
    (h : Shape.Concatenates [⟨3, ![a, b, n1]⟩, ⟨3, ![a, b, n2]⟩, ⟨3, ![a, b, n3]⟩] ⟨3, ![a, b, n]⟩ 2)
    (p : Fin a) (g : Fin b) (q : Fin n) :
    (∀ q1 : Fin n1, q1.val = q.val →
      concatenate ⟨3, ![a, b, n]⟩ 2 [⟨⟨3, ![a, b, n1]⟩, x1⟩, ⟨⟨3, ![a, b, n2]⟩, x2⟩, ⟨⟨3, ![a, b, n3]⟩, x3⟩] h (ix3 p g q)
        = x1 (ix3 p g q1)) ∧
    (∀ q2 : Fin n2, n1 + q2.val = q.val →
      concatenate ⟨3, ![a, b, n]⟩ 2 [⟨⟨3, ![a, b, n1]⟩, x1⟩, ⟨⟨3, ![a, b, n2]⟩, x2⟩, ⟨⟨3, ![a, b, n3]⟩, x3⟩] h (ix3 p g q)
        = x2 (ix3 p g q2)) ∧
    (∀ q3 : Fin n3, n1 + n2 + q3.val = q.val →
      concatenate ⟨3, ![a, b, n]⟩ 2 [⟨⟨3, ![a, b, n1]⟩, x1⟩, ⟨⟨3, ![a, b, n2]⟩, x2⟩, ⟨⟨3, ![a, b, n3]⟩, x3⟩] h (ix3 p g q)
        = x3 (ix3 p g q3)) := by
  refine ⟨fun q1 hq => ?_, fun q2 hq => ?_, fun q3 hq => ?_⟩
  · refine concatenate_apply_piece (t := ⟨3, ![a, b, n]⟩) 2
      [⟨⟨3, ![a, b, n1]⟩, x1⟩, ⟨⟨3, ![a, b, n2]⟩, x2⟩, ⟨⟨3, ![a, b, n3]⟩, x3⟩] h (ix3 p g q) 0 (by simp) _ x1 rfl rfl 0 rfl
      (ix3 p g q1) (fun bx hb => ?_) ?_
    · match bx, hb with
      | ⟨0, _⟩, _ => rfl
      | ⟨1, _⟩, _ => rfl
      | ⟨2, _⟩, hb => exact absurd rfl hb
    · show 0 + q1.val = q.val
      omega
  · refine concatenate_apply_piece (t := ⟨3, ![a, b, n]⟩) 2
      [⟨⟨3, ![a, b, n1]⟩, x1⟩, ⟨⟨3, ![a, b, n2]⟩, x2⟩, ⟨⟨3, ![a, b, n3]⟩, x3⟩] h (ix3 p g q) 1 (by simp) _ x2 rfl rfl n1 ?_
      (ix3 p g q2) (fun bx hb => ?_) hq
    · simp
    · match bx, hb with
      | ⟨0, _⟩, _ => rfl
      | ⟨1, _⟩, _ => rfl
      | ⟨2, _⟩, hb => exact absurd rfl hb
  · refine concatenate_apply_piece (t := ⟨3, ![a, b, n]⟩) 2
      [⟨⟨3, ![a, b, n1]⟩, x1⟩, ⟨⟨3, ![a, b, n2]⟩, x2⟩, ⟨⟨3, ![a, b, n3]⟩, x3⟩] h (ix3 p g q) 2 (by simp) _ x3 rfl rfl (n1 + n2) ?_
      (ix3 p g q3) (fun bx hb => ?_) hq
    · simp
    · match bx, hb with
      | ⟨0, _⟩, _ => rfl
      | ⟨1, _⟩, _ => rfl
      | ⟨2, _⟩, hb => exact absurd rfl hb

end Generic

/-! ## The column maps -/

theorem col_of_lt (v : Fin 27) (c : Fin 41) (h : c.val < 17) :
    col v c = (⟨17 * v.val + c.val, by omega⟩ : Fin 483) := by
  unfold col; rw [dif_pos h]

theorem col_of_ge (v : Fin 27) (c : Fin 41) (h : ¬c.val < 17) :
    col v c = (⟨459 + (c.val - 17), by omega⟩ : Fin 483) := by
  unfold col; rw [dif_neg h]

theorem perm_of_lt4 (j : Fin 41) (h : j.val < 4) : perm j = j := by
  unfold perm; rw [if_pos h]

theorem perm_of_eq4 (j : Fin 41) (h : j.val = 4) : perm j = (⟨16, by omega⟩ : Fin 41) := by
  unfold perm; rw [if_neg (by omega), if_pos h]

theorem perm_of_mid (j : Fin 41) (h4 : 4 < j.val) (h17 : j.val < 17) : perm j = (⟨j.val - 1, by omega⟩ : Fin 41) := by
  unfold perm; rw [if_neg (by omega), if_neg (by omega), dif_pos h17]

theorem perm_of_ge17 (j : Fin 41) (h : 17 ≤ j.val) : perm j = j := by
  unfold perm; rw [if_neg (by omega), if_neg (by omega), dif_neg (by omega)]

/-! ## The stages of the node features -/

section Stages
variable [Cert.ReferenceIdeal.Facts]

/-- The per-node channels as [sample, node, channel]: entry (i, v, c) is column 17 · v + c of the state row. -/
def perNode (X : FVec Ideal S20000x483 .f32) : FVec Ideal S20000x27x17 .f32 :=
  shapeCast S20000x27x17 (extractStridedSlice S20000x459 ![0, 0] X slices_S20000x483_S20000x459_0_0)
    shapeCasts_S20000x459_S20000x27x17

/-- The shared channels repeated for every node: entry (i, v, d) is column 459 + d of the state row. -/
def shared (X : FVec Ideal S20000x483 .f32) : FVec Ideal S20000x27x24 .f32 :=
  broadcastInDim S20000x27x24 ![0, 1, 2] bcast_S20000x1x24_S20000x27x24_0_1_2
    (broadcastInDim S20000x1x24 ![0, 2] bcast_S20000x24_S20000x1x24_0_2
      (extractStridedSlice S20000x24 ![0, 459] X slices_S20000x483_S20000x24_0_459))

/-- The 41 channels of every (sample, node): the node's first 16, its 17th, then the 24 shared ones. -/
def joined (X : FVec Ideal S20000x483 .f32) : FVec Ideal S20000x27x41 .f32 :=
  concatenate S20000x27x41 2
    [⟨S20000x27x16, extractStridedSlice S20000x27x16 ![0, 0, 0] (perNode X) slices_S20000x27x17_S20000x27x16_0_0_0⟩,
     ⟨S20000x27x1, extractStridedSlice S20000x27x1 ![0, 0, 16] (perNode X) slices_S20000x27x17_S20000x27x1_0_0_16⟩,
     ⟨S20000x27x24, shared X⟩]
    concatenates_S20000x27x16_S20000x27x1_S20000x27x24_S20000x27x41_d2

/-- One row per (sample, node): row 27 · i + v. -/
def rows (X : FVec Ideal S20000x483 .f32) : FVec Ideal S540000x41 .f32 :=
  shapeCast S540000x41 (joined X) shapeCasts_S20000x27x41_S540000x41

/-- The first five regrouped columns: channels 0 … 3, then channel 16. -/
def low5 (Y : FVec Ideal S540000x41 .f32) : FVec Ideal S540000x5 .f32 :=
  shapeCast S540000x5
    (concatenate S540000x5x1 1
      [⟨S540000x4x1, shapeCast S540000x4x1 (extractStridedSlice S540000x4 ![0, 0] Y slices_S540000x41_S540000x4_0_0)
          shapeCasts_S540000x4_S540000x4x1⟩,
       ⟨S540000x1x1, shapeCast S540000x1x1 (extractStridedSlice S540000x1 ![0, 16] Y slices_S540000x41_S540000x1_0_16)
          shapeCasts_S540000x1_S540000x1x1⟩]
      concatenates_S540000x4x1_S540000x1x1_S540000x5x1_d1)
    shapeCasts_S540000x5x1_S540000x5

/-- The other 36 regrouped columns: channels 4 … 15, then channels 17 … 40. -/
def high36 (Y : FVec Ideal S540000x41 .f32) : FVec Ideal S540000x36 .f32 :=
  shapeCast S540000x36
    (concatenate S540000x12x3 1
      [⟨S540000x4x3, shapeCast S540000x4x3 (extractStridedSlice S540000x12 ![0, 4] Y slices_S540000x41_S540000x12_0_4)
          shapeCasts_S540000x12_S540000x4x3⟩,
       ⟨S540000x8x3, shapeCast S540000x8x3 (extractStridedSlice S540000x24 ![0, 17] Y slices_S540000x41_S540000x24_0_17)
          shapeCasts_S540000x24_S540000x8x3⟩]
      concatenates_S540000x4x3_S540000x8x3_S540000x12x3_d1)
    shapeCasts_S540000x12x3_S540000x36

/-- The node features are these stages, in this order. -/
theorem nodeFeat_eq (X : FVec Ideal S20000x483 .f32) :
    nodeFeat (F := Ideal) X
      = concatenate S540000x41 1 [⟨S540000x5, low5 (rows X)⟩, ⟨S540000x36, high36 (rows X)⟩]
          concatenates_S540000x5_S540000x36_S540000x41_d1 := rfl

theorem perNode_apply (X : FVec Ideal S20000x483 .f32) (i : Fin 20000) (v : Fin 27) (c : Fin 17) :
    perNode X (ix3 i v c) = X (ix2 i (⟨17 * v.val + c.val, by omega⟩ : Fin 483)) := by
  unfold perNode
  refine (Cert.Lib.GroupedLanes.split_apply _ shapeCasts_S20000x459_S20000x27x17 (by norm_num) i v c
    (⟨17 * v.val + c.val, by omega⟩ : Fin 459) (by show 17 * v.val + c.val = v.val * 17 + c.val; omega)).trans ?_
  exact slice2_axis1_apply 0 X slices_S20000x483_S20000x459_0_0 i _ _ (Nat.zero_add _).symm

theorem shared_apply (X : FVec Ideal S20000x483 .f32) (i : Fin 20000) (v : Fin 27) (d : Fin 24) :
    shared X (ix3 i v d) = X (ix2 i (⟨459 + d.val, by omega⟩ : Fin 483)) := by
  unfold shared
  refine (spreadMid_apply _ bcast_S20000x1x24_S20000x27x24_0_1_2 i v d).trans ?_
  refine (spreadMid_unit_apply _ bcast_S20000x24_S20000x1x24_0_2 i 0 d).trans ?_
  exact slice2_axis1_apply 459 X slices_S20000x483_S20000x24_0_459 i d _ rfl

theorem joined_apply (X : FVec Ideal S20000x483 .f32) (i : Fin 20000) (v : Fin 27) (c : Fin 41) :
    joined X (ix3 i v c) = X (ix2 i (col v c)) := by
  unfold joined
  have H := joinLast3_apply
    (extractStridedSlice S20000x27x16 ![0, 0, 0] (perNode X) slices_S20000x27x17_S20000x27x16_0_0_0)
    (extractStridedSlice S20000x27x1 ![0, 0, 16] (perNode X) slices_S20000x27x17_S20000x27x1_0_0_16)
    (shared X) concatenates_S20000x27x16_S20000x27x1_S20000x27x24_S20000x27x41_d2 i v c
  by_cases h16 : c.val < 16
  · refine (H.1 ⟨c.val, h16⟩ rfl).trans ?_
    refine (slice3_last_apply 0 (perNode X) slices_S20000x27x17_S20000x27x16_0_0_0 i v ⟨c.val, h16⟩
      (⟨c.val, by omega⟩ : Fin 17) (Nat.zero_add _).symm).trans ?_
    rw [perNode_apply, col_of_lt v c (by omega)]
  · by_cases h17 : c.val < 17
    · refine (H.2.1 (0 : Fin 1) (by show 16 + 0 = c.val; omega)).trans ?_
      refine (slice3_last_apply 16 (perNode X) slices_S20000x27x17_S20000x27x1_0_0_16 i v (0 : Fin 1)
        (⟨16, by omega⟩ : Fin 17) rfl).trans ?_
      rw [perNode_apply, col_of_lt v c h17]
      exact congrArg X (congrArg (ix2 i) (Fin.ext (by show 17 * v.val + 16 = 17 * v.val + c.val; omega)))
    · refine (H.2.2 (⟨c.val - 17, by omega⟩ : Fin 24) (by show 16 + 1 + (c.val - 17) = c.val; omega)).trans ?_
      rw [shared_apply, col_of_ge v c h17]

theorem rows_apply (X : FVec Ideal S20000x483 .f32) (r : Fin 540000) (c : Fin 41) :
    rows X (ix2 r c)
      = joined X (ix3 (⟨r.val / 27, by omega⟩ : Fin 20000) (⟨r.val % 27, by omega⟩ : Fin 27) c) := by
  unfold rows
  exact Cert.LibLayout.shapeCast_abc_mc_apply _ shapeCasts_S20000x27x41_S540000x41 r _ _ c
    (by show r.val = r.val / 27 * 27 + r.val % 27; omega)

end Stages

/-! ## The regrouped columns and the result -/

section Regroup
variable [Cert.ReferenceIdeal.Facts]

/-- Regrouped columns 0 … 3 are channels 0 … 3. -/
theorem low5_of_lt (Y : FVec Ideal S540000x41 .f32) (r : Fin 540000) (j : Fin 5) (h : j.val < 4) :
    low5 Y (ix2 r j) = Y (ix2 r (⟨j.val, by omega⟩ : Fin 41)) := by
  unfold low5
  refine (Cert.Lib.GroupedLanes.merge_apply _ shapeCasts_S540000x5x1_S540000x5 (by norm_num) r j j (0 : Fin 1)
    (by show j.val = j.val * 1 + 0; omega)).trans ?_
  refine (joinMid_left _ _ concatenates_S540000x4x1_S540000x1x1_S540000x5x1_d1 r j (0 : Fin 1)
    (⟨j.val, h⟩ : Fin 4) rfl).trans ?_
  refine (Cert.Lib.GroupedLanes.keep_apply _ shapeCasts_S540000x4_S540000x4x1 r (⟨j.val, h⟩ : Fin 4) (0 : Fin 1)).trans ?_
  exact slice2_axis1_apply 0 Y slices_S540000x41_S540000x4_0_0 r _ _ (Nat.zero_add _).symm

/-- Regrouped column 4 is channel 16. -/
theorem low5_of_eq (Y : FVec Ideal S540000x41 .f32) (r : Fin 540000) (j : Fin 5) (h : j.val = 4) :
    low5 Y (ix2 r j) = Y (ix2 r (⟨16, by omega⟩ : Fin 41)) := by
  unfold low5
  refine (Cert.Lib.GroupedLanes.merge_apply _ shapeCasts_S540000x5x1_S540000x5 (by norm_num) r j j (0 : Fin 1)
    (by show j.val = j.val * 1 + 0; omega)).trans ?_
  refine (joinMid_right _ _ concatenates_S540000x4x1_S540000x1x1_S540000x5x1_d1 r j (0 : Fin 1)
    (0 : Fin 1) (by show 0 + 4 = j.val; omega)).trans ?_
  refine (Cert.Lib.GroupedLanes.keep_apply _ shapeCasts_S540000x1_S540000x1x1 r (0 : Fin 1) (0 : Fin 1)).trans ?_
  exact slice2_axis1_apply 16 Y slices_S540000x41_S540000x1_0_16 r _ _ rfl

/-- Of the other 36 regrouped columns, the first 12 are channels 4 … 15. -/
theorem high36_of_lt (Y : FVec Ideal S540000x41 .f32) (r : Fin 540000) (q : Fin 36) (h : q.val < 12) :
    high36 Y (ix2 r q) = Y (ix2 r (⟨4 + q.val, by omega⟩ : Fin 41)) := by
  unfold high36
  refine (Cert.Lib.GroupedLanes.merge_apply _ shapeCasts_S540000x12x3_S540000x36 (by norm_num) r q
    (⟨q.val / 3, by omega⟩ : Fin 12) (⟨q.val % 3, by omega⟩ : Fin 3)
    (by show q.val = q.val / 3 * 3 + q.val % 3; omega)).trans ?_
  refine (joinMid_left _ _ concatenates_S540000x4x3_S540000x8x3_S540000x12x3_d1 r _ _
    (⟨q.val / 3, by omega⟩ : Fin 4) rfl).trans ?_
  refine (Cert.Lib.GroupedLanes.split_apply _ shapeCasts_S540000x12_S540000x4x3 (by norm_num) r _ _
    (⟨q.val, h⟩ : Fin 12) (by show q.val = q.val / 3 * 3 + q.val % 3; omega)).trans ?_
  exact slice2_axis1_apply 4 Y slices_S540000x41_S540000x12_0_4 r _ _ rfl

/-- The last 24 of them are channels 17 … 40. -/
theorem high36_of_ge (Y : FVec Ideal S540000x41 .f32) (r : Fin 540000) (q : Fin 36) (h : 12 ≤ q.val) :
    high36 Y (ix2 r q) = Y (ix2 r (⟨17 + (q.val - 12), by omega⟩ : Fin 41)) := by
  unfold high36
  refine (Cert.Lib.GroupedLanes.merge_apply _ shapeCasts_S540000x12x3_S540000x36 (by norm_num) r q
    (⟨q.val / 3, by omega⟩ : Fin 12) (⟨q.val % 3, by omega⟩ : Fin 3)
    (by show q.val = q.val / 3 * 3 + q.val % 3; omega)).trans ?_
  refine (joinMid_right _ _ concatenates_S540000x4x3_S540000x8x3_S540000x12x3_d1 r _ _
    (⟨q.val / 3 - 4, by omega⟩ : Fin 8) (by show q.val / 3 - 4 + 4 = q.val / 3; omega)).trans ?_
  refine (Cert.Lib.GroupedLanes.split_apply _ shapeCasts_S540000x24_S540000x8x3 (by norm_num) r _ _
    (⟨q.val - 12, by omega⟩ : Fin 24) (by show q.val - 12 = (q.val / 3 - 4) * 3 + q.val % 3; omega)).trans ?_
  exact slice2_axis1_apply 17 Y slices_S540000x41_S540000x24_0_17 r _ _ rfl

/-- The two regrouped blocks joined: output column j holds channel perm j. -/
theorem regroup_apply (Y : FVec Ideal S540000x41 .f32) (r : Fin 540000) (j : Fin 41) :
    concatenate S540000x41 1 [⟨S540000x5, low5 Y⟩, ⟨S540000x36, high36 Y⟩]
        concatenates_S540000x5_S540000x36_S540000x41_d1 (ix2 r j)
      = Y (ix2 r (perm j)) := by
  by_cases h5 : j.val < 5
  · refine (joinCols_left (low5 Y) (high36 Y) concatenates_S540000x5_S540000x36_S540000x41_d1 r j
      (⟨j.val, h5⟩ : Fin 5) rfl).trans ?_
    by_cases h4 : j.val < 4
    · rw [low5_of_lt Y r _ h4, perm_of_lt4 j h4]
    · have e4 : j.val = 4 := by omega
      rw [low5_of_eq Y r _ e4, perm_of_eq4 j e4]
  · refine (joinCols_right (low5 Y) (high36 Y) concatenates_S540000x5_S540000x36_S540000x41_d1 r j
      (⟨j.val - 5, by omega⟩ : Fin 36) (by show j.val - 5 + 5 = j.val; omega)).trans ?_
    by_cases h17 : j.val < 17
    · rw [high36_of_lt Y r _ (by show j.val - 5 < 12; omega), perm_of_mid j (by omega) h17]
      exact congrArg Y (congrArg (ix2 r) (Fin.ext (by show 4 + (j.val - 5) = j.val - 1; omega)))
    · rw [high36_of_ge Y r _ (by show 12 ≤ j.val - 5; omega), perm_of_ge17 j (by omega)]
      exact congrArg Y (congrArg (ix2 r) (Fin.ext (by show 17 + (j.val - 5 - 12) = j.val; omega)))

/-- **The node features at an index**: row 27 · i + v, output column j, is the state row i at the column holding
    channel perm j of node v. -/
theorem nodeFeat_apply (X : FVec Ideal S20000x483 .f32) (r : Fin 540000) (j : Fin 41) :
    nodeFeat (F := Ideal) X (ix2 r j)
      = X (ix2 (⟨r.val / 27, by omega⟩ : Fin 20000) (col (⟨r.val % 27, by omega⟩ : Fin 27) (perm j))) := by
  rw [nodeFeat_eq, regroup_apply, rows_apply, joined_apply]

end Regroup

end Cert.RefNodeFeat

end
-- ==== Proof.RefIndex.lean ====
/-
  The reference's edge index arrays and its row gather, read at an index.

  * Entry e = 52 · i + s of a flattened index array is 27 · i + (the edge's node within a sample): the sample offsets
    27 · i stand in a column, the 52 local node numbers in a row, both are spread over [20000, 52], added, and the sum is
    read in row-major order, so entry e sits at row e / 52, column e % 52. No 32-bit sum overflows: 27 · 19999 + 26 < 2³².
  * A row index r < 540000 is non-negative as a signed 32-bit word, so it is kept as it is, it passes the range test
    0 ≤ r ≤ 539999, and the gather (operand axis 0 collapsed and addressed by the start index, axis 1 an offset axis
    of full width 41) reads row r clamped into 0 … 539999, that is row r itself.
-/
import proofs.«140815_g12034498363475_cont_main3_758_5_alg».proof.Proof.Spec
import proofs.«140815_g12034498363475_cont_main3_758_5_alg».proof.Proof.RefStages
import proofs.«140815_g12034498363475_cont_main3_758_5_alg».proof.Proof.RefEdges
import Idealize.ShloMosaic.Lib.Pipeline.Value
import Idealize.ShloMosaic.Lib.ValueIdx
import Idealize.ShloMosaic.PureOps.Reduce

noncomputable section

namespace Cert.RefIndex

open Idealize.ShloMosaic Idealize.ShloMosaic.ValueIdx Cert.ReferenceIdeal Cert.ReferenceIdeal.Facts₀ Cert.RefStages Cert.Spec

variable [Cert.ReferenceIdeal.Facts]

/-! ## The flattened edge index arrays -/

/-- Sample i's offset is 27 · i. -/
theorem offsets_apply (i : Fin 20000) (z : Fin 1) :
    offsets (ix2 i z) = BitVec.ofNat 32 i.val * 27#32 := rfl

/-- A column spread over [20000, 52] reads its row's entry. -/
theorem bcastCol_apply {α : Type} (x : S20000x1.Idx → α) (i : Fin 20000) (s : Fin 52) :
    broadcastInDim S20000x52 ![0, 1] bcast_S20000x1_S20000x52_0_1 x (ix2 i s) = x (ix2 i (0 : Fin 1)) :=
  broadcastInDim_apply _ _ x _ _ (fun a => by
    match a with
    | ⟨0, _⟩ => rfl
    | ⟨1, _⟩ => rfl)

/-- A vector of 52 entries set as a row and spread over [20000, 52] reads its column's entry. -/
theorem bcastRow_apply {α : Type} (loc : S52.Idx → α) (i : Fin 20000) (s : Fin 52) :
    broadcastInDim S20000x52 ![0, 1] bcast_S1x52_S20000x52_0_1 (broadcastInDim S1x52 ![1] bcast_S52_S1x52_1 loc) (ix2 i s)
      = loc (ix1 s) := by
  refine (broadcastInDim_apply _ _ _ _ (ix2 (0 : Fin 1) s) (fun a => by
    match a with
    | ⟨0, _⟩ => rfl
    | ⟨1, _⟩ => rfl)).trans ?_
  exact broadcastInDim_apply _ _ loc _ _ (fun a => by
    match a with
    | ⟨0, _⟩ => rfl)

/-- Entry e of a flattened index array: row e / 52 and column e % 52 of the [20000, 52] sum. -/
theorem flatIdx_apply (loc : IVec S52 32) (e : Fin 1040000) :
    flatIdx loc (ix1 e)
      = BitVec.ofNat 32 (e.val / 52) * 27#32 + loc (ix1 (⟨e.val % 52, Nat.mod_lt _ (by norm_num)⟩ : Fin 52)) := by
  unfold flatIdx
  refine (shapeCast_apply _ shapeCasts_S20000x52_S1040000 (ix1 e)
    (ix2 (⟨e.val / 52, by omega⟩ : Fin 20000) (⟨e.val % 52, Nat.mod_lt _ (by norm_num)⟩ : Fin 52)) ?_).trans ?_
  · rw [Shape.rowMajor_val_two, Shape.rowMajor_val_one]
    show e.val / 52 * 52 + e.val % 52 = e.val
    omega
  · show IntOp.addi (broadcastInDim S20000x52 ![0, 1] bcast_S20000x1_S20000x52_0_1 offsets (ix2 _ _))
      (broadcastInDim S20000x52 ![0, 1] bcast_S1x52_S20000x52_0_1 (broadcastInDim S1x52 ![1] bcast_S52_S1x52_1 loc) (ix2 _ _)) = _
    rw [bcastCol_apply, bcastRow_apply, offsets_apply]
    rfl

/-- 27 · q + v in 32-bit words, for q < 20000 and v < 27: nothing wraps. -/
theorem ofNat_affine (q v : Nat) (hq : q < 20000) (hv : v < 27) :
    BitVec.ofNat 32 q * 27#32 + BitVec.ofNat 32 v = BitVec.ofNat 32 (27 * q + v) := by
  apply BitVec.eq_of_toNat_eq
  rw [BitVec.toNat_add, BitVec.toNat_mul, BitVec.toNat_ofNat, BitVec.toNat_ofNat, BitVec.toNat_ofNat, BitVec.toNat_ofNat]
  omega

/-- Entry e of the source index array: 27 · (e / 52) + the source node of edge e % 52. -/
theorem srcIdx_apply (e : Fin 1040000) :
    srcIdx (ix1 e) = BitVec.ofNat 32 (27 * (e.val / 52) + (edgeSrc (⟨e.val % 52, Nat.mod_lt _ (by norm_num)⟩ : Fin 52)).val) := by
  unfold srcIdx
  rw [flatIdx_apply, Cert.RefEdges.srcLocal_apply]
  exact ofNat_affine _ _ (by have := e.isLt; omega) (Fin.isLt _)

/-- Entry e of the destination index array: 27 · (e / 52) + the destination node of edge e % 52. -/
theorem dstIdx_apply (e : Fin 1040000) :
    dstIdx (ix1 e) = BitVec.ofNat 32 (27 * (e.val / 52) + (edgeDst (⟨e.val % 52, Nat.mod_lt _ (by norm_num)⟩ : Fin 52)).val) := by
  unfold dstIdx
  rw [flatIdx_apply, Cert.RefEdges.dstLocal_apply]
  exact ofNat_affine _ _ (by have := e.isLt; omega) (Fin.isLt _)

/-! ## Signed comparisons of a small word -/

/-- A natural below 540000, read as a signed 32-bit word, is itself. -/
theorem toInt_small (r : Nat) (hr : r < 540000) : (BitVec.ofNat 32 r).toInt = (r : Int) := by
  rw [BitVec.toInt_eq_toNat_cond, BitVec.toNat_ofNat]
  have h1 : r % 2 ^ 32 = r := Nat.mod_eq_of_lt (by omega)
  rw [h1, if_pos (by omega)]

theorem slt_zero_small (r : Nat) (hr : r < 540000) : IntOp.cmpi .slt (BitVec.ofNat 32 r) 0#32 = 0#1 := by
  show BitVec.ofBool ((BitVec.ofNat 32 r).slt 0#32) = 0#1
  have h0 : (0#32 : BitVec 32).toInt = 0 := by decide
  have : (BitVec.ofNat 32 r).slt 0#32 = false := by
    simp only [BitVec.slt, toInt_small r hr, h0, decide_eq_false_iff_not]; omega
  rw [this]; rfl

theorem sge_zero_small (r : Nat) (hr : r < 540000) : IntOp.cmpi .sge (BitVec.ofNat 32 r) 0#32 = 1#1 := by
  show BitVec.ofBool ((0#32 : BitVec 32).sle (BitVec.ofNat 32 r)) = 1#1
  have h0 : (0#32 : BitVec 32).toInt = 0 := by decide
  have : (0#32 : BitVec 32).sle (BitVec.ofNat 32 r) = true := by
    simp only [BitVec.sle, toInt_small r hr, h0, decide_eq_true_eq]; omega
  rw [this]; rfl

theorem sle_top_small (r : Nat) (hr : r < 540000) : IntOp.cmpi .sle (BitVec.ofNat 32 r) 539999#32 = 1#1 := by
  show BitVec.ofBool ((BitVec.ofNat 32 r).sle 539999#32) = 1#1
  have h0 : (539999#32 : BitVec 32).toInt = 539999 := by decide
  have : (BitVec.ofNat 32 r).sle 539999#32 = true := by
    simp only [BitVec.sle, toInt_small r hr, h0, decide_eq_true_eq]; omega
  rw [this]; rfl

/-! ## The start indices and the range test -/

/-- The column of start indices at row `e` holds the (already non-negative) index itself. -/
theorem takeStart_apply (idx : IVec S1040000 32) (e : Fin 1040000) (z : Fin 1) (r : Nat) (hr : r < 540000)
    (h : idx (ix1 e) = BitVec.ofNat 32 r) : takeStart idx (ix2 e z) = BitVec.ofNat 32 r := by
  unfold takeStart
  refine (broadcastInDim_apply _ _ _ _ (ix1 e) (fun a => by
    match a with
    | ⟨0, _⟩ => rfl)).trans ?_
  show Scalar.select (IntOp.cmpi .slt (idx (ix1 e)) 0#32) (IntOp.addi (idx (ix1 e)) 540000#32) (idx (ix1 e)) = _
  rw [h, slt_zero_small r hr, select_zero]

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

theorem takeOk_apply (idx : IVec S1040000 32) (e : Fin 1040000) (r : Nat) (hr : r < 540000)
    (h : idx (ix1 e) = BitVec.ofNat 32 r) : takeOk idx (ix1 e) = 1#1 := by
  unfold takeOk
  rw [Host.reduce_eq_foldl]
  refine foldl_andi_one _ _ (fun i hi => ?_)
  obtain ⟨a, b, rfl⟩ : ∃ (a : Fin 1040000) (b : Fin 1), i = ix2 a b := ⟨_, _, eq_ix2 i⟩
  have hd := of_decide_eq_true (List.mem_filter.1 hi).2
  have h0 : a = e := by
    have := congrArg (fun k : S1040000.Idx => (k 0).val) hd
    exact Fin.ext this
  subst h0
  show IntOp.andi (IntOp.cmpi .sge (takeStart idx (ix2 a b)) 0#32)
      (IntOp.cmpi .sle (takeStart idx (ix2 a b)) 539999#32) = 1#1
  rw [takeStart_apply idx a b r hr h, sge_zero_small r hr, sle_top_small r hr]
  rfl

/-! ## The gather -/

/-- The row gather read at (e, j): row "start index of e, read signed and clamped into 0 … 539999", column j. -/
theorem gather_row_apply {α : Type} (x : S540000x41.Idx → α) (st : IVec S1040000x1 32) (e : Fin 1040000) (j : Fin 41) :
    Host.gather gather_S540000x41_S1040000x1_S1040000x41_1_0_n_n_0_1_141 x st (ix2 e j)
      = x (ix2 (⟨min (st (ix2 e (0 : Fin 1))).toInt.toNat 539999, by omega⟩ : Fin 540000) j) := by
  unfold Host.gather
  congr 1
  funext a
  refine Fin.ext ?_
  have hcol : ((0 : Fin 2) ∈ (gather_S540000x41_S1040000x1_S1040000x41_1_0_n_n_0_1_141).collapsedSliceDims) :=
    List.mem_singleton.mpr rfl
  have hnb : ∀ a : Fin 2, a ∉ (gather_S540000x41_S1040000x1_S1040000x41_1_0_n_n_0_1_141).operandBatchingDims :=
    fun _ => List.not_mem_nil
  match a with
  | ⟨0, _⟩ =>
    show GatherDims.start _ (ix2 e j) st 0 + GatherDims.batchCoord _ (ix2 e j) 0 + GatherDims.offCoord _ (ix2 e j) 0 = _
    rw [GatherDims.batchCoord_eq_zero _ _ _ (hnb 0),
      GatherDims.offCoord_eq_zero _ _ _ (fun h => ((GatherDims.mem_sKept _ _).mp h).1 hcol)]
    simp only [Nat.add_zero]
    unfold GatherDims.start
    rw [dif_pos (show (0 : Fin 2) ∈ (gather_S540000x41_S1040000x1_S1040000x41_1_0_n_n_0_1_141).startIndexMap from
      List.mem_singleton.mpr rfl)]
    have hsi : (gather_S540000x41_S1040000x1_S1040000x41_1_0_n_n_0_1_141).siIdx (ix2 e j)
        ⟨List.idxOf (0 : Fin 2) (gather_S540000x41_S1040000x1_S1040000x41_1_0_n_n_0_1_141).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e j) st 1 + GatherDims.batchCoord _ (ix2 e j) 1 + GatherDims.offCoord _ (ix2 e j) 1 = j.val
    have hns : (1 : Fin 2) ∉ (gather_S540000x41_S1040000x1_S1040000x41_1_0_n_n_0_1_141).startIndexMap :=
      fun h => absurd (List.mem_singleton.1 h) (by decide)
    have hk : (1 : Fin 2) ∈ (gather_S540000x41_S1040000x1_S1040000x41_1_0_n_n_0_1_141).sKept :=
      (GatherDims.mem_sKept _ _).2 ⟨fun h => absurd (List.mem_singleton.1 h) (by decide), hnb 1⟩
    rw [GatherDims.batchCoord_eq_zero _ _ _ (hnb 1)]
    unfold GatherDims.start GatherDims.offCoord
    rw [dif_neg hns, dif_pos hk]
    simp only [Nat.add_zero, Nat.zero_add]
    rfl

/-- THE ROW GATHER WITH ITS FILL, read at (e, j) when entry e of the index array is the in-range row r:
    the index is kept as it is, the range test passes, and the gather reads row r. -/
theorem takeF_apply (nf : FVec Ideal S540000x41 .f32) (idx : IVec S1040000 32) (e : Fin 1040000) (j : Fin 41) (r : Fin 540000)
    (h : idx (ix1 e) = BitVec.ofNat 32 r.val) :
    takeF (F := Ideal) nf idx (ix2 e j) = nf (ix2 r j) := by
  unfold takeF
  show Scalar.select (broadcastInDim S1040000x41 ![0] bcast_S1040000_S1040000x41_0 (takeOk idx) (ix2 e j))
      (Host.gather gather_S540000x41_S1040000x1_S1040000x41_1_0_n_n_0_1_141 nf (takeStart idx) (ix2 e j)) _ = _
  rw [broadcastInDim_apply ![0] bcast_S1040000_S1040000x41_0 (takeOk idx) (ix2 e j) (ix1 e) (fun a => by
      match a with
      | ⟨0, _⟩ => rfl),
    takeOk_apply idx e r.val r.isLt h, select_one, gather_row_apply]
  refine congrArg (fun p => nf (ix2 p j)) (Fin.ext ?_)
  show min (takeStart idx (ix2 e (0 : Fin 1))).toInt.toNat 539999 = r.val
  rw [takeStart_apply idx e 0 r.val r.isLt h, toInt_small r.val r.isLt, Int.toNat_natCast]
  have := r.isLt
  omega

end Cert.RefIndex

end
-- ==== Proof.RefScatter.lean ====
/-
  The accumulating scatter and the final mean of the message-passing program, read at an index.

  A scatter that adds update rows into operand rows (the update's column is the operand's column, the operand's row is
  the row's index read as a signed number, and a row whose index leaves the operand is dropped) gives, at entry (r, q),
  the operand's entry plus the sum of the entries (e, q) over the update rows e whose index is r. The mean over a
  sample's 27 node rows is the zero start value plus the sum over n of row 27 · i + n, divided by 27.
-/
import proofs.«140815_g12034498363475_cont_main3_758_5_alg».proof.Proof.Spec
import proofs.«140815_g12034498363475_cont_main3_758_5_alg».proof.Proof.RefStages
import Idealize.ShloMosaic.Lib.IdealHost
import Idealize.ShloMosaic.Lib.Pipeline.Value
import Idealize.ShloMosaic.Lib.ValueIdx

noncomputable section

namespace Cert.RefScatter

open Idealize.ShloMosaic Idealize.ShloMosaic.ValueIdx

/-! ## A scatter of whole rows: N operand rows and E update rows of C columns, one index per update row -/

section Rows
variable {N E C w : ℕ}

/-- The dimension numbers of a scatter of whole rows: the updates' axis 1 is the window (it goes to the operand's axis 1),
    the operand's axis 0 is inserted and is the one the index names, and each index is one number (the index array's
    axis 1 has size one). -/
abbrev rowDims (wf : ScatterDims.WF (⟨2, ![N, C]⟩ : Shape) ⟨2, ![E, 1]⟩ ⟨2, ![E, C]⟩ ([1] : List (Fin 2)) ([0] : List (Fin 2)) ([0] : List (Fin 2)) 1) :
    ScatterDims (⟨2, ![N, C]⟩ : Shape) ⟨2, ![E, 1]⟩ ⟨2, ![E, C]⟩ := ⟨[1], [0], [0], 1, wf⟩

variable (wf : ScatterDims.WF (⟨2, ![N, C]⟩ : Shape) ⟨2, ![E, 1]⟩ ⟨2, ![E, C]⟩ ([1] : List (Fin 2)) ([0] : List (Fin 2)) ([0] : List (Fin 2)) 1)

/-- Update (e, q) reads its index at (e, 0) of the index column. -/
theorem siIdx_eq (u : (⟨2, ![E, C]⟩ : Shape).Idx) (c : Fin (rowDims wf).scatterDimsToOperandDims.length) :
    (rowDims wf).siIdx u c = ix2 (u 0) (0 : Fin 1) := by
  funext b
  match b with
  | ⟨0, _⟩ => rfl
  | ⟨1, _⟩ => exact Fin.ext (by have := c.isLt; simp [ScatterDims.siIdx] at * <;> omega)

/-- On the operand's row axis the window starts at the update row's index, read signed. -/
theorem start0 (u : (⟨2, ![E, C]⟩ : Shape).Idx) (idx : IVec (⟨2, ![E, 1]⟩ : Shape) w) :
    (rowDims wf).start u idx 0 = (idx (ix2 (u 0) (0 : Fin 1))).toInt := by
  unfold ScatterDims.start
  rw [dif_pos (show (0 : Fin 2) ∈ [(0 : Fin 2)] by decide), siIdx_eq]
  rfl

/-- On the operand's column axis, which no index names, the window starts at 0. -/
theorem start1 (u : (⟨2, ![E, C]⟩ : Shape).Idx) (idx : IVec (⟨2, ![E, 1]⟩ : Shape) w) :
    (rowDims wf).start u idx 1 = 0 := by
  unfold ScatterDims.start
  rw [dif_neg (show (1 : Fin 2) ∉ [(0 : Fin 2)] by decide)]

/-- The row axis is inserted: its window coordinate is 0. -/
theorem window0 (u : (⟨2, ![E, C]⟩ : Shape).Idx) : (rowDims wf).window u 0 = 0 := by
  unfold ScatterDims.window
  have h : ¬ ((0 : Fin (⟨2, ![N, C]⟩ : Shape).rank) ∈ (rowDims wf).sKept) := by
    show (0 : Fin 2) ∉ (List.finRange 2).filter (· ∉ [(0 : Fin 2)]); decide
  rw [dif_neg h]

/-- The column axis carries the update's column. -/
theorem window1 (u : (⟨2, ![E, C]⟩ : Shape).Idx) : (rowDims wf).window u 1 = (u 1).val := by
  unfold ScatterDims.window
  have h : (1 : Fin (⟨2, ![N, C]⟩ : Shape).rank) ∈ (rowDims wf).sKept := by
    show (1 : Fin 2) ∈ (List.finRange 2).filter (· ∉ [(0 : Fin 2)]); decide
  rw [dif_pos h]
  rfl

/-- An update lands inside the operand exactly when its row's index, read signed, lies in 0 … N − 1 (its column always
    does). -/
theorem inb_iff (u : (⟨2, ![E, C]⟩ : Shape).Idx) (idx : IVec (⟨2, ![E, 1]⟩ : Shape) w) :
    (∀ a, 0 ≤ (rowDims wf).start u idx a + (rowDims wf).window u a
        ∧ (rowDims wf).start u idx a + (rowDims wf).window u a < (⟨2, ![N, C]⟩ : Shape).size a)
      ↔ (0 ≤ (idx (ix2 (u 0) (0 : Fin 1))).toInt ∧ (idx (ix2 (u 0) (0 : Fin 1))).toInt < (N : ℤ)) := by
  constructor
  · intro h
    have h0 := h 0
    rw [start0, window0] at h0
    have e : ((⟨2, ![N, C]⟩ : Shape).size 0 : ℤ) = (N : ℤ) := rfl
    rw [e] at h0
    omega
  · intro h a
    match a with
    | ⟨0, _⟩ =>
      show 0 ≤ (rowDims wf).start u idx 0 + ((rowDims wf).window u 0 : ℕ)
        ∧ (rowDims wf).start u idx 0 + ((rowDims wf).window u 0 : ℕ) < (N : ℤ)
      rw [start0, window0]; omega
    | ⟨1, _⟩ =>
      show 0 ≤ (rowDims wf).start u idx 1 + ((rowDims wf).window u 1 : ℕ)
        ∧ (rowDims wf).start u idx 1 + ((rowDims wf).window u 1 : ℕ) < (C : ℤ)
      rw [start1, window1]
      have := idx2_lt1 u
      omega

/-- Update (e, q) lands on operand element (r, q') exactly when the index of edge e, read signed, is r and q = q'. -/
theorem resultIdx_iff (e : Fin E) (q : Fin C) (idx : IVec (⟨2, ![E, 1]⟩ : Shape) w) (r : Fin N) (q' : Fin C) :
    (rowDims wf).resultIdx? (ix2 e q) idx = some (ix2 r q')
      ↔ (idx (ix2 e (0 : Fin 1))).toInt = (r.val : ℤ) ∧ q = q' := by
  have hr := r.isLt
  unfold ScatterDims.resultIdx?
  split
  · rename_i h
    have hb := (inb_iff wf (ix2 e q) idx).1 h
    rw [Option.some_inj]
    constructor
    · intro hf
      have h0 : ((rowDims wf).start (ix2 e q) idx 0 + ((rowDims wf).window (ix2 e q) 0 : ℕ)).toNat = r.val :=
        congrArg (fun f => (f 0).val) hf
      have h1 : ((rowDims wf).start (ix2 e q) idx 1 + ((rowDims wf).window (ix2 e q) 1 : ℕ)).toNat = q'.val :=
        congrArg (fun f => (f 1).val) hf
      rw [start0, window0] at h0
      rw [start1, window1] at h1
      have e0 : (ix2 e q) 0 = e := rfl
      have e1 : ((ix2 e q) 1 : Fin C) = q := rfl
      rw [e0] at h0 hb
      rw [e1] at h1
      exact ⟨by omega, Fin.ext (by omega)⟩
    · rintro ⟨h0, rfl⟩
      funext a
      match a with
      | ⟨0, _⟩ =>
        refine Fin.ext ?_
        show ((rowDims wf).start (ix2 e q) idx 0 + ((rowDims wf).window (ix2 e q) 0 : ℕ)).toNat = r.val
        rw [start0, window0]
        have e0 : (ix2 e q) 0 = e := rfl
        rw [e0, h0]; omega
      | ⟨1, _⟩ =>
        refine Fin.ext ?_
        show ((rowDims wf).start (ix2 e q) idx 1 + ((rowDims wf).window (ix2 e q) 1 : ℕ)).toNat = q.val
        rw [start1, window1]
        have e1 : ((ix2 e q) 1 : Fin C) = q := rfl
        rw [e1]; omega
  · rename_i h
    constructor
    · intro hf; cases hf
    · rintro ⟨h0, _⟩
      refine absurd ((inb_iff wf (ix2 e q) idx).2 ?_) h
      have e0 : (ix2 e q) 0 = e := rfl
      rw [e0, h0]; omega

/-- The accumulating scatter of rows read at (r, q'): the operand's entry plus the entries (e, q') of the update rows e
    whose index, read signed, is r. The sum over update positions (e, q) splits into the rows e and the columns q, and
    within a row only q = q' lands in column q'. -/
theorem scatterAdd_apply (x : (⟨2, ![N, C]⟩ : Shape).Idx → EReal) (idx : IVec (⟨2, ![E, 1]⟩ : Shape) w)
    (upd : (⟨2, ![E, C]⟩ : Shape).Idx → EReal) (r : Fin N) (q' : Fin C) :
    Ideal.hostScatterAdd (rowDims wf) x idx upd (ix2 r q')
      = x (ix2 r q')
        + ∑ e ∈ Finset.univ.filter (fun e : Fin E => (idx (ix2 e (0 : Fin 1))).toInt = (r.val : ℤ)), upd (ix2 e q') := by
  unfold Ideal.hostScatterAdd
  refine congrArg (x (ix2 r q') + ·) ?_
  rw [Finset.sum_filter, Finset.sum_filter, sum_idx2]
  refine Finset.sum_congr rfl fun e _ => ?_
  rw [Finset.sum_congr rfl fun q _ => if_congr (resultIdx_iff wf e q idx r q') rfl rfl]
  by_cases hA : (idx (ix2 e (0 : Fin 1))).toInt = (r.val : ℤ)
  · simp [hA]
  · simp [hA]

end Rows

/-! ## The program's scatter and mean -/

section Main

open Cert.ReferenceIdeal Cert.RefStages Cert.ReferenceIdeal.Facts₀ Cert.Spec

variable [Cert.ReferenceIdeal.Facts]

/-- A vector of E indices stood up as a column [E, 1]: entry (e, 0) is the vector's entry e. -/
theorem column_apply {α : Type} (v : S1040000.Idx → α) (e : Fin 1040000) :
    broadcastInDim S1040000x1 ![0] bcast_S1040000_S1040000x1_0 v (ix2 e (0 : Fin 1)) = v (ix1 e) :=
  broadcastInDim_apply _ _ v _ (ix1 e) fun a => by
    match a with
    | ⟨0, _⟩ => rfl

/-- A column [E, 1] repeated along 41 columns: entry (e, j) is the column's entry (e, 0). -/
theorem repeat_apply {α : Type} (v : S1040000x1.Idx → α) (e : Fin 1040000) (j : Fin 41) :
    broadcastInDim S1040000x41 ![0, 1] bcast_S1040000x1_S1040000x41_0_1 v (ix2 e j) = v (ix2 e (0 : Fin 1)) :=
  broadcastInDim_apply _ _ v _ (ix2 e (0 : Fin 1)) fun a => by
    match a with
    | ⟨0, _⟩ => rfl
    | ⟨1, _⟩ => rfl

/-- The program's scatter record is the row scatter's. -/
theorem scatter_def :
    scatter_S540000x41_S1040000x1_S1040000x41_1_0_0_1 = rowDims scatter_S540000x41_S1040000x1_S1040000x41_1_0_0_1_wf := rfl

/-- At exact arithmetic the accumulating scatter is the operand plus the sum of the updates landing on each entry. -/
theorem aggOf_eq1 (x : FVec Ideal S540000x41 .f32) (ic : IVec S1040000x1 32) (upd : FVec Ideal S1040000x41 .f32) :
    Host.scatterAdd (F := Ideal) scatter_S540000x41_S1040000x1_S1040000x41_1_0_0_1 x ic upd
      = Ideal.hostScatterAdd (rowDims scatter_S540000x41_S1040000x1_S1040000x41_1_0_0_1_wf) x ic upd := by
  rw [← scatter_def]
  rfl

/-- The rows `upd` added into a zero array at the rows `idx` names, read at (r, j): zero plus the entries (e, j) of the
    rows e whose index, read signed, is r. -/
theorem aggOf_apply (upd : FVec Ideal S1040000x41 .f32) (idx : IVec S1040000 32) (r : Fin 540000) (j : Fin 41) :
    Host.scatterAdd (F := Ideal) scatter_S540000x41_S1040000x1_S1040000x41_1_0_0_1
        (broadcastInDim S540000x41 ![] bcast_S_S540000x41 (constant (F := Ideal) S_ .f32 0x00000000#32))
        (broadcastInDim S1040000x1 ![0] bcast_S1040000_S1040000x1_0 idx) upd (ix2 r j)
      = 0 + ∑ e ∈ Finset.univ.filter (fun e : Fin 1040000 => (idx (ix1 e)).toInt = (r.val : ℤ)), upd (ix2 e j) := by
  rw [aggOf_eq1, scatterAdd_apply]
  refine congrArg₂ (· + ·) ?_ ?_
  · rw [broadcastInDim_scalar_apply, constant_apply, zero_eq]
  · refine Finset.sum_congr (Finset.filter_congr fun e _ => ?_) fun _ _ => rfl
    rw [column_apply]

/-- The mean over a sample's 27 node rows of an array of 20000 · 27 rows, read at (i, j): the zero start value plus the
    sum over n of the array's row 27 · i + n (the position of (i, n, j) in [20000, 27, 41] is that of (27 · i + n, j) in
    [540000, 41]), divided by the literal 27. -/
theorem meanOf_apply (a : FVec Ideal S540000x41 .f32) (i : Fin 20000) (j : Fin 41) :
    Host.divf (F := Ideal)
        (Host.reduceAdd (F := Ideal) (shapeCast S20000x27x41 a shapeCasts_S540000x41_S20000x27x41)
          (constant (F := Ideal) S_ .f32 0x00000000#32) reducesTo_S20000x27x41_S20000x41_d1 h_S_)
        (broadcastInDim S20000x41 ![] bcast_S_S20000x41 (constant (F := Ideal) S_ .f32 0x41D80000#32)) (ix2 i j)
      = Ideal.div (0 + ∑ n : Fin 27, a (ix2 (⟨27 * i.val + n.val, by omega⟩ : Fin 540000) j)) c27 := by
  have hR : S20000x27x41.Reduces [1] S20000x41 :=
    ⟨reducesTo_S20000x27x41_S20000x41_d1.1, Nat.two_pos, reducesTo_S20000x27x41_S20000x41_d1.2⟩
  rw [hostDivf_apply, hostReduceAdd_apply, broadcastInDim_scalar_apply, constant_apply, constant_apply,
    Ideal.hostReduceAdd_single _ hR, zero_eq]
  refine congrArg (fun s => Ideal.div (0 + s) c27) (Finset.sum_congr rfl fun n _ => ?_)
  refine shapeCast_apply a _ _ _ ?_
  rw [Shape.rowMajor_val_two, Shape.rowMajor_val_three]
  show (27 * i.val + n.val) * 41 + j.val = (i.val * 27 + n.val) * 41 + j.val
  omega

/-- One message entry: the gathered source row's entry times the edge's weight. -/
theorem msg_apply (X : FVec Ideal S20000x483 .f32) (D : FVec Ideal S27x3 .f32) (e : Fin 1040000) (j : Fin 41) :
    msg (F := Ideal) X D (ix2 e j)
      = takeF (F := Ideal) (nodeFeat (F := Ideal) X) srcIdx (ix2 e j) * wFull (F := Ideal) D (ix1 e) := by
  unfold msg
  rw [mulf_apply, repeat_apply, column_apply]

/-- The reference's result at (i, j): over the sample's 27 node rows 27 · i + n, the messages of the edges whose
    destination is that row, summed from zero, then the 27 totals summed from zero and divided by 27. -/
theorem refVal_apply (X : FVec Ideal S20000x483 .f32) (D : FVec Ideal S27x3 .f32) (i : Fin 20000) (j : Fin 41) :
    refVal (F := Ideal) X D (ix2 i j)
      = Ideal.div
          (0 + ∑ n : Fin 27,
            (0 + ∑ e ∈ Finset.univ.filter (fun e : Fin 1040000 => (dstIdx (ix1 e)).toInt = ((27 * i.val + n.val : ℕ) : ℤ)),
              takeF (F := Ideal) (nodeFeat (F := Ideal) X) srcIdx (ix2 e j) * wFull (F := Ideal) D (ix1 e)))
          c27 := by
  unfold refVal
  rw [meanOf_apply]
  refine congrArg (fun s => Ideal.div (0 + s) c27) (Finset.sum_congr rfl fun n _ => ?_)
  unfold agg
  rw [aggOf_apply]
  refine congrArg (0 + ·) (Finset.sum_congr (Finset.filter_congr fun e _ => Iff.rfl) fun e _ => ?_)
  exact msg_apply X D e j

end Main

end Cert.RefScatter

end
-- ==== Proof.Algebra.lean ====
/-
  The algebra joining the message-passing form and the matrix form.

  * `collapse`: a flat edge e = 52 · i' + s ends at row 27 · i' + edgeDst s; since edgeDst s < 27, the edges ending at
    row 27 · i + n are exactly the edges 52 · i + s with edgeDst s = n.
  * `refOut_eq_kerOut`: with all entries real, both forms are the cast of the same real number.
-/
import proofs.«140815_g12034498363475_cont_main3_758_5_alg».proof.Proof.Spec
import Mathlib

noncomputable section

namespace Cert.Algebra

open Idealize.ShloMosaic Idealize.ShloMosaic.ValueIdx Cert.Spec

/-- The edges ending at row 27 · i + n are the edges 52 · i + s with edgeDst s = n. -/
theorem collapse (dst : Fin 1040000 → ℤ)
    (hdst : ∀ e : Fin 1040000, dst e = ((27 * (e.val / 52) + (edgeDst (⟨e.val % 52, Nat.mod_lt _ (by norm_num)⟩ : Fin 52)).val : ℕ) : ℤ))
    (f : Fin 1040000 → EReal) (i : Fin 20000) (n : Fin 27) :
    ∑ e ∈ Finset.univ.filter (fun e : Fin 1040000 => dst e = ((27 * i.val + n.val : ℕ) : ℤ)), f e
      = ∑ s ∈ Finset.univ.filter (fun s : Fin 52 => edgeDst s = n), f (⟨52 * i.val + s.val, by omega⟩ : Fin 1040000) := by
  symm
  refine Finset.sum_bij (fun s _ => (⟨52 * i.val + s.val, by omega⟩ : Fin 1040000)) ?_ ?_ ?_ ?_
  · -- an edge 52 · i + s with edgeDst s = n ends at row 27 · i + n
    intro s hs
    rw [Finset.mem_filter] at hs ⊢
    refine ⟨Finset.mem_univ _, ?_⟩
    rw [hdst]
    have h1 : (52 * i.val + s.val) / 52 = i.val := by omega
    have h2 : (⟨(52 * i.val + s.val) % 52, Nat.mod_lt _ (by norm_num)⟩ : Fin 52) = s := by
      apply Fin.ext; show (52 * i.val + s.val) % 52 = s.val; omega
    show ((27 * ((52 * i.val + s.val) / 52) + (edgeDst (⟨(52 * i.val + s.val) % 52, _⟩ : Fin 52)).val : ℕ) : ℤ) = _
    rw [h1, h2, hs.2]
  · -- the map s ↦ 52 · i + s is injective
    intro a _ b _ hab
    have := congrArg Fin.val hab
    apply Fin.ext
    simp only at this
    omega
  · -- every edge ending at row 27 · i + n has this form
    intro e he
    rw [Finset.mem_filter] at he
    have hd := he.2
    rw [hdst] at hd
    have hlt : (edgeDst (⟨e.val % 52, Nat.mod_lt _ (by norm_num)⟩ : Fin 52)).val < 27 := Fin.isLt _
    have hn : n.val < 27 := n.isLt
    have hd' : 27 * (e.val / 52) + (edgeDst (⟨e.val % 52, Nat.mod_lt _ (by norm_num)⟩ : Fin 52)).val = 27 * i.val + n.val := by
      exact_mod_cast hd
    have hi : e.val / 52 = i.val := by omega
    have hv : (edgeDst (⟨e.val % 52, Nat.mod_lt _ (by norm_num)⟩ : Fin 52)).val = n.val := by omega
    refine ⟨⟨e.val % 52, Nat.mod_lt _ (by norm_num)⟩, ?_, ?_⟩
    · rw [Finset.mem_filter]; exact ⟨Finset.mem_univ _, Fin.ext hv⟩
    · apply Fin.ext
      show 52 * i.val + e.val % 52 = e.val
      have := Nat.div_add_mod e.val 52
      omega
  · intro s _; rfl

/-! ### Real witnesses -/

/-- The cast of a finite real sum is the sum of the casts. -/
theorem coe_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The real edge weight exp (−√(Σ_d (D a d − D b d)²)). -/
def wr (dr : SD.Idx → ℝ) (a b : Fin 27) : ℝ :=
  Real.exp (-(Real.sqrt (∑ d : Fin 3, (dr (ix2 a d) - dr (ix2 b d)) * (dr (ix2 a d) - dr (ix2 b d)))))

/-- The weight is symmetric: (p − q)² = (q − p)². -/
theorem wr_symm (dr : SD.Idx → ℝ) (a b : Fin 27) : wr dr a b = wr dr b a := by
  unfold wr
  have : (∑ d : Fin 3, (dr (ix2 a d) - dr (ix2 b d)) * (dr (ix2 a d) - dr (ix2 b d)))
      = ∑ d : Fin 3, (dr (ix2 b d) - dr (ix2 a d)) * (dr (ix2 b d) - dr (ix2 a d)) :=
    Finset.sum_congr rfl (fun d _ => by ring)
  rw [this]

/-- With real positions the edge weight is the cast of the real weight: the sum of squares is a non-negative real,
    so its square root is real, and the exponential of a real is real. -/
theorem wgt_coe (D : SD.Idx → EReal) (dr : SD.Idx → ℝ) (hdr : ∀ idx, D idx = (dr idx : EReal)) (a b : Fin 27) :
    wgt D a b = (wr dr a b : EReal) := by
  unfold wgt wr
  have h : (0 + ∑ d : Fin 3, (D (ix2 a d) - D (ix2 b d)) * (D (ix2 a d) - D (ix2 b d)))
      = ((∑ d : Fin 3, (dr (ix2 a d) - dr (ix2 b d)) * (dr (ix2 a d) - dr (ix2 b d)) : ℝ) : EReal) := by
    rw [zero_add, coe_sum]
    refine Finset.sum_congr rfl (fun d _ => ?_)
    rw [hdr, hdr, ← EReal.coe_sub, ← EReal.coe_mul]
  rw [h, Ideal.sqrt_coe, if_neg (not_lt.mpr (Finset.sum_nonneg (fun d _ => mul_self_nonneg _))), ← EReal.coe_neg,
    Ideal.exp_coe]

/-- The real leaf weight: leaf u + 1 against the centre. -/
def lwr (w : Fin 27 → Fin 27 → ℝ) (u : Fin 26) : ℝ := w ⟨u.val + 1, by omega⟩ ⟨0, by omega⟩

/-- The real node coefficient. -/
def cr (w : Fin 27 → Fin 27 → ℝ) (v : Fin 27) : ℝ :=
  (if h : v.val = 0 then ∑ u : Fin 26, lwr w u else lwr w ⟨v.val - 1, by omega⟩) * (1 / 27)

/-- The real weight matrix. -/
def mr (w : Fin 27 → Fin 27 → ℝ) (k : Fin 483) (j : Fin 41) : ℝ :=
  if h : k.val < 459 then (if (perm j).val = k.val % 17 then cr w ⟨k.val / 17, by omega⟩ else 0)
  else (if (perm j).val = 17 + (k.val - 459) then 2 * cr w ⟨0, by omega⟩ else 0)

theorem leafW_coe (D : SD.Idx → EReal) (dr : SD.Idx → ℝ) (hdr : ∀ idx, D idx = (dr idx : EReal)) (u : Fin 26) :
    leafW D u = (lwr (wr dr) u : EReal) := wgt_coe D dr hdr _ _

theorem coef_coe (D : SD.Idx → EReal) (dr : SD.Idx → ℝ) (hdr : ∀ idx, D idx = (dr idx : EReal)) (v : Fin 27) :
    coef D v = (cr (wr dr) v : EReal) := by
  unfold coef cr
  rw [c27_eq, Ideal.div_coe (by norm_num), EReal.coe_mul]
  congr 1
  by_cases h : v.val = 0
  · rw [dif_pos h, dif_pos h, zero_add, coe_sum]
    exact Finset.sum_congr rfl (fun u _ => leafW_coe D dr hdr u)
  · rw [dif_neg h, dif_neg h]
    exact leafW_coe D dr hdr _

theorem Mspec_coe (D : SD.Idx → EReal) (dr : SD.Idx → ℝ) (hdr : ∀ idx, D idx = (dr idx : EReal)) (k : Fin 483)
    (j : Fin 41) : Mspec D k j = (mr (wr dr) k j : EReal) := by
  unfold Mspec mr
  by_cases h : k.val < 459
  · rw [dif_pos h, dif_pos h]
    by_cases h2 : (perm j).val = k.val % 17
    · rw [if_pos h2, if_pos h2]; exact coef_coe D dr hdr _
    · rw [if_neg h2, if_neg h2]; exact EReal.coe_zero.symm
  · rw [dif_neg h, dif_neg h]
    by_cases h2 : (perm j).val = 17 + (k.val - 459)
    · rw [if_pos h2, if_pos h2, c2_eq, coef_coe D dr hdr, ← EReal.coe_mul]
    · rw [if_neg h2, if_neg h2]; exact EReal.coe_zero.symm

/-- The message-passing form is the cast of a real number: the 27 receiving nodes partition the 52 edges. -/
theorem refOut_coe (X : SX.Idx → EReal) (D : SD.Idx → EReal) (xr : SX.Idx → ℝ) (dr : SD.Idx → ℝ)
    (hxr : ∀ idx, X idx = (xr idx : EReal)) (hdr : ∀ idx, D idx = (dr idx : EReal)) (i : Fin 20000) (j : Fin 41) :
    refOut X D i j
      = (((∑ s : Fin 52, xr (ix2 i (col (edgeSrc s) (perm j))) * wr dr (edgeDst s) (edgeSrc s)) * (1 / 27) : ℝ) : EReal) := by
  unfold refOut
  rw [c27_eq, Ideal.div_coe (by norm_num), zero_add, EReal.coe_mul]
  congr 1
  rw [← Finset.sum_fiberwise Finset.univ edgeDst, coe_sum]
  refine Finset.sum_congr rfl (fun n _ => ?_)
  rw [zero_add, coe_sum]
  refine Finset.sum_congr rfl (fun s _ => ?_)
  rw [hxr, wgt_coe D dr hdr, EReal.coe_mul]

/-- The matrix form is the cast of a real number. -/
theorem kerOut_coe (X : SX.Idx → EReal) (D : SD.Idx → EReal) (xr : SX.Idx → ℝ) (dr : SD.Idx → ℝ)
    (hxr : ∀ idx, X idx = (xr idx : EReal)) (hdr : ∀ idx, D idx = (dr idx : EReal))
    (Mx : SM.Idx → EReal) (hM : ∀ (k : Fin 483) (j : Fin 41), Mx (ix2 k j) = Mspec D k j) (i : Fin 20000) (j : Fin 41) :
    kerOut X Mx i j = ((∑ k : Fin 483, xr (ix2 i k) * mr (wr dr) k j : ℝ) : EReal) := by
  unfold kerOut
  rw [coe_sum]
  refine Finset.sum_congr rfl (fun k _ => ?_)
  rw [hxr, hM, Mspec_coe D dr hdr, EReal.coe_mul]

/-! ### The real identity -/

theorem col_val_lo (v : Fin 27) (c : Fin 41) (hc : c.val < 17) : (col v c).val = 17 * v.val + c.val := by
  unfold col; rw [dif_pos hc]

theorem col_val_hi (v : Fin 27) (c : Fin 41) (hc : ¬ c.val < 17) : (col v c).val = 459 + (c.val - 17) := by
  unfold col; rw [dif_neg hc]

theorem mr_lo (w : Fin 27 → Fin 27 → ℝ) (k : Fin 483) (j : Fin 41) (h : k.val < 459) (h2 : (perm j).val = k.val % 17) :
    mr w k j = cr w ⟨k.val / 17, by omega⟩ := by
  unfold mr; rw [dif_pos h, if_pos h2]

theorem mr_lo_ne (w : Fin 27 → Fin 27 → ℝ) (k : Fin 483) (j : Fin 41) (h : k.val < 459)
    (h2 : ¬ (perm j).val = k.val % 17) : mr w k j = 0 := by
  unfold mr; rw [dif_pos h, if_neg h2]

theorem mr_hi (w : Fin 27 → Fin 27 → ℝ) (k : Fin 483) (j : Fin 41) (h : ¬ k.val < 459)
    (h2 : (perm j).val = 17 + (k.val - 459)) : mr w k j = 2 * cr w ⟨0, by omega⟩ := by
  unfold mr; rw [dif_neg h, if_pos h2]

theorem mr_hi_ne (w : Fin 27 → Fin 27 → ℝ) (k : Fin 483) (j : Fin 41) (h : ¬ k.val < 459)
    (h2 : ¬ (perm j).val = 17 + (k.val - 459)) : mr w k j = 0 := by
  unfold mr; rw [dif_neg h, if_neg h2]

theorem cr_zero (w : Fin 27 → Fin 27 → ℝ) : cr w ⟨0, by omega⟩ = (∑ u : Fin 26, lwr w u) * (1 / 27) := by
  unfold cr; rw [dif_pos rfl]

theorem cr_succ (w : Fin 27 → Fin 27 → ℝ) (u : Fin 26) : cr w ⟨u.val + 1, by omega⟩ = lwr w u * (1 / 27) := by
  unfold cr
  rw [dif_neg (show ¬ (⟨u.val + 1, by omega⟩ : Fin 27).val = 0 from Nat.succ_ne_zero _)]
  rfl

/-- The 52 edges: the first 26 go from the centre to leaf u + 1, the others from leaf u + 1 to the centre. -/
theorem sum_edges (g : Fin 52 → ℝ) :
    ∑ s : Fin 52, g s = ∑ u : Fin 26, g ⟨u.val, by omega⟩ + ∑ u : Fin 26, g ⟨26 + u.val, by omega⟩ :=
  Fin.sum_univ_add (a := 26) (b := 26) g

theorem edgeSrc_lo (u : Fin 26) : edgeSrc ⟨u.val, by omega⟩ = ⟨0, by omega⟩ := by
  unfold edgeSrc; rw [dif_pos (show (⟨u.val, by omega⟩ : Fin 52).val < 26 from u.isLt)]

theorem edgeDst_lo (u : Fin 26) : edgeDst ⟨u.val, by omega⟩ = ⟨u.val + 1, by omega⟩ := by
  unfold edgeDst; rw [dif_pos (show (⟨u.val, by omega⟩ : Fin 52).val < 26 from u.isLt)]

theorem edgeSrc_hi (u : Fin 26) : edgeSrc ⟨26 + u.val, by omega⟩ = ⟨u.val + 1, by omega⟩ := by
  unfold edgeSrc
  rw [dif_neg (show ¬ (⟨26 + u.val, by omega⟩ : Fin 52).val < 26 from by simp)]
  apply Fin.ext; show 26 + u.val - 25 = u.val + 1; omega

theorem edgeDst_hi (u : Fin 26) : edgeDst ⟨26 + u.val, by omega⟩ = ⟨0, by omega⟩ := by
  unfold edgeDst
  rw [dif_neg (show ¬ (⟨26 + u.val, by omega⟩ : Fin 52).val < 26 from by simp)]

/-- The message sum over the 52 edges as two sums over the 26 leaves. -/
theorem msg_sum (x : Fin 483 → ℝ) (w : Fin 27 → Fin 27 → ℝ) (hw : ∀ a b, w a b = w b a) (c : Fin 41) :
    ∑ s : Fin 52, x (col (edgeSrc s) c) * w (edgeDst s) (edgeSrc s)
      = ∑ u : Fin 26, x (col ⟨0, by omega⟩ c) * lwr w u + ∑ u : Fin 26, x (col ⟨u.val + 1, by omega⟩ c) * lwr w u := by
  rw [sum_edges]
  refine congrArg₂ (· + ·) (Finset.sum_congr rfl (fun u _ => ?_)) (Finset.sum_congr rfl (fun u _ => ?_))
  · rw [edgeSrc_lo, edgeDst_lo]; rfl
  · rw [edgeSrc_hi, edgeDst_hi, hw]; rfl

/-- A per-node channel c < 17: only the rows 17 · v + c are non-zero, with value the coefficient of node v. -/
theorem sum_rows_lo (x : Fin 483 → ℝ) (w : Fin 27 → Fin 27 → ℝ) (j : Fin 41) (hc : (perm j).val < 17) :
    ∑ k : Fin 483, x k * mr w k j = ∑ v : Fin 27, x (col v (perm j)) * cr w v := by
  have hinj : ∀ a ∈ (Finset.univ : Finset (Fin 27)), ∀ b ∈ (Finset.univ : Finset (Fin 27)),
      col a (perm j) = col b (perm j) → a = b := by
    intro a _ b _ hab
    have h := congrArg Fin.val hab
    rw [col_val_lo a _ hc, col_val_lo b _ hc] at h
    exact Fin.ext (by omega)
  have hzero : ∀ k ∈ (Finset.univ : Finset (Fin 483)),
      k ∉ (Finset.univ : Finset (Fin 27)).image (fun v => col v (perm j)) → x k * mr w k j = 0 := by
    intro k _ hk
    by_cases h : k.val < 459
    · by_cases h2 : (perm j).val = k.val % 17
      · exfalso
        apply hk
        rw [Finset.mem_image]
        refine ⟨⟨k.val / 17, by omega⟩, Finset.mem_univ _, ?_⟩
        apply Fin.ext
        rw [col_val_lo _ _ hc]
        show 17 * (k.val / 17) + (perm j).val = k.val
        have := Nat.div_add_mod k.val 17
        omega
      · rw [mr_lo_ne w k j h h2, mul_zero]
    · rw [mr_hi_ne w k j h (by omega), mul_zero]
  calc ∑ k : Fin 483, x k * mr w k j
      = ∑ k ∈ (Finset.univ : Finset (Fin 27)).image (fun v => col v (perm j)), x k * mr w k j :=
        (Finset.sum_subset (Finset.subset_univ _) hzero).symm
    _ = ∑ v : Fin 27, x (col v (perm j)) * mr w (col v (perm j)) j := Finset.sum_image hinj
    _ = ∑ v : Fin 27, x (col v (perm j)) * cr w v := by
        refine Finset.sum_congr rfl (fun v _ => ?_)
        have hv := col_val_lo v (perm j) hc
        rw [mr_lo w _ j (by omega) (by omega)]
        congr 2
        apply Fin.ext
        show (col v (perm j)).val / 17 = v.val
        omega

/-- A shared channel c ≥ 17: only row 459 + (c − 17) is non-zero, with value twice the centre's coefficient. -/
theorem sum_rows_hi (x : Fin 483 → ℝ) (w : Fin 27 → Fin 27 → ℝ) (j : Fin 41) (hc : ¬ (perm j).val < 17) :
    ∑ k : Fin 483, x k * mr w k j = x (col ⟨0, by omega⟩ (perm j)) * (2 * cr w ⟨0, by omega⟩) := by
  have h0 := col_val_hi ⟨0, by omega⟩ (perm j) hc
  have hp : (perm j).val < 41 := (perm j).isLt
  rw [Finset.sum_eq_single (col ⟨0, by omega⟩ (perm j))]
  · rw [mr_hi w _ j (by omega) (by omega)]
  · intro k _ hk
    have hk' : k.val ≠ (col ⟨0, by omega⟩ (perm j)).val := fun h => hk (Fin.ext h)
    by_cases h : k.val < 459
    · rw [mr_lo_ne w k j h (by omega), mul_zero]
    · rw [mr_hi_ne w k j h (by omega), mul_zero]
  · intro h; exact absurd (Finset.mem_univ _) h

/-- (Σ x₀ l + Σ xs l) t = x₀ ((Σ l) t) + Σ xs (l t). -/
theorem alg_lo (x0 t : ℝ) (xs l : Fin 26 → ℝ) :
    (∑ u : Fin 26, x0 * l u + ∑ u : Fin 26, xs u * l u) * t
      = x0 * ((∑ u : Fin 26, l u) * t) + ∑ u : Fin 26, xs u * (l u * t) := by
  have hB : (∑ u : Fin 26, xs u * l u) * t = ∑ u : Fin 26, xs u * (l u * t) := by
    rw [Finset.sum_mul]; exact Finset.sum_congr rfl (fun u _ => mul_assoc _ _ _)
  rw [add_mul, hB, ← Finset.mul_sum]; ring

/-- (Σ x₀ l + Σ x₀ l) t = x₀ (2 ((Σ l) t)). -/
theorem alg_hi (x0 t : ℝ) (l : Fin 26 → ℝ) :
    (∑ u : Fin 26, x0 * l u + ∑ u : Fin 26, x0 * l u) * t = x0 * (2 * ((∑ u : Fin 26, l u) * t)) := by
  rw [← Finset.mul_sum]; ring

/-- The two forms agree on real data. -/
theorem real_identity (x : Fin 483 → ℝ) (w : Fin 27 → Fin 27 → ℝ) (hw : ∀ a b, w a b = w b a) (j : Fin 41) :
    (∑ s : Fin 52, x (col (edgeSrc s) (perm j)) * w (edgeDst s) (edgeSrc s)) * (1 / 27)
      = ∑ k : Fin 483, x k * mr w k j := by
  rw [msg_sum x w hw]
  by_cases hc : (perm j).val < 17
  · have hR : ∑ v : Fin 27, x (col v (perm j)) * cr w v
        = x (col ⟨0, by omega⟩ (perm j)) * ((∑ u : Fin 26, lwr w u) * (1 / 27))
          + ∑ u : Fin 26, x (col ⟨u.val + 1, by omega⟩ (perm j)) * (lwr w u * (1 / 27)) := by
      rw [Fin.sum_univ_succ (fun v : Fin 27 => x (col v (perm j)) * cr w v)]
      refine congrArg₂ (· + ·) ?_ (Finset.sum_congr rfl (fun u _ => ?_))
      · rw [← cr_zero]; rfl
      · rw [← cr_succ w u]; rfl
    rw [sum_rows_lo x w j hc, hR]
    exact alg_lo _ _ _ _
  · have hcol : ∀ u : Fin 26, col ⟨u.val + 1, by omega⟩ (perm j) = col ⟨0, by omega⟩ (perm j) := by
      intro u
      apply Fin.ext
      rw [col_val_hi _ _ hc, col_val_hi _ _ hc]
    have hB : ∑ u : Fin 26, x (col ⟨u.val + 1, by omega⟩ (perm j)) * lwr w u
        = ∑ u : Fin 26, x (col ⟨0, by omega⟩ (perm j)) * lwr w u :=
      Finset.sum_congr rfl (fun u _ => by rw [hcol u])
    rw [sum_rows_hi x w j hc, cr_zero, hB]
    exact alg_hi _ _ _

/-- With all entries real, the message-passing form equals the matrix form. -/
theorem refOut_eq_kerOut (X : SX.Idx → EReal) (D : SD.Idx → EReal) (hX : Finite X) (hD : Finite D)
    (Mx : SM.Idx → EReal) (hM : ∀ (k : Fin 483) (j : Fin 41), Mx (ix2 k j) = Mspec D k j) (i : Fin 20000) (j : Fin 41) :
    refOut X D i j = kerOut X Mx i j := by
  choose xr hxr using hX
  choose dr hdr using hD
  rw [refOut_coe X D xr dr hxr hdr, kerOut_coe X D xr dr hxr hdr Mx hM]
  congr 1
  exact real_identity (fun k => xr (ix2 i k)) (wr dr) (wr_symm dr) j

end Cert.Algebra

end
-- ==== Proof.RefRead.lean ====
/-
  The reference's result read at an entry: it is the message-passing form `Cert.Spec.refOut`.

  The mean over a sample's 27 nodes of the summed messages is, node by node, a sum over the edges of ALL samples whose
  destination row is that node's row; only the sample's own 52 edges can end there (edge 52 · i + s ends at row
  27 · i + destination of s), and such an edge carries the source node's channel — row 27 · i + source of s of the node
  features, which is the state row i at that node's column — times the weight of edge s.
-/
import proofs.«140815_g12034498363475_cont_main3_758_5_alg».proof.Proof.RefNodeFeat
import proofs.«140815_g12034498363475_cont_main3_758_5_alg».proof.Proof.Weights
import proofs.«140815_g12034498363475_cont_main3_758_5_alg».proof.Proof.RefIndex
import proofs.«140815_g12034498363475_cont_main3_758_5_alg».proof.Proof.RefScatter
import proofs.«140815_g12034498363475_cont_main3_758_5_alg».proof.Proof.Algebra

noncomputable section

namespace Cert.RefRead

open Idealize.ShloMosaic Idealize.ShloMosaic.ValueIdx Cert.Spec Cert.ReferenceIdeal Cert.RefStages

variable [Cert.ReferenceIdeal.Facts]

/-- A natural number below 2³¹ read back signed from its 32-bit word. -/
theorem toInt_ofNat_small (n : ℕ) (h : n < 2 ^ 31) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- Edge e's destination row, read signed: 27 · (e / 52) + the destination node of edge e % 52. -/
theorem dst_toInt (e : Fin 1040000) :
    (dstIdx (ix1 e)).toInt = ((27 * (e.val / 52) + (edgeDst (⟨e.val % 52, Nat.mod_lt _ (by norm_num)⟩ : Fin 52)).val : ℕ) : ℤ) := by
  rw [Cert.RefIndex.dstIdx_apply]
  have h1 : e.val / 52 < 20000 := by have := e.isLt; omega
  have h2 : (edgeDst (⟨e.val % 52, Nat.mod_lt _ (by norm_num)⟩ : Fin 52)).val < 27 := (edgeDst _).isLt
  exact toInt_ofNat_small _ (by omega)

/-- The reference's result at (i, j) is the message-passing form. -/
theorem refVal_eq_refOut (X : FVec Ideal S20000x483 .f32) (D : FVec Ideal S27x3 .f32) (i : Fin 20000) (j : Fin 41) :
    refVal (F := Ideal) X D (ix2 i j) = refOut X D i j := by
  rw [Cert.RefScatter.refVal_apply]
  unfold refOut
  refine congrArg (fun z => Ideal.div (0 + z) c27) ?_
  refine Finset.sum_congr rfl fun n _ => ?_
  refine congrArg (fun z => (0 : EReal) + z) ?_
  rw [Cert.Algebra.collapse (fun e => (dstIdx (ix1 e)).toInt) dst_toInt
    (fun e => takeF (F := Ideal) (nodeFeat (F := Ideal) X) srcIdx (ix2 e j) * wFull (F := Ideal) D (ix1 e)) i n]
  refine Finset.sum_congr rfl fun s _ => ?_
  have hi : i.val < 20000 := i.isLt
  have hs : s.val < 52 := s.isLt
  have hv : (edgeSrc s).val < 27 := (edgeSrc s).isLt
  have hdiv : (52 * i.val + s.val) / 52 = i.val := by omega
  have hmod : (52 * i.val + s.val) % 52 = s.val := by omega
  have hs' : (⟨(52 * i.val + s.val) % 52, Nat.mod_lt _ (by norm_num)⟩ : Fin 52) = s := Fin.ext hmod
  show takeF (F := Ideal) (nodeFeat (F := Ideal) X) srcIdx (ix2 (⟨52 * i.val + s.val, by omega⟩ : Fin 1040000) j)
      * wFull (F := Ideal) D (ix1 (⟨52 * i.val + s.val, by omega⟩ : Fin 1040000)) = _
  rw [Cert.RefIndex.takeF_apply (nodeFeat (F := Ideal) X) srcIdx ⟨52 * i.val + s.val, by omega⟩ j ⟨27 * i.val + (edgeSrc s).val, by omega⟩
      (by rw [Cert.RefIndex.srcIdx_apply]; simp only [hdiv, hs']),
    Cert.RefNodeFeat.nodeFeat_apply, Cert.Weights.wFull_apply, Cert.Weights.wRef_apply]
  simp only [hs']
  have hr1 : (27 * i.val + (edgeSrc s).val) / 27 = i.val := by omega
  have hr2 : (27 * i.val + (edgeSrc s).val) % 27 = (edgeSrc s).val := by omega
  have e1 : (⟨(27 * i.val + (edgeSrc s).val) / 27, by omega⟩ : Fin 20000) = i := Fin.ext hr1
  have e2 : (⟨(27 * i.val + (edgeSrc s).val) % 27, by omega⟩ : Fin 27) = edgeSrc s := Fin.ext hr2
  rw [e1, e2]

end Cert.RefRead

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«140815_g12034498363475_cont_main3_758_5_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.Finiteness.lean ====
/-
  The precondition read back: when the "every entry is finite" test of both argument arrays is all ones, every entry
  of the state and of the directions is the cast of a real number.
-/
import proofs.«140815_g12034498363475_cont_main3_758_5_alg».proof.Pre_finite_inputs
import proofs.«140815_g12034498363475_cont_main3_758_5_alg».proof.Proof.Spec
import proofs.«140815_g12034498363475_cont_main3_758_5_alg».proof.Proof.LibAllFinite
import Idealize.ShloMosaic.Lib.Affine

noncomputable section

namespace Cert.Finiteness

open Idealize.ShloMosaic Idealize.ShloMosaic.ValueIdx Cert.Pre_finite_inputs

variable [Cert.Pre_finite_inputs.Facts]

/-- Both arrays' tests are 1 exactly when the conjunction the precondition returns is 1; each test then gives
    its array's entries as reals. -/
theorem finite_of_pre (X : FVec Ideal S20000x483 .f32) (D : FVec Ideal S27x3 .f32)
    (h : Cert.Pre_finite_inputs.fn (F := Ideal) X D = fun _ => 1#1) :
    Cert.Spec.Finite X ∧ Cert.Spec.Finite D := by
  have h0 := congrFun h ix0
  dsimp only [Cert.Pre_finite_inputs.fn] at h0
  obtain ⟨h1, h2⟩ := IntOp.andi_eq_one.1 h0
  exact ⟨fun i => Cert.Lib.AllFinite.entry_of_all X _ _ _ ix0 h1 i,
    fun i => Cert.Lib.AllFinite.entry_of_all D _ _ _ ix0 h2 i⟩

end Cert.Finiteness

end
-- ==== Proof.Claims.lean ====
/-
  The five claims.

  Both idealized programs compute, for every sample i and output column j, one real number from the finite state and
  directions. The kernel multiplies the state row by a sparse weight matrix assembled from the star graph's edge
  weights; the reference gathers each edge's source channel, weighs it, sums into destinations and averages over the
  27 nodes. The two are one function (distributivity over the reals, available because the precondition makes
  every input entry a real number), so the two runs end with equal result arrays. The word-level kernel and the
  idealized one need only their frames; the idealization rewrote nothing.
-/
import proofs.«140815_g12034498363475_cont_main3_758_5_alg».proof.Defs
import proofs.«140815_g12034498363475_cont_main3_758_5_alg».proof.Proof.Gen.Kernel.Frame
import proofs.«140815_g12034498363475_cont_main3_758_5_alg».proof.Proof.Gen.KernelIdeal.Value
import proofs.«140815_g12034498363475_cont_main3_758_5_alg».proof.Proof.Gen.ReferenceIdeal
import proofs.«140815_g12034498363475_cont_main3_758_5_alg».proof.Proof.Gen.Pre_finite_inputs
import proofs.«140815_g12034498363475_cont_main3_758_5_alg».proof.Proof.KerValue
import proofs.«140815_g12034498363475_cont_main3_758_5_alg».proof.Proof.KerHost
import proofs.«140815_g12034498363475_cont_main3_758_5_alg».proof.Proof.KerMatrix
import proofs.«140815_g12034498363475_cont_main3_758_5_alg».proof.Proof.Weights
import proofs.«140815_g12034498363475_cont_main3_758_5_alg».proof.Proof.RefRun
import proofs.«140815_g12034498363475_cont_main3_758_5_alg».proof.Proof.RefRead
import proofs.«140815_g12034498363475_cont_main3_758_5_alg».proof.Proof.Algebra
import proofs.«140815_g12034498363475_cont_main3_758_5_alg».proof.Proof.Finiteness

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefRun.run m ρ)

theorem preserves : Cert.preserves_Kernel_KernelIdeal := trivial

/-- The kernel's run with its result array named: the state times the assembled weight matrix. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v42)
            = Cert.KerValue.G (m ((c.tc : Thread Cert.KernelIdeal.nD Cert.KernelIdeal.τ).loc Cert.KernelIdeal.main_arg0))
                (Cert.KerStages.M (F := Ideal) (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  (θ_run Cert.KernelIdeal.defs _ _).mono
    (fun r h c => ⟨(h c).1.trans ((Cert.KerValue.final m c).trans (by
        rw [Cert.KernelIdeal.Gen.V_main_arg0, Cert.KerHost.V_M])), (h c).2⟩)
    (Cert.KernelIdeal.Value.run_blocks m ρ)

/-- Entry by entry the reference's message-passing form and the kernel's matrix form agree on finite inputs. -/
theorem values_eq (X : FVec Ideal Cert.ReferenceIdeal.S20000x483 .f32) (D : FVec Ideal Cert.ReferenceIdeal.S27x3 .f32)
    (hX : Cert.Spec.Finite X) (hD : Cert.Spec.Finite D) :
    Cert.RefStages.refVal (F := Ideal) X D = Cert.KerValue.G X (Cert.KerStages.M (F := Ideal) D) := by
  funext q
  obtain ⟨i, j, rfl⟩ : ∃ (i : Fin 20000) (j : Fin 41), q = ix2 i j := ⟨q 0, q 1, eq_ix2 q⟩
  rw [Cert.RefRead.refVal_eq_refOut]
  exact Cert.Algebra.refOut_eq_kerOut X D hX hD (Cert.KerStages.M (F := Ideal) D)
    (fun k j => Cert.KerMatrix.M_apply D (Cert.Weights.aK_apply D) k j) i j

theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩) (Cert.RefRun.run m' ρ')
  obtain ⟨hX, hD⟩ := Cert.Finiteness.finite_of_pre _ _ (hpre c)
  rw [(hagree c).1, (hagree c).2]
  exact values_eq _ _ hX hD

end Cert.Proof.Claims

end
-- ==== Proof.lean ====
/- The proof of `Cert.Claim`: the three frames, the (empty) idealization ledger, and the equality of the two idealized
   programs' results. The kernel computes the state times a sparse weight matrix built from the star graph's edge weights;
   the reference passes weighted messages along the star's 52 directed edges and averages over the 27 nodes; on finite
   inputs the two are the same real number at every entry (Proof/Claims.lean and the modules it imports). -/
import proofs.«140815_g12034498363475_cont_main3_758_5_alg».proof.Defs
import proofs.«140815_g12034498363475_cont_main3_758_5_alg».proof.Proof.Gen.Kernel
import proofs.«140815_g12034498363475_cont_main3_758_5_alg».proof.Proof.Gen.Kernel.Skeleton
import proofs.«140815_g12034498363475_cont_main3_758_5_alg».proof.Proof.Gen.Kernel.Launch
import proofs.«140815_g12034498363475_cont_main3_758_5_alg».proof.Proof.Gen.Kernel.Points
import proofs.«140815_g12034498363475_cont_main3_758_5_alg».proof.Proof.Gen.Kernel.Frame
import proofs.«140815_g12034498363475_cont_main3_758_5_alg».proof.Proof.Gen.KernelIdeal
import proofs.«140815_g12034498363475_cont_main3_758_5_alg».proof.Proof.Gen.KernelIdeal.Skeleton
import proofs.«140815_g12034498363475_cont_main3_758_5_alg».proof.Proof.Gen.KernelIdeal.Launch
import proofs.«140815_g12034498363475_cont_main3_758_5_alg».proof.Proof.Gen.KernelIdeal.Points
import proofs.«140815_g12034498363475_cont_main3_758_5_alg».proof.Proof.Gen.KernelIdeal.Frame
import proofs.«140815_g12034498363475_cont_main3_758_5_alg».proof.Proof.Gen.ReferenceIdeal
import proofs.«140815_g12034498363475_cont_main3_758_5_alg».proof.Proof.Gen.Pre_finite_inputs
import proofs.«140815_g12034498363475_cont_main3_758_5_alg».proof.Proof.Gen.KernelIdeal.Value
import proofs.«140815_g12034498363475_cont_main3_758_5_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
